-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S4096x4096 : Shape := ⟨2, ![4096, 4096]⟩
abbrev S4096x50 : Shape := ⟨2, ![4096, 50]⟩
abbrev S4096x1 : Shape := ⟨2, ![4096, 1]⟩
abbrev S3x256x256 : Shape := ⟨3, ![3, 256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S3x256x256 : S_.BroadcastsInDim S3x256x256 (![] : Fin 0 → Fin S3x256x256.rank)
  reducesTo_S3x256x256_S_d0_1_2 : S3x256x256.ReducesTo [0, 1, 2] S_

variable [Facts]

def fn_part1 {F : FTy → Type} [FloatOps F] (main_arg5 : FVec F S3x256x256 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S3x256x256 .f32 := Host.absf main_arg5
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  main_v23

def fn {F : FTy → Type} [FloatOps F] (main_arg0 : FVec F S50000x256 .f32) (main_arg1 : FVec F S4096x4096 .f32) (main_arg2 : FVec F S4096x4096 .f32) (main_arg3 : IVec S4096x50 32) (main_arg4 : FVec F S4096x1 .f32) (main_arg5 : FVec F S3x256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1 .f32 := Host.absf main_arg4
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg5 main_v13 main_v16
-- ==== Kernel.lean ====
abbrev S50000x256 : Shape := ⟨2, ![50000, 256]⟩
abbrev S4096x4096 : Shape := ⟨2, ![4096, 4096]⟩
abbrev S4096x50 : Shape := ⟨2, ![4096, 50]⟩
abbrev S4096x1 : Shape := ⟨2, ![4096, 1]⟩
abbrev S3x256x256 : Shape := ⟨3, ![3, 256, 256]⟩
abbrev S_ : Shape := ⟨0, ![]⟩
abbrev S1x256 : Shape := ⟨2, ![1, 256]⟩
abbrev S50001x256 : Shape := ⟨2, ![50001, 256]⟩
abbrev S4096x50x1 : Shape := ⟨3, ![4096, 50, 1]⟩
abbrev S4096x50x256 : Shape := ⟨3, ![4096, 50, 256]⟩
abbrev S4096x256 : Shape := ⟨2, ![4096, 256]⟩
abbrev S1024x1024 : Shape := ⟨2, ![1024, 1024]⟩
abbrev S1x256x256 : Shape := ⟨3, ![1, 256, 256]⟩
abbrev S256x256 : Shape := ⟨2, ![256, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 44
  | .vmem => 55
  | .smem => 0
  | _ => 0

abbrev bufTy : (tb : Table) → Fin (tcTables nBuf tb) → BufTy
  | .hbm, ⟨0, _⟩ => ⟨S50000x256, .f32⟩
  | .hbm, ⟨1, _⟩ => ⟨S4096x4096, .f32⟩
  | .hbm, ⟨2, _⟩ => ⟨S4096x4096, .f32⟩
  | .hbm, ⟨3, _⟩ => ⟨S4096x50, .i32⟩
  | .hbm, ⟨4, _⟩ => ⟨S4096x1, .f32⟩
  | .hbm, ⟨5, _⟩ => ⟨S3x256x256, .f32⟩
  | .hbm, ⟨6, _⟩ => ⟨S_, .f32⟩
  | .hbm, ⟨7, _⟩ => ⟨S1x256, .f32⟩
  | .hbm, ⟨8, _⟩ => ⟨S50001x256, .f32⟩
  | .hbm, ⟨9, _⟩ => ⟨S_, .i32⟩
  | .hbm, ⟨10, _⟩ => ⟨S4096x50, .i32⟩
  | .hbm, ⟨11, _⟩ => ⟨S4096x50, .i1⟩
  | .hbm, ⟨12, _⟩ => ⟨S_, .i32⟩
  | .hbm, ⟨13, _⟩ => ⟨S4096x50, .i32⟩
  | .hbm, ⟨14, _⟩ => ⟨S4096x50, .i32⟩
  | .hbm, ⟨15, _⟩ => ⟨S4096x50, .i32⟩
  | .hbm, ⟨16, _⟩ => ⟨S4096x50x1, .i32⟩
  | .hbm, ⟨17, _⟩ => ⟨S4096x50x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x4096, .bf16⟩
  | .hbm, ⟨23, _⟩ => ⟨S1x256x256, .f32⟩
  | .hbm, ⟨24, _⟩ => ⟨S256x256, .f32⟩
  | .hbm, ⟨25, _⟩ => ⟨S256x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S1x256x256, .f32⟩
  | .hbm, ⟨30, _⟩ => ⟨S256x256, .f32⟩
  | .hbm, ⟨31, _⟩ => ⟨S256x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S1x256x256, .f32⟩
  | .hbm, ⟨36, _⟩ => ⟨S256x256, .f32⟩
  | .hbm, ⟨37, _⟩ => ⟨S256x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x256, .f32⟩
  | .local _ .vmem, ⟨8, _⟩ => ⟨S1024x256, .f32⟩
  | .local _ .vmem, ⟨9, _⟩ => ⟨S256x256, .f32⟩
  | .local _ .vmem, ⟨10, _⟩ => ⟨S1024x256, .f32⟩
  | .local _ .vmem, ⟨11, _⟩ => ⟨S1024x256, .f32⟩
  | .local _ .vmem, ⟨12, _⟩ => ⟨S1024x1024, .bf16⟩
  | .local _ .vmem, ⟨13, _⟩ => ⟨S1024x1024, .bf16⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S256x256, .f32⟩
  | .local _ .vmem, ⟨26, _⟩ => ⟨S1024x256, .f32⟩
  | .local _ .vmem, ⟨27, _⟩ => ⟨S1024x256, .f32⟩
  | .local _ .vmem, ⟨28, _⟩ => ⟨S1024x1024, .bf16⟩
  | .local _ .vmem, ⟨29, _⟩ => ⟨S1024x1024, .bf16⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | .local _ .vmem, ⟨41, _⟩ => ⟨S256x256, .f32⟩
  | .local _ .vmem, ⟨42, _⟩ => ⟨S1024x256, .f32⟩
  | .local _ .vmem, ⟨43, _⟩ => ⟨S1024x256, .f32⟩
  | .local _ .vmem, ⟨44, _⟩ => ⟨S1024x1024, .bf16⟩
  | .local _ .vmem, ⟨45, _⟩ => ⟨S1024x1024, .bf16⟩
  | .local _ .vmem, ⟨46, _⟩ => ⟨S1024x256, .f32⟩
  | .local _ .vmem, ⟨47, _⟩ => ⟨S1024x256, .f32⟩
  | .local _ .vmem, ⟨48, _⟩ => ⟨S1024x256, .f32⟩
  | .local _ .vmem, ⟨49, _⟩ => ⟨S1024x256, .f32⟩
  | .local _ .vmem, ⟨50, _⟩ => ⟨S1024x256, .f32⟩
  | .local _ .vmem, ⟨51, _⟩ => ⟨S1024x256, .f32⟩
  | .local _ .vmem, ⟨52, _⟩ => ⟨S1024x256, .f32⟩
  | .local _ .vmem, ⟨53, _⟩ => ⟨S1024x256, .f32⟩
  | .local _ .vmem, ⟨54, _⟩ => ⟨S1024x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_scratch0 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc6_scratch0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem3_1 : DmaSem sig := 48
abbrev cc6_sem4_0 : DmaSem sig := 49
abbrev cc6_sem4_1 : DmaSem sig := 50

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1024x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![4, 4], ![false, false]⟩

def k6_cond2 (i : grid6.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1024x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S1024x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

class Facts₀ : Prop where
  bcast_S_S1x256 : S_.BroadcastsInDim S1x256 (![] : Fin 0 → Fin S1x256.rank)
  concatenates_S1x256_S50000x256_S50001x256_d0 : Shape.Concatenates [S1x256, S50000x256] S50001x256 0
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  reducesTo_S4096x50x256_S4096x256_d1 : S4096x50x256.ReducesTo [1] S4096x256
  h_S_ : 0 < S_.numel
  bcast_S4096x1_S4096x256_0_1 : S4096x1.BroadcastsInDim S4096x256 (![0, 1] : Fin 2 → Fin S4096x256.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1024x256_S1024 : S1024x256.Reduces [1] S1024
  shapeCasts_S1024_S1024x1 : S1024.ShapeCasts S1024x1
  broadcasts_S1024x1_S1024x256 : S1024x1.Broadcasts S1024x256
  slices_S3x256x256_S1x256x256_1_0_0 : S3x256x256.Slices ![1, 0, 0] S1x256x256
  slices_S3x256x256_S1x256x256_2_0_0 : S3x256x256.Slices ![2, 0, 0] S1x256x256
  bcast_S_S4096x256 : S_.BroadcastsInDim S4096x256 (![] : Fin 0 → Fin S4096x256.rank)
  gather_S50001x256_S4096x50x1_S4096x50x256_2_0_n_n_0_2_1256_wf : GatherDims.WF S50001x256 S4096x50x1 S4096x50x256 [2] [0] [] [0] [] 2 ![1, 256]
  dot_S1024x1024_S1024x1024_S1024x1024_1_0_0_1_n_n_wf : DotDims.WF S1024x1024 S1024x1024 S1024x1024 [1] [0] [0] [1] [] []
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S4096x256.size a
  hwx1_2 : ∀ i : grid1.Coords, EltTy.bits .f32 = 32 ∨ (Rect.block (s := S4096x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S4096x256.size a
  hwx2_2 : ∀ i : grid2.Coords, EltTy.bits .f32 = 32 ∨ (Rect.block (s := S4096x256) S1024x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S4096x256.size a
  hwx2_3 : ∀ i : grid2.Coords, EltTy.bits .f32 = 32 ∨ (Rect.block (s := S4096x256) S1024x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S4096x256.size a
  hwx2_4 : ∀ i : grid2.Coords, EltTy.bits .f32 = 32 ∨ (Rect.block (s := S4096x256) S1024x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x256.size a
  hwx3_0 : ∀ i : grid3.Coords, EltTy.bits .f32 = 32 ∨ (Rect.block (s := S4096x256) S1024x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S4096x256.size a
  hwx3_2 : ∀ i : grid3.Coords, EltTy.bits .f32 = 32 ∨ (Rect.block (s := S4096x256) S1024x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .bf16 = 32 ∨ (Rect.block (s := S4096x4096) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S4096x256.size a
  hwx4_1 : ∀ i : grid4.Coords, EltTy.bits .f32 = 32 ∨ (Rect.block (s := S4096x256) S1024x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S4096x256.size a
  hwx4_2 : ∀ i : grid4.Coords, EltTy.bits .f32 = 32 ∨ (Rect.block (s := S4096x256) S1024x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S4096x256.size a
  hwx4_3 : ∀ i : grid4.Coords, EltTy.bits .f32 = 32 ∨ (Rect.block (s := S4096x256) S1024x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x256.size a ≤ S4096x256.size a
  hwx4_4 : ∀ i : grid4.Coords, EltTy.bits .f32 = 32 ∨ (Rect.block (s := S4096x256) S1024x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S4096x256.size a
  hwx5_0 : ∀ i : grid5.Coords, EltTy.bits .f32 = 32 ∨ (Rect.block (s := S4096x256) S1024x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x256.size a ≤ S4096x256.size a
  hwx5_2 : ∀ i : grid5.Coords, EltTy.bits .f32 = 32 ∨ (Rect.block (s := S4096x256) S1024x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S4096x4096.size a
  hwx6_0 : ∀ i : grid6.Coords, EltTy.bits .bf16 = 32 ∨ (Rect.block (s := S4096x4096) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x256.size a ≤ S4096x256.size a
  hwx6_1 : ∀ i : grid6.Coords, EltTy.bits .f32 = 32 ∨ (Rect.block (s := S4096x256) S1024x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x256.size a ≤ S4096x256.size a
  hwx6_2 : ∀ i : grid6.Coords, EltTy.bits .f32 = 32 ∨ (Rect.block (s := S4096x256) S1024x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x256.size a ≤ S4096x256.size a
  hwx6_3 : ∀ i : grid6.Coords, EltTy.bits .f32 = 32 ∨ (Rect.block (s := S4096x256) S1024x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x256.size a ≤ S4096x256.size a
  hwx6_4 : ∀ i : grid6.Coords, EltTy.bits .f32 = 32 ∨ (Rect.block (s := S4096x256) S1024x256.size (cc6_transform_4 i) (hinb6_4 i)).WholeWords (EltTy.packing .f32)

variable [Facts₀]

def gather_S50001x256_S4096x50x1_S4096x50x256_2_0_n_n_0_2_1256 : GatherDims S50001x256 S4096x50x1 S4096x50x256 where
  offsetDims := [2]
  collapsedSliceDims := [0]
  operandBatchingDims := []
  startIndicesBatchingDims := []
  startIndexMap := [0]
  indexVectorDim := 2
  sliceSizes := ![1, 256]
  wf := gather_S50001x256_S4096x50x1_S4096x50x256_2_0_n_n_0_2_1256_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v11) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17_0) S1024x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17_1) S1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v17_0) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v12) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v17_1) S1024x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v22_0) S1024x256.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v22_1) S1024x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v22_0) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v26) S1024x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v12) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v26) S1024x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v22_1) S1024x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v27_0) S1024x256.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v27_1) S1024x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun i => !(k6_cond2 i == 1#1) | 4 => fun i => !(k6_cond2 i == 1#1) | ⟨_ + 5, h⟩ => absurd h (Nat.not_lt.2 (Nat.le_add_left _ _))

class Facts : Prop extends Facts₀ where

variable [Facts]
-- ==== ReferenceIdeal.lean ====
abbrev S50000x256 : Shape := ⟨2, ![50000, 256]⟩
abbrev S4096x4096 : Shape := ⟨2, ![4096, 4096]⟩
abbrev S4096x50 : Shape := ⟨2, ![4096, 50]⟩
abbrev S4096x1 : Shape := ⟨2, ![4096, 1]⟩
abbrev S3x256x256 : Shape := ⟨3, ![3, 256, 256]⟩
abbrev S_ : Shape := ⟨0, ![]⟩
abbrev S1x256 : Shape := ⟨2, ![1, 256]⟩
abbrev S50001x256 : Shape := ⟨2, ![50001, 256]⟩
abbrev S4096x50x1 : Shape := ⟨3, ![4096, 50, 1]⟩
abbrev S4096x50x256 : Shape := ⟨3, ![4096, 50, 256]⟩
abbrev S4096x256 : Shape := ⟨2, ![4096, 256]⟩
abbrev S1x256x256 : Shape := ⟨3, ![1, 256, 256]⟩
abbrev S256x256 : Shape := ⟨2, ![256, 256]⟩
abbrev S4096 : Shape := ⟨1, ![4096]⟩

abbrev nBuf : Space → Nat
  | .hbm => 74
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S4096x4096, .f32⟩
  | .hbm, ⟨2, _⟩ => ⟨S4096x4096, .f32⟩
  | .hbm, ⟨3, _⟩ => ⟨S4096x50, .i32⟩
  | .hbm, ⟨4, _⟩ => ⟨S4096x1, .f32⟩
  | .hbm, ⟨5, _⟩ => ⟨S3x256x256, .f32⟩
  | .hbm, ⟨6, _⟩ => ⟨S_, .f32⟩
  | .hbm, ⟨7, _⟩ => ⟨S1x256, .f32⟩
  | .hbm, ⟨8, _⟩ => ⟨S50001x256, .f32⟩
  | .hbm, ⟨9, _⟩ => ⟨S_, .i32⟩
  | .hbm, ⟨10, _⟩ => ⟨S4096x50, .i32⟩
  | .hbm, ⟨11, _⟩ => ⟨S4096x50, .i1⟩
  | .hbm, ⟨12, _⟩ => ⟨S_, .i32⟩
  | .hbm, ⟨13, _⟩ => ⟨S4096x50, .i32⟩
  | .hbm, ⟨14, _⟩ => ⟨S4096x50, .i32⟩
  | .hbm, ⟨15, _⟩ => ⟨S4096x50, .i32⟩
  | .hbm, ⟨16, _⟩ => ⟨S4096x50x1, .i32⟩
  | .hbm, ⟨17, _⟩ => ⟨S4096x50x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x4096, .f32⟩
  | .hbm, ⟨23, _⟩ => ⟨S1x256x256, .f32⟩
  | .hbm, ⟨24, _⟩ => ⟨S256x256, .f32⟩
  | .hbm, ⟨25, _⟩ => ⟨S256x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S1x256x256, .f32⟩
  | .hbm, ⟨40, _⟩ => ⟨S256x256, .f32⟩
  | .hbm, ⟨41, _⟩ => ⟨S256x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S1x256x256, .f32⟩
  | .hbm, ⟨56, _⟩ => ⟨S256x256, .f32⟩
  | .hbm, ⟨57, _⟩ => ⟨S256x256, .f32⟩
  | .hbm, ⟨58, _⟩ => ⟨S4096x256, .f32⟩
  | .hbm, ⟨59, _⟩ => ⟨S4096x256, .f32⟩
  | .hbm, ⟨60, _⟩ => ⟨S4096x256, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x256, .f32⟩
  | .hbm, ⟨69, _⟩ => ⟨S4096x256, .f32⟩
  | .hbm, ⟨70, _⟩ => ⟨S4096x256, .f32⟩
  | .hbm, ⟨71, _⟩ => ⟨S_, .f32⟩
  | .hbm, ⟨72, _⟩ => ⟨S4096x256, .f32⟩
  | .hbm, ⟨73, _⟩ => ⟨S4096x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_call1_v2 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_v0 : Ref sig .tc := ⟨.hbm, 60, rfl⟩
abbrev main_call2_cst : Ref sig .tc := ⟨.hbm, 61, rfl⟩
abbrev main_call2_v1 : Ref sig .tc := ⟨.hbm, 62, rfl⟩
abbrev main_call2_v2 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  bcast_S_S1x256 : S_.BroadcastsInDim S1x256 (![] : Fin 0 → Fin S1x256.rank)
  concatenates_S1x256_S50000x256_S50001x256_d0 : Shape.Concatenates [S1x256, S50000x256] S50001x256 0
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  reducesTo_S4096x50x256_S4096x256_d1 : S4096x50x256.ReducesTo [1] S4096x256
  h_S_ : 0 < S_.numel
  bcast_S4096x1_S4096x256_0_1 : S4096x1.BroadcastsInDim S4096x256 (![0, 1] : Fin 2 → Fin S4096x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  slices_S3x256x256_S1x256x256_1_0_0 : S3x256x256.Slices ![1, 0, 0] S1x256x256
  slices_S3x256x256_S1x256x256_2_0_0 : S3x256x256.Slices ![2, 0, 0] S1x256x256
  bcast_S_S4096x256 : S_.BroadcastsInDim S4096x256 (![] : Fin 0 → Fin S4096x256.rank)
  gather_S50001x256_S4096x50x1_S4096x50x256_2_0_n_n_0_2_1256_wf : GatherDims.WF S50001x256 S4096x50x1 S4096x50x256 [2] [0] [] [0] [] 2 ![1, 256]
  dot_S4096x4096_S4096x4096_S4096x4096_1_0_0_1_n_n_wf : DotDims.WF S4096x4096 S4096x4096 S4096x4096 [1] [0] [0] [1] [] []
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def gather_S50001x256_S4096x50x1_S4096x50x256_2_0_n_n_0_2_1256 : GatherDims S50001x256 S4096x50x1 S4096x50x256 where
  offsetDims := [2]
  collapsedSliceDims := [0]
  operandBatchingDims := []
  startIndicesBatchingDims := []
  startIndexMap := [0]
  indexVectorDim := 2
  sliceSizes := ![1, 256]
  wf := gather_S50001x256_S4096x50x1_S4096x50x256_2_0_n_n_0_2_1256_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.MatmulRunsK0.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The block product D·A: a 1024×1024 output block accumulated over four blocks of the contracted axis

The grid is 4×4×4, the contracted axis innermost: point t works on k = t mod 4. At k = 0 the scratch accumulator is
reset, at every point the product of the two input blocks is added to it, at k = 3 it is stored into the output block. -/

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev VO0_2 : View sig .tc .vmem S1024x1024 .bf16 := (Memref.whole cc0_stg2_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev scM0 : Memref sig .tc .vmem S1024x1024 .f32 := Memref.whole cc0_scratch0
abbrev VS0 : View sig .tc .vmem S1024x1024 .f32 := scM0.view

/-- The region invariant before the first point: the accumulator at anything, the other scoped buffers unopened, the
    generator register at some state. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body, case by case (first, middle, last block of the contracted axis) -/

set_option maxHeartbeats 2000000 in
/-- k = 0: the accumulator is reset and the first product added; the output block is not touched. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .f32) :
    { LS0 : List (View.Piece (Elt F) S1024x1024 .f32) //
      ∀ (xo : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xo
            ∗ (∃ d, owns (c : Thread nD τ) arg6 fullShare d)
            ∗ (iprop(owns (c : Thread nD τ) arg3 fullShare x0 ∗ owns (c : Thread nD τ) arg4 fullShare x1 ∗ owns (c : Thread nD τ) arg5 fullShare xo
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨?_, fun xo E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- 0 < k < 3: the product is added to what the point before left in the accumulator. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .f32) (xs0 : Vec F S1024x1024 .f32) :
    { LS0 : List (View.Piece (Elt F) S1024x1024 .f32) //
      ∀ (xo : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xo
            ∗ owns (c : Thread nD τ) arg6 fullShare xs0
            ∗ (iprop(owns (c : Thread nD τ) arg3 fullShare x0 ∗ owns (c : Thread nD τ) arg4 fullShare x1 ∗ owns (c : Thread nD τ) arg5 fullShare xo
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨?_, fun xo E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- k = 3: the last product is added and the accumulator stored into the output block. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .f32) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨?_, ?_, fun E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Gen

end
-- ==== Proof.MatmulK0.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import proofs.«136557_j13331578487504_1_alg».proof.Proof.MatmulRunsK0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output block -/

theorem scover0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 x1 : Vec F S1024x1024 .f32) (y : S1024x1024.Idx) :
    ∃ pc ∈ (kernelRun0_A c i arg3 harg3 arg4 harg4 arg5 harg5 arg6 harg6 hc0 hc1 x0 x1).1, y ∈ pc.1.set :=
  View.cover_of_tiledL (kernelRun0_A c i arg3 harg3 arg4 harg4 arg5 harg5 arg6 harg6 hc0 hc1 x0 x1).1 S1024x1024.size (by sl_kernel_rfl) y
def sout0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 x1 : Vec F S1024x1024 .f32) : Vec F S1024x1024 .f32 :=
  VS0.read (Elt F) (VS0.writes (Elt F) VS0.junk (kernelRun0_A c i arg3 harg3 arg4 harg4 arg5 harg5 arg6 harg6 hc0 hc1 x0 x1).1)

theorem scover0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 x1 xs0 : Vec F S1024x1024 .f32) (y : S1024x1024.Idx) :
    ∃ pc ∈ (kernelRun0_B c i arg3 harg3 arg4 harg4 arg5 harg5 arg6 harg6 hc0 hc1 x0 x1 xs0).1, y ∈ pc.1.set :=
  View.cover_of_tiledL (kernelRun0_B c i arg3 harg3 arg4 harg4 arg5 harg5 arg6 harg6 hc0 hc1 x0 x1 xs0).1 S1024x1024.size (by sl_kernel_rfl) y
def sout0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 x1 xs0 : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs0).1)

theorem cover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y
def out0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) : Vec F S1024x1024 .bf16 :=
  VO0_2.read (Elt F) (VO0_2.writes (Elt F) VO0_2.junk (kernelRun0_C c i arg3 harg3 arg4 harg4 arg5 harg5 arg6 harg6 hc0 hc1 x0 x1 xs0).1)
theorem scover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y
def sout0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs0).2.1)

/-- A placeholder for the output block at the points that do not store it (never consulted there). -/
def idleBlk0 : Vec F S1024x1024 .bf16 := VO0_2.read (Elt F) VO0_2.junk

/-- THE ACCUMULATION: what the output block's buffer and the accumulator hold after the body at position `n`. -/
def outsAt0 (c : Dev nD) : (n : ℕ) → n < cfg0.N → Vec F S1024x1024 .bf16 × Vec F S1024x1024 .f32
  | 0, hn => (idleBlk0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then False.elim (by omega)
      else (idleBlk0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else (idleBlk0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (idleBlk0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)
theorem outsAt0_B (c : Dev nD) (t : Fin cfg0.N) (h0 : ¬t.val % 4 = 0) (h1 : ¬t.val % 4 = 3) :
    outsAt0 V c t.val t.isLt = (idleBlk0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator holds anything; afterwards what the point
    before left in it. The other scoped buffers stay unopened and the generator register is at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of the block product's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HR⟩, Hg⟩
  isplitl [HS0 HR]
  · isplitl [HS0]
    · iexists _; iexact HS0
    iexact HR
  iexact Hg

end Cert.Kernel.Gen

end
-- ==== Proof.DenseK1.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A dense layer's region: rows of the input times the whole weight matrix

Window 0 is a block of 1024 rows of the 4096×256 input, window 1 the whole 256×256 weight matrix (fetched once),
window 2 the matching block of 1024 rows of the output. The body stores one product into the output block. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S1024x256 := Rect.unit (s := S1024x256) ![0, 0] S1024x256.size inb_S1024x256_S1024x256_0_0
abbrev rW1 : Rect S256x256 := Rect.unit (s := S256x256) ![0, 0] S256x256.size inb_S256x256_S256x256_0_0

/-- The output block after the body: the product of the row block with the weights, stored whole. -/
def out1_2 (x0 : Vec F S1024x256 .f32) (x1 : Vec F S256x256 .f32) : Vec F S1024x256 .f32 :=
  View.canon [⟨rX1, k1_pay1 (View.ld x0 rX1) (View.ld x1 rW1)⟩]

theorem cover1_2 (p0 : Vec F S1024x256 .f32) (y : S1024x256.Idx) :
    ∃ pc ∈ ([⟨rX1, p0⟩] : List (View.Piece (Elt F) S1024x256 .f32)), y ∈ pc.1.set :=
  View.cover_of_tiled [⟨rX1, p0⟩] S1024x256.size (by rfl) y

set_option maxHeartbeats 1000000 in
/-- The body on whole staging buffers: the inputs keep their contents, the output ends at the product. -/
theorem sound_kernel1 (c : Dev nD) (E : Set ℕ) (i : grid1.Coords) (arg1 : Memref sig .tc .vmem S1024x256 .f32) (harg1 : arg1.IsWhole)
    (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the dense layer's pipeline on core `c`: the arrays as the region finds them; the inputs' buffers
    keep their blocks, the output's holds the product of the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.PropRunsK2.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One propagation layer's region: z = P·y accumulated over four blocks of the contracted axis, then the normalised sum

The grid is 4×4, the contracted axis innermost (k = t mod 4). At k = 0 the scratch accumulator is reset; at every point
the product of the P block with the y block is added; at k = 3 the accumulator z is stored as the first result and
acc_in + z / max(‖z‖, ε), row by row, as the second. -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev VO2_3 : View sig .tc .vmem S1024x256 .f32 := (Memref.whole cc2_stg3_0 : Memref sig .tc .vmem S1024x256 .f32).view
abbrev VO2_4 : View sig .tc .vmem S1024x256 .f32 := (Memref.whole cc2_stg4_0 : Memref sig .tc .vmem S1024x256 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .f32 := win2_4.stage (cfg2.slots t 4)
abbrev hs2_4 (t : Fin cfg2.N) : (ms2_4 t).IsWhole := hstage2_4 ((cfg2.slots t 4).cast nbuf2_4)
abbrev scM2 : Memref sig .tc .vmem S1024x256 .f32 := Memref.whole cc2_scratch0
abbrev VS2 : View sig .tc .vmem S1024x256 .f32 := scM2.view

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 2000000 in
/-- k = 0: the accumulator is reset and the first product added; neither result block is touched. -/
noncomputable def kernelRun2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond2_0 i) (hc1 : ¬cond2_1 i)
    (x0 : Vec F S1024x1024 .bf16) (x1 x2 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨?_, fun xo3 xo4 E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- 0 < k < 3: the product is added to what the point before left in the accumulator. -/
noncomputable def kernelRun2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : ¬cond2_1 i)
    (x0 : Vec F S1024x1024 .bf16) (x1 x2 : Vec F S1024x256 .f32) (xs0 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨?_, fun xo3 xo4 E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- k = 3: the last product is added; the accumulator is stored as z and the normalised sum as the new running total. -/
noncomputable def kernelRun2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i)
    (x0 : Vec F S1024x1024 .bf16) (x1 x2 : Vec F S1024x256 .f32) (xs0 : Vec F S1024x256 .f32) :
    Σ' (L3 : List (View.Piece (Elt F) S1024x256 .f32)) (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨?_, ?_, ?_, fun E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Gen

end
-- ==== Proof.PropK2.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import proofs.«136557_j13331578487504_1_alg».proof.Proof.PropRunsK2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the two result blocks -/

theorem scover2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond2_0 i) (hc1 : ¬cond2_1 i) (x0 : Vec F S1024x1024 .bf16) (x1 x2 : Vec F S1024x256 .f32) (y : S1024x256.Idx) :
    ∃ pc ∈ (kernelRun2_A c i arg2 harg2 arg3 harg3 arg4 harg4 arg5 harg5 arg6 harg6 arg7 harg7 hc0 hc1 x0 x1 x2).1, y ∈ pc.1.set :=
  View.cover_of_tiledL (kernelRun2_A c i arg2 harg2 arg3 harg3 arg4 harg4 arg5 harg5 arg6 harg6 arg7 harg7 hc0 hc1 x0 x1 x2).1 S1024x256.size (by sl_kernel_rfl) y
def sout2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond2_0 i) (hc1 : ¬cond2_1 i) (x0 : Vec F S1024x1024 .bf16) (x1 x2 : Vec F S1024x256 .f32) : Vec F S1024x256 .f32 :=
  VS2.read (Elt F) (VS2.writes (Elt F) VS2.junk (kernelRun2_A c i arg2 harg2 arg3 harg3 arg4 harg4 arg5 harg5 arg6 harg6 arg7 harg7 hc0 hc1 x0 x1 x2).1)

theorem scover2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : ¬cond2_1 i) (x0 : Vec F S1024x1024 .bf16) (x1 x2 : Vec F S1024x256 .f32) (xs0 : Vec F S1024x256 .f32) (y : S1024x256.Idx) :
    ∃ pc ∈ (kernelRun2_B c i arg2 harg2 arg3 harg3 arg4 harg4 arg5 harg5 arg6 harg6 arg7 harg7 hc0 hc1 x0 x1 x2 xs0).1, y ∈ pc.1.set :=
  View.cover_of_tiledL (kernelRun2_B c i arg2 harg2 arg3 harg3 arg4 harg4 arg5 harg5 arg6 harg6 arg7 harg7 hc0 hc1 x0 x1 x2 xs0).1 S1024x256.size (by sl_kernel_rfl) y
def sout2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : ¬cond2_1 i) (x0 : Vec F S1024x1024 .bf16) (x1 x2 : Vec F S1024x256 .f32) (xs0 : Vec F S1024x256 .f32) : Vec F S1024x256 .f32 :=
  VS2.read (Elt F) (VS2.writes (Elt F) VS2.junk (kernelRun2_B c i arg2 harg2 arg3 harg3 arg4 harg4 arg5 harg5 arg6 harg6 arg7 harg7 hc0 hc1 x0 x1 x2 xs0).1)

theorem cover2_C3 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) (y : S1024x256.Idx) :
    ∃ pc ∈ (kernelRun2_C c i arg2 harg2 arg3 harg3 arg4 harg4 arg5 harg5 arg6 harg6 arg7 harg7 hc0 hc1 x0 x1 x2 xs0).1, y ∈ pc.1.set :=
  View.cover_of_tiledL (kernelRun2_C c i arg2 harg2 arg3 harg3 arg4 harg4 arg5 harg5 arg6 harg6 arg7 harg7 hc0 hc1 x0 x1 x2 xs0).1 S1024x256.size (by sl_kernel_rfl) y
def out2_C3 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) : Vec F S1024x256 .f32 :=
  VO2_3.read (Elt F) (VO2_3.writes (Elt F) VO2_3.junk (kernelRun2_C c i arg2 harg2 arg3 harg3 arg4 harg4 arg5 harg5 arg6 harg6 arg7 harg7 hc0 hc1 x0 x1 x2 xs0).1)
theorem cover2_C4 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) (y : S1024x256.Idx) :
    ∃ pc ∈ (kernelRun2_C c i arg2 harg2 arg3 harg3 arg4 harg4 arg5 harg5 arg6 harg6 arg7 harg7 hc0 hc1 x0 x1 x2 xs0).2.1, y ∈ pc.1.set :=
  View.cover_of_tiledL (kernelRun2_C c i arg2 harg2 arg3 harg3 arg4 harg4 arg5 harg5 arg6 harg6 arg7 harg7 hc0 hc1 x0 x1 x2 xs0).2.1 S1024x256.size (by sl_kernel_rfl) y
def out2_C4 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) : Vec F S1024x256 .f32 :=
  VO2_4.read (Elt F) (VO2_4.writes (Elt F) VO2_4.junk (kernelRun2_C c i arg2 harg2 arg3 harg3 arg4 harg4 arg5 harg5 arg6 harg6 arg7 harg7 hc0 hc1 x0 x1 x2 xs0).2.1)
theorem scover2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) (y : S1024x256.Idx) :
    ∃ pc ∈ (kernelRun2_C c i arg2 harg2 arg3 harg3 arg4 harg4 arg5 harg5 arg6 harg6 arg7 harg7 hc0 hc1 x0 x1 x2 xs0).2.2.1, y ∈ pc.1.set :=
  View.cover_of_tiledL (kernelRun2_C c i arg2 harg2 arg3 harg3 arg4 harg4 arg5 harg5 arg6 harg6 arg7 harg7 hc0 hc1 x0 x1 x2 xs0).2.2.1 S1024x256.size (by sl_kernel_rfl) y
def sout2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) : Vec F S1024x256 .f32 :=
  VS2.read (Elt F) (VS2.writes (Elt F) VS2.junk (kernelRun2_C c i arg2 harg2 arg3 harg3 arg4 harg4 arg5 harg5 arg6 harg6 arg7 harg7 hc0 hc1 x0 x1 x2 xs0).2.2.1)

/-- A placeholder for a result block at the points that do not store it (never consulted there). -/
def idleBlk2 : Vec F S1024x256 .f32 := VO2_3.read (Elt F) VO2_3.junk

/-- THE ACCUMULATION: what the two result blocks' buffers and the accumulator hold after the body at position `n`. -/
def outsAt2 (c : Dev nD) : (n : ℕ) → n < cfg2.N → Vec F S1024x256 .f32 × Vec F S1024x256 .f32 × Vec F S1024x256 .f32
  | 0, hn => (idleBlk2, idleBlk2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then False.elim (by omega)
      else (idleBlk2, idleBlk2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2,
         out2_C4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else (idleBlk2, idleBlk2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

theorem outsAt2_A (c : Dev nD) (t : Fin cfg2.N) (h0 : t.val % 4 = 0) (h1 : ¬t.val % 4 = 3) :
    outsAt2 V c t.val t.isLt = (idleBlk2, idleBlk2, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)
theorem outsAt2_B (c : Dev nD) (t : Fin cfg2.N) (h0 : ¬t.val % 4 = 0) (h1 : ¬t.val % 4 = 3) :
    outsAt2 V c t.val t.isLt = (idleBlk2, idleBlk2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 4 = 0) (h1 : t.val % 4 = 3) :
    outsAt2 V c t.val t.isLt = (out2_C3 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2,
      out2_C4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2,
      sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2.2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of the propagation layer's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C3 out2_C4 sout2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C3 c _ _ _ _ _ _ _ _ _ _ _ _ _ _ _ _ _ _ _)
      unfold owns; iexists _; isplitr
      swap; · iexact H4
      ipureintro; exact View.read_writes_of_cover _ _ _ _ _ (cover2_C4 c _ _ _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS0, HR⟩, Hg⟩
  isplitl [HS0 HR]
  · isplitl [HS0]
    · iexists _; iexact HS0
    iexact HR
  iexact Hg

end Cert.Kernel.Gen

end
-- ==== Proof.DenseK3.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A dense layer's region: rows of the input times the whole weight matrix

Window 0 is a block of 1024 rows of the 4096×256 input, window 1 the whole 256×256 weight matrix (fetched once),
window 2 the matching block of 1024 rows of the output. The body stores one product into the output block. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rX3 : Rect S1024x256 := Rect.unit (s := S1024x256) ![0, 0] S1024x256.size inb_S1024x256_S1024x256_0_0
abbrev rW3 : Rect S256x256 := Rect.unit (s := S256x256) ![0, 0] S256x256.size inb_S256x256_S256x256_0_0

/-- The output block after the body: the product of the row block with the weights, stored whole. -/
def out3_2 (x0 : Vec F S1024x256 .f32) (x1 : Vec F S256x256 .f32) : Vec F S1024x256 .f32 :=
  View.canon [⟨rX3, k3_pay1 (View.ld x0 rX3) (View.ld x1 rW3)⟩]

theorem cover3_2 (p0 : Vec F S1024x256 .f32) (y : S1024x256.Idx) :
    ∃ pc ∈ ([⟨rX3, p0⟩] : List (View.Piece (Elt F) S1024x256 .f32)), y ∈ pc.1.set :=
  View.cover_of_tiled [⟨rX3, p0⟩] S1024x256.size (by rfl) y

set_option maxHeartbeats 1000000 in
/-- The body on whole staging buffers: the inputs keep their contents, the output ends at the product. -/
theorem sound_kernel3 (c : Dev nD) (E : Set ℕ) (i : grid3.Coords) (arg1 : Memref sig .tc .vmem S1024x256 .f32) (harg1 : arg1.IsWhole)
    (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the dense layer's pipeline on core `c`: the arrays as the region finds them; the inputs' buffers
    keep their blocks, the output's holds the product of the point's blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.PropRunsK4.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One propagation layer's region: z = P·y accumulated over four blocks of the contracted axis, then the normalised sum

The grid is 4×4, the contracted axis innermost (k = t mod 4). At k = 0 the scratch accumulator is reset; at every point
the product of the P block with the y block is added; at k = 3 the accumulator z is stored as the first result and
acc_in + z / max(‖z‖, ε), row by row, as the second. -/

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev VO4_3 : View sig .tc .vmem S1024x256 .f32 := (Memref.whole cc4_stg3_0 : Memref sig .tc .vmem S1024x256 .f32).view
abbrev VO4_4 : View sig .tc .vmem S1024x256 .f32 := (Memref.whole cc4_stg4_0 : Memref sig .tc .vmem S1024x256 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x256 .f32 := win4_4.stage (cfg4.slots t 4)
abbrev hs4_4 (t : Fin cfg4.N) : (ms4_4 t).IsWhole := hstage4_4 ((cfg4.slots t 4).cast nbuf4_4)
abbrev scM4 : Memref sig .tc .vmem S1024x256 .f32 := Memref.whole cc4_scratch0
abbrev VS4 : View sig .tc .vmem S1024x256 .f32 := scM4.view

theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

set_option maxHeartbeats 2000000 in
/-- k = 0: the accumulator is reset and the first product added; neither result block is touched. -/
noncomputable def kernelRun4_A (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond4_0 i) (hc1 : ¬cond4_1 i)
    (x0 : Vec F S1024x1024 .bf16) (x1 x2 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨?_, fun xo3 xo4 E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- 0 < k < 3: the product is added to what the point before left in the accumulator. -/
noncomputable def kernelRun4_B (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : ¬cond4_1 i)
    (x0 : Vec F S1024x1024 .bf16) (x1 x2 : Vec F S1024x256 .f32) (xs0 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨?_, fun xo3 xo4 E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- k = 3: the last product is added; the accumulator is stored as z and the normalised sum as the new running total. -/
noncomputable def kernelRun4_C (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i)
    (x0 : Vec F S1024x1024 .bf16) (x1 x2 : Vec F S1024x256 .f32) (xs0 : Vec F S1024x256 .f32) :
    Σ' (L3 : List (View.Piece (Elt F) S1024x256 .f32)) (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨?_, ?_, ?_, fun E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Gen

end
-- ==== Proof.PropK4.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import proofs.«136557_j13331578487504_1_alg».proof.Proof.PropRunsK4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the two result blocks -/

theorem scover4_A (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond4_0 i) (hc1 : ¬cond4_1 i) (x0 : Vec F S1024x1024 .bf16) (x1 x2 : Vec F S1024x256 .f32) (y : S1024x256.Idx) :
    ∃ pc ∈ (kernelRun4_A c i arg2 harg2 arg3 harg3 arg4 harg4 arg5 harg5 arg6 harg6 arg7 harg7 hc0 hc1 x0 x1 x2).1, y ∈ pc.1.set :=
  View.cover_of_tiledL (kernelRun4_A c i arg2 harg2 arg3 harg3 arg4 harg4 arg5 harg5 arg6 harg6 arg7 harg7 hc0 hc1 x0 x1 x2).1 S1024x256.size (by sl_kernel_rfl) y
def sout4_A (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond4_0 i) (hc1 : ¬cond4_1 i) (x0 : Vec F S1024x1024 .bf16) (x1 x2 : Vec F S1024x256 .f32) : Vec F S1024x256 .f32 :=
  VS4.read (Elt F) (VS4.writes (Elt F) VS4.junk (kernelRun4_A c i arg2 harg2 arg3 harg3 arg4 harg4 arg5 harg5 arg6 harg6 arg7 harg7 hc0 hc1 x0 x1 x2).1)

theorem scover4_B (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : ¬cond4_1 i) (x0 : Vec F S1024x1024 .bf16) (x1 x2 : Vec F S1024x256 .f32) (xs0 : Vec F S1024x256 .f32) (y : S1024x256.Idx) :
    ∃ pc ∈ (kernelRun4_B c i arg2 harg2 arg3 harg3 arg4 harg4 arg5 harg5 arg6 harg6 arg7 harg7 hc0 hc1 x0 x1 x2 xs0).1, y ∈ pc.1.set :=
  View.cover_of_tiledL (kernelRun4_B c i arg2 harg2 arg3 harg3 arg4 harg4 arg5 harg5 arg6 harg6 arg7 harg7 hc0 hc1 x0 x1 x2 xs0).1 S1024x256.size (by sl_kernel_rfl) y
def sout4_B (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : ¬cond4_1 i) (x0 : Vec F S1024x1024 .bf16) (x1 x2 : Vec F S1024x256 .f32) (xs0 : Vec F S1024x256 .f32) : Vec F S1024x256 .f32 :=
  VS4.read (Elt F) (VS4.writes (Elt F) VS4.junk (kernelRun4_B c i arg2 harg2 arg3 harg3 arg4 harg4 arg5 harg5 arg6 harg6 arg7 harg7 hc0 hc1 x0 x1 x2 xs0).1)

theorem cover4_C3 (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) (y : S1024x256.Idx) :
    ∃ pc ∈ (kernelRun4_C c i arg2 harg2 arg3 harg3 arg4 harg4 arg5 harg5 arg6 harg6 arg7 harg7 hc0 hc1 x0 x1 x2 xs0).1, y ∈ pc.1.set :=
  View.cover_of_tiledL (kernelRun4_C c i arg2 harg2 arg3 harg3 arg4 harg4 arg5 harg5 arg6 harg6 arg7 harg7 hc0 hc1 x0 x1 x2 xs0).1 S1024x256.size (by sl_kernel_rfl) y
def out4_C3 (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) : Vec F S1024x256 .f32 :=
  VO4_3.read (Elt F) (VO4_3.writes (Elt F) VO4_3.junk (kernelRun4_C c i arg2 harg2 arg3 harg3 arg4 harg4 arg5 harg5 arg6 harg6 arg7 harg7 hc0 hc1 x0 x1 x2 xs0).1)
theorem cover4_C4 (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) (y : S1024x256.Idx) :
    ∃ pc ∈ (kernelRun4_C c i arg2 harg2 arg3 harg3 arg4 harg4 arg5 harg5 arg6 harg6 arg7 harg7 hc0 hc1 x0 x1 x2 xs0).2.1, y ∈ pc.1.set :=
  View.cover_of_tiledL (kernelRun4_C c i arg2 harg2 arg3 harg3 arg4 harg4 arg5 harg5 arg6 harg6 arg7 harg7 hc0 hc1 x0 x1 x2 xs0).2.1 S1024x256.size (by sl_kernel_rfl) y
def out4_C4 (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) : Vec F S1024x256 .f32 :=
  VO4_4.read (Elt F) (VO4_4.writes (Elt F) VO4_4.junk (kernelRun4_C c i arg2 harg2 arg3 harg3 arg4 harg4 arg5 harg5 arg6 harg6 arg7 harg7 hc0 hc1 x0 x1 x2 xs0).2.1)
theorem scover4_C (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) (y : S1024x256.Idx) :
    ∃ pc ∈ (kernelRun4_C c i arg2 harg2 arg3 harg3 arg4 harg4 arg5 harg5 arg6 harg6 arg7 harg7 hc0 hc1 x0 x1 x2 xs0).2.2.1, y ∈ pc.1.set :=
  View.cover_of_tiledL (kernelRun4_C c i arg2 harg2 arg3 harg3 arg4 harg4 arg5 harg5 arg6 harg6 arg7 harg7 hc0 hc1 x0 x1 x2 xs0).2.2.1 S1024x256.size (by sl_kernel_rfl) y
def sout4_C (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) : Vec F S1024x256 .f32 :=
  VS4.read (Elt F) (VS4.writes (Elt F) VS4.junk (kernelRun4_C c i arg2 harg2 arg3 harg3 arg4 harg4 arg5 harg5 arg6 harg6 arg7 harg7 hc0 hc1 x0 x1 x2 xs0).2.2.1)

/-- A placeholder for a result block at the points that do not store it (never consulted there). -/
def idleBlk4 : Vec F S1024x256 .f32 := VO4_3.read (Elt F) VO4_3.junk

/-- THE ACCUMULATION: what the two result blocks' buffers and the accumulator hold after the body at position `n`. -/
def outsAt4 (c : Dev nD) : (n : ℕ) → n < cfg4.N → Vec F S1024x256 .f32 × Vec F S1024x256 .f32 × Vec F S1024x256 .f32
  | 0, hn => (idleBlk4, idleBlk4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 4 = 0 then
      if h1 : (n + 1) % 4 = 3 then False.elim (by omega)
      else (idleBlk4, idleBlk4, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 4 = 3 then
        (out4_C3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2,
         out4_C4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2,
         sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2)
      else (idleBlk4, idleBlk4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2)

theorem outsAt4_A (c : Dev nD) (t : Fin cfg4.N) (h0 : t.val % 4 = 0) (h1 : ¬t.val % 4 = 3) :
    outsAt4 V c t.val t.isLt = (idleBlk4, idleBlk4, sout4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)
theorem outsAt4_B (c : Dev nD) (t : Fin cfg4.N) (h0 : ¬t.val % 4 = 0) (h1 : ¬t.val % 4 = 3) :
    outsAt4 V c t.val t.isLt = (idleBlk4, idleBlk4, sout4_B c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt4_C (c : Dev nD) (t : Fin cfg4.N) (h0 : ¬t.val % 4 = 0) (h1 : t.val % 4 = 3) :
    outsAt4 V c t.val t.isLt = (out4_C3 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2,
      out4_C4 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2,
      sout4_C c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2.2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare ((outsAt4 V c n hn).2.2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare ((outsAt4 V c (n - 1) (by omega)).2.2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of the propagation layer's pipeline on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 4 = 0
  · have h1 : ¬t.val % 4 = 3 := by omega
    rw [Dat.leavesExact_idle (dat4 V c) 3 t (idleAt4_3 t (fun h => h1 ((hcond4_1 t).mp h))) (noFlush4_3 t (fun h => h1 ((hcond4_1 t).mp h)))]
    rw [Dat.leavesExact_idle (dat4 V c) 4 t (idleAt4_4 t (fun h => h1 ((hcond4_1 t).mp h))) (noFlush4_4 t (fun h => h1 ((hcond4_1 t).mp h)))]
    rw [outsAt4_A V c t h0 h1]
    unfold sout4_A; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t)).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t)).2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 4 = 3
    · rw [show (dat4 V c).leavesExact 3 t = owns (c : Thread nD τ) (ms4_3 t) fullShare ((dat4 V c).after 3 t) from by
        unfold Dat.leavesExact; rw [liveAt4_3 t ((hcond4_1 t).mpr h1)], after4_3]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C3 out4_C4 sout4_C; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_C3 c _ _ _ _ _ _ _ _ _ _ _ _ _ _ _ _ _ _ _)
      unfold owns; iexists _; isplitr
      swap; · iexact H4
      ipureintro; exact View.read_writes_of_cover _ _ _ _ _ (cover4_C4 c _ _ _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold sout4_B; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) (iblk4 V c 2 t) _).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 16 := N_4; omega), PhiA4_eq]
  iintro ⟨⟨HS0, HR⟩, Hg⟩
  isplitl [HS0 HR]
  · isplitl [HS0]
    · iexists _; iexact HS0
    iexact HR
  iexact Hg

end Cert.Kernel.Gen

end
-- ==== Proof.DenseK5.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A dense layer's region: rows of the input times the whole weight matrix

Window 0 is a block of 1024 rows of the 4096×256 input, window 1 the whole 256×256 weight matrix (fetched once),
window 2 the matching block of 1024 rows of the output. The body stores one product into the output block. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev rX5 : Rect S1024x256 := Rect.unit (s := S1024x256) ![0, 0] S1024x256.size inb_S1024x256_S1024x256_0_0
abbrev rW5 : Rect S256x256 := Rect.unit (s := S256x256) ![0, 0] S256x256.size inb_S256x256_S256x256_0_0

/-- The output block after the body: the product of the row block with the weights, stored whole. -/
def out5_2 (x0 : Vec F S1024x256 .f32) (x1 : Vec F S256x256 .f32) : Vec F S1024x256 .f32 :=
  View.canon [⟨rX5, k5_pay1 (View.ld x0 rX5) (View.ld x1 rW5)⟩]

theorem cover5_2 (p0 : Vec F S1024x256 .f32) (y : S1024x256.Idx) :
    ∃ pc ∈ ([⟨rX5, p0⟩] : List (View.Piece (Elt F) S1024x256 .f32)), y ∈ pc.1.set :=
  View.cover_of_tiled [⟨rX5, p0⟩] S1024x256.size (by rfl) y

set_option maxHeartbeats 1000000 in
/-- The body on whole staging buffers: the inputs keep their contents, the output ends at the product. -/
theorem sound_kernel5 (c : Dev nD) (E : Set ℕ) (i : grid5.Coords) (arg1 : Memref sig .tc .vmem S1024x256 .f32) (harg1 : arg1.IsWhole)
    (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__linear_kernel i arg1 harg1 arg2 harg2 arg3 harg3) K := by
  simp only [cc5__linear_kernel_eq_skeleton]; unfold cc5__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the dense layer's pipeline on core `c`: the arrays as the region finds them; the inputs' buffers
    keep their blocks, the output's holds the product of the point's blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.PropRunsK6.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One propagation layer's region: z = P·y accumulated over four blocks of the contracted axis, then the normalised sum

The grid is 4×4, the contracted axis innermost (k = t mod 4). At k = 0 the scratch accumulator is reset; at every point
the product of the P block with the y block is added; at k = 3 the accumulator z is stored as the first result and
acc_in + z / max(‖z‖, ε), row by row, as the second. -/

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 4 = 0 :=
  (by decide +kernel : ∀ t : Fin grid6.N, cond6_0 (grid6.coords t) ↔ t.val % 4 = 0)
abbrev cond6_1 (i : grid6.Coords) : Prop := k6_cond2 i = 1#1
theorem hcond6_1 : ∀ t : Fin cfg6.N, cond6_1 (grid6.coords t) ↔ t.val % 4 = 3 :=
  (by decide +kernel : ∀ t : Fin grid6.N, cond6_1 (grid6.coords t) ↔ t.val % 4 = 3)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem idleAt6_3 : ∀ t : Fin cfg6.N, ¬cond6_1 (grid6.coords t) → cfg6.idle 3 (grid6.coords t) = true := by decide +kernel
theorem noFlush6_3 : ∀ t : Fin cfg6.N, ¬cond6_1 (grid6.coords t) → (cfg6.win 3).flush t = false := by decide +kernel
theorem liveAt6_3 : ∀ t : Fin cfg6.N, cond6_1 (grid6.coords t) → cfg6.idle 3 (grid6.coords t) = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4 : ∀ t : Fin cfg6.N, cond6_1 (grid6.coords t) → cfg6.idle 4 (grid6.coords t) = false := by decide +kernel

abbrev VO6_3 : View sig .tc .vmem S1024x256 .f32 := (Memref.whole cc6_stg3_0 : Memref sig .tc .vmem S1024x256 .f32).view
abbrev VO6_4 : View sig .tc .vmem S1024x256 .f32 := (Memref.whole cc6_stg4_0 : Memref sig .tc .vmem S1024x256 .f32).view
abbrev ms6_0 (t : Fin cfg6.N) : Memref sig .tc .vmem S1024x1024 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x256 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1024x256 .f32 := win6_4.stage (cfg6.slots t 4)
abbrev hs6_4 (t : Fin cfg6.N) : (ms6_4 t).IsWhole := hstage6_4 ((cfg6.slots t 4).cast nbuf6_4)
abbrev scM6 : Memref sig .tc .vmem S1024x256 .f32 := Memref.whole cc6_scratch0
abbrev VS6 : View sig .tc .vmem S1024x256 .f32 := scM6.view

theorem PhiA6_eq (c : Dev nD) :
    (Pipeline.ΦA spec6 c : sProp 𝕄)
      = iprop(iprop(iprop((∃ d, owns (c : Thread nD τ) scM6 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

set_option maxHeartbeats 2000000 in
/-- k = 0: the accumulator is reset and the first product added; neither result block is touched. -/
noncomputable def kernelRun6_A (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond6_0 i) (hc1 : ¬cond6_1 i)
    (x0 : Vec F S1024x1024 .bf16) (x1 x2 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc6__propagate_kernel i arg2 harg2 arg3 harg3 arg4 harg4 arg5 harg5 arg6 harg6 arg7 harg7) K } := by
  refine ⟨?_, fun xo3 xo4 E K => ?run⟩
  case run =>
    simp only [cc6__propagate_kernel_eq_skeleton]; unfold cc6__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- 0 < k < 3: the product is added to what the point before left in the accumulator. -/
noncomputable def kernelRun6_B (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : ¬cond6_1 i)
    (x0 : Vec F S1024x1024 .bf16) (x1 x2 : Vec F S1024x256 .f32) (xs0 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc6__propagate_kernel i arg2 harg2 arg3 harg3 arg4 harg4 arg5 harg5 arg6 harg6 arg7 harg7) K } := by
  refine ⟨?_, fun xo3 xo4 E K => ?run⟩
  case run =>
    simp only [cc6__propagate_kernel_eq_skeleton]; unfold cc6__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- k = 3: the last product is added; the accumulator is stored as z and the normalised sum as the new running total. -/
noncomputable def kernelRun6_C (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i)
    (x0 : Vec F S1024x1024 .bf16) (x1 x2 : Vec F S1024x256 .f32) (xs0 : Vec F S1024x256 .f32) :
    Σ' (L3 : List (View.Piece (Elt F) S1024x256 .f32)) (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc6__propagate_kernel i arg2 harg2 arg3 harg3 arg4 harg4 arg5 harg5 arg6 harg6 arg7 harg7) K } := by
  refine ⟨?_, ?_, ?_, fun E K => ?run⟩
  case run =>
    simp only [cc6__propagate_kernel_eq_skeleton]; unfold cc6__propagate_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Gen

end
-- ==== Proof.PropK6.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import proofs.«136557_j13331578487504_1_alg».proof.Proof.PropRunsK6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the two result blocks -/

theorem scover6_A (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond6_0 i) (hc1 : ¬cond6_1 i) (x0 : Vec F S1024x1024 .bf16) (x1 x2 : Vec F S1024x256 .f32) (y : S1024x256.Idx) :
    ∃ pc ∈ (kernelRun6_A c i arg2 harg2 arg3 harg3 arg4 harg4 arg5 harg5 arg6 harg6 arg7 harg7 hc0 hc1 x0 x1 x2).1, y ∈ pc.1.set :=
  View.cover_of_tiledL (kernelRun6_A c i arg2 harg2 arg3 harg3 arg4 harg4 arg5 harg5 arg6 harg6 arg7 harg7 hc0 hc1 x0 x1 x2).1 S1024x256.size (by sl_kernel_rfl) y
def sout6_A (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond6_0 i) (hc1 : ¬cond6_1 i) (x0 : Vec F S1024x1024 .bf16) (x1 x2 : Vec F S1024x256 .f32) : Vec F S1024x256 .f32 :=
  VS6.read (Elt F) (VS6.writes (Elt F) VS6.junk (kernelRun6_A c i arg2 harg2 arg3 harg3 arg4 harg4 arg5 harg5 arg6 harg6 arg7 harg7 hc0 hc1 x0 x1 x2).1)

theorem scover6_B (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : ¬cond6_1 i) (x0 : Vec F S1024x1024 .bf16) (x1 x2 : Vec F S1024x256 .f32) (xs0 : Vec F S1024x256 .f32) (y : S1024x256.Idx) :
    ∃ pc ∈ (kernelRun6_B c i arg2 harg2 arg3 harg3 arg4 harg4 arg5 harg5 arg6 harg6 arg7 harg7 hc0 hc1 x0 x1 x2 xs0).1, y ∈ pc.1.set :=
  View.cover_of_tiledL (kernelRun6_B c i arg2 harg2 arg3 harg3 arg4 harg4 arg5 harg5 arg6 harg6 arg7 harg7 hc0 hc1 x0 x1 x2 xs0).1 S1024x256.size (by sl_kernel_rfl) y
def sout6_B (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : ¬cond6_1 i) (x0 : Vec F S1024x1024 .bf16) (x1 x2 : Vec F S1024x256 .f32) (xs0 : Vec F S1024x256 .f32) : Vec F S1024x256 .f32 :=
  VS6.read (Elt F) (VS6.writes (Elt F) VS6.junk (kernelRun6_B c i arg2 harg2 arg3 harg3 arg4 harg4 arg5 harg5 arg6 harg6 arg7 harg7 hc0 hc1 x0 x1 x2 xs0).1)

theorem cover6_C3 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) (y : S1024x256.Idx) :
    ∃ pc ∈ (kernelRun6_C c i arg2 harg2 arg3 harg3 arg4 harg4 arg5 harg5 arg6 harg6 arg7 harg7 hc0 hc1 x0 x1 x2 xs0).1, y ∈ pc.1.set :=
  View.cover_of_tiledL (kernelRun6_C c i arg2 harg2 arg3 harg3 arg4 harg4 arg5 harg5 arg6 harg6 arg7 harg7 hc0 hc1 x0 x1 x2 xs0).1 S1024x256.size (by sl_kernel_rfl) y
def out6_C3 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) : Vec F S1024x256 .f32 :=
  VO6_3.read (Elt F) (VO6_3.writes (Elt F) VO6_3.junk (kernelRun6_C c i arg2 harg2 arg3 harg3 arg4 harg4 arg5 harg5 arg6 harg6 arg7 harg7 hc0 hc1 x0 x1 x2 xs0).1)
theorem cover6_C4 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) (y : S1024x256.Idx) :
    ∃ pc ∈ (kernelRun6_C c i arg2 harg2 arg3 harg3 arg4 harg4 arg5 harg5 arg6 harg6 arg7 harg7 hc0 hc1 x0 x1 x2 xs0).2.1, y ∈ pc.1.set :=
  View.cover_of_tiledL (kernelRun6_C c i arg2 harg2 arg3 harg3 arg4 harg4 arg5 harg5 arg6 harg6 arg7 harg7 hc0 hc1 x0 x1 x2 xs0).2.1 S1024x256.size (by sl_kernel_rfl) y
def out6_C4 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) : Vec F S1024x256 .f32 :=
  VO6_4.read (Elt F) (VO6_4.writes (Elt F) VO6_4.junk (kernelRun6_C c i arg2 harg2 arg3 harg3 arg4 harg4 arg5 harg5 arg6 harg6 arg7 harg7 hc0 hc1 x0 x1 x2 xs0).2.1)
theorem scover6_C (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) (y : S1024x256.Idx) :
    ∃ pc ∈ (kernelRun6_C c i arg2 harg2 arg3 harg3 arg4 harg4 arg5 harg5 arg6 harg6 arg7 harg7 hc0 hc1 x0 x1 x2 xs0).2.2.1, y ∈ pc.1.set :=
  View.cover_of_tiledL (kernelRun6_C c i arg2 harg2 arg3 harg3 arg4 harg4 arg5 harg5 arg6 harg6 arg7 harg7 hc0 hc1 x0 x1 x2 xs0).2.2.1 S1024x256.size (by sl_kernel_rfl) y
def sout6_C (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) : Vec F S1024x256 .f32 :=
  VS6.read (Elt F) (VS6.writes (Elt F) VS6.junk (kernelRun6_C c i arg2 harg2 arg3 harg3 arg4 harg4 arg5 harg5 arg6 harg6 arg7 harg7 hc0 hc1 x0 x1 x2 xs0).2.2.1)

/-- A placeholder for a result block at the points that do not store it (never consulted there). -/
def idleBlk6 : Vec F S1024x256 .f32 := VO6_3.read (Elt F) VO6_3.junk

/-- THE ACCUMULATION: what the two result blocks' buffers and the accumulator hold after the body at position `n`. -/
def outsAt6 (c : Dev nD) : (n : ℕ) → n < cfg6.N → Vec F S1024x256 .f32 × Vec F S1024x256 .f32 × Vec F S1024x256 .f32
  | 0, hn => (idleBlk6, idleBlk6, sout6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h0 : (n + 1) % 4 = 0 then
      if h1 : (n + 1) % 4 = 3 then False.elim (by omega)
      else (idleBlk6, idleBlk6, sout6_A c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩))
    else
      if h1 : (n + 1) % 4 = 3 then
        (out6_C3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2,
         out6_C4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2,
         sout6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2)
      else (idleBlk6, idleBlk6, sout6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2)

theorem outsAt6_A (c : Dev nD) (t : Fin cfg6.N) (h0 : t.val % 4 = 0) (h1 : ¬t.val % 4 = 3) :
    outsAt6 V c t.val t.isLt = (idleBlk6, idleBlk6, sout6_A c (grid6.coords t) (ms6_0 t) (hs6_0 t) (ms6_1 t) (hs6_1 t) (ms6_2 t) (hs6_2 t) (ms6_3 t) (hs6_3 t) (ms6_4 t) (hs6_4 t) scM6 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (dif_pos h0).trans ((dif_neg h1).trans rfl)
theorem outsAt6_B (c : Dev nD) (t : Fin cfg6.N) (h0 : ¬t.val % 4 = 0) (h1 : ¬t.val % 4 = 3) :
    outsAt6 V c t.val t.isLt = (idleBlk6, idleBlk6, sout6_B c (grid6.coords t) (ms6_0 t) (hs6_0 t) (ms6_1 t) (hs6_1 t) (ms6_2 t) (hs6_2 t) (ms6_3 t) (hs6_3 t) (ms6_4 t) (hs6_4 t) scM6 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt6_C (c : Dev nD) (t : Fin cfg6.N) (h0 : ¬t.val % 4 = 0) (h1 : t.val % 4 = 3) :
    outsAt6 V c t.val t.isLt = (out6_C3 c (grid6.coords t) (ms6_0 t) (hs6_0 t) (ms6_1 t) (hs6_1 t) (ms6_2 t) (hs6_2 t) (ms6_3 t) (hs6_3 t) (ms6_4 t) (hs6_4 t) scM6 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2,
      out6_C4 c (grid6.coords t) (ms6_0 t) (hs6_0 t) (ms6_1 t) (hs6_1 t) (ms6_2 t) (hs6_2 t) (ms6_3 t) (hs6_3 t) (ms6_4 t) (hs6_4 t) scM6 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2,
      sout6_C c (grid6.coords t) (ms6_0 t) (hs6_0 t) (ms6_1 t) (hs6_1 t) (ms6_2 t) (hs6_2 t) (ms6_3 t) (hs6_3 t) (ms6_4 t) (hs6_4 t) scM6 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2.2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6 fullShare ((outsAt6 V c n hn).2.2) ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6 fullShare ((outsAt6 V c (n - 1) (by omega)).2.2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The proof data of the propagation layer's pipeline on core `c`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t
    ∗ (dat6 V c).leavesExact 3 t ∗ (dat6 V c).leavesExact 4 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 16 := lt_of_lt_of_eq t.isLt (show cfg6.N = 16 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  by_cases h0 : t.val % 4 = 0
  · have h1 : ¬t.val % 4 = 3 := by omega
    rw [Dat.leavesExact_idle (dat6 V c) 3 t (idleAt6_3 t (fun h => h1 ((hcond6_1 t).mp h))) (noFlush6_3 t (fun h => h1 ((hcond6_1 t).mp h)))]
    rw [Dat.leavesExact_idle (dat6 V c) 4 t (idleAt6_4 t (fun h => h1 ((hcond6_1 t).mp h))) (noFlush6_4 t (fun h => h1 ((hcond6_1 t).mp h)))]
    rw [outsAt6_A V c t h0 h1]
    unfold sout6_A; (try dsimp only)
    by_cases hz : t.val = 0
    · rw [PhiS6_castSucc V c t, PhiS6_zero V c _ _ hz, PhiA6_eq]
      iintro ⟨⟨⟨HS0, HR⟩, Hg⟩, Ho, ⟨%d0, H0⟩, ⟨%d1, H1⟩, ⟨%d2, H2⟩, ⟨%d3, H3⟩, ⟨%d4, H4⟩⟩
      iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 4 = 3
    · rw [show (dat6 V c).leavesExact 3 t = owns (c : Thread nD τ) (ms6_3 t) fullShare ((dat6 V c).after 3 t) from by
        unfold Dat.leavesExact; rw [liveAt6_3 t ((hcond6_1 t).mpr h1)], after6_3]
      rw [show (dat6 V c).leavesExact 4 t = owns (c : Thread nD τ) (ms6_4 t) fullShare ((dat6 V c).after 4 t) from by
        unfold Dat.leavesExact; rw [liveAt6_4 t ((hcond6_1 t).mpr h1)], after6_4]
      rw [outsAt6_C V c t h0 h1]
      unfold out6_C3 out6_C4 sout6_C; (try dsimp only)
      rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ (fun h => h0 ((hcond6_0 t).mp h)) ((hcond6_1 t).mpr h1) (iblk6 V c 0 t) (iblk6 V c 1 t) (iblk6 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_C c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_C3 c _ _ _ _ _ _ _ _ _ _ _ _ _ _ _ _ _ _ _)
      unfold owns; iexists _; isplitr
      swap; · iexact H4
      ipureintro; exact View.read_writes_of_cover _ _ _ _ _ (cover6_C4 c _ _ _ _ _ _ _ _ _ _ _ _ _ _ _ _ _ _ _)
    · rw [Dat.leavesExact_idle (dat6 V c) 3 t (idleAt6_3 t (fun h => h1 ((hcond6_1 t).mp h))) (noFlush6_3 t (fun h => h1 ((hcond6_1 t).mp h)))]
      rw [Dat.leavesExact_idle (dat6 V c) 4 t (idleAt6_4 t (fun h => h1 ((hcond6_1 t).mp h))) (noFlush6_4 t (fun h => h1 ((hcond6_1 t).mp h)))]
      rw [outsAt6_B V c t h0 h1]
      unfold sout6_B; (try dsimp only)
      rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ (fun h => h0 ((hcond6_0 t).mp h)) (fun h => h1 ((hcond6_1 t).mp h)) (iblk6 V c 0 t) (iblk6 V c 1 t) (iblk6 V c 2 t) _).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 16 := N_6; omega), PhiA6_eq]
  iintro ⟨⟨HS0, HR⟩, Hg⟩
  isplitl [HS0 HR]
  · isplitl [HS0]
    · iexists _; iexact HS0
    iexact HR
  iexact Hg

end Cert.Kernel.Gen

end
-- ==== Proof.RunK.lean ====
import proofs.«136557_j13331578487504_1_alg».proof.Proof.Gen.Kernel.Launch
import proofs.«136557_j13331578487504_1_alg».proof.Proof.Gen.Kernel.Skeleton
import proofs.«136557_j13331578487504_1_alg».proof.Proof.Gen.Kernel.Points
import proofs.«136557_j13331578487504_1_alg».proof.Proof.MatmulK0
import proofs.«136557_j13331578487504_1_alg».proof.Proof.DenseK1
import proofs.«136557_j13331578487504_1_alg».proof.Proof.PropK2
import proofs.«136557_j13331578487504_1_alg».proof.Proof.DenseK3
import proofs.«136557_j13331578487504_1_alg».proof.Proof.PropK4
import proofs.«136557_j13331578487504_1_alg».proof.Proof.DenseK5
import proofs.«136557_j13331578487504_1_alg».proof.Proof.PropK6
import proofs.«136557_j13331578487504_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the buffers' contents at each boundary of @main, a fold from the launch memory

A stretch of host operations applies its operations; a region leaves each of its arrays at what its write-backs leave and
every other buffer as it found it. -/

abbrev X0 : Dev nD → Valuation τ sig (Elt F) := fun c b => (s₀ m ρ).mem ((c : Dev nD), b)
abbrev X1 : Dev nD → Valuation τ sig (Elt F) := fun c => StableHlo.after hostOps0 (X0 m ρ c)
abbrev Y1 : (c : Dev nD) → (b : Ref sig .tc) → Buf (Elt F) ((c : Thread nD τ).loc b) := fun c b => X1 m ρ c b
def X2 (c : Dev nD) : Valuation τ sig (Elt F) :=
  Pipeline.withArrays spec0 c (X1 m ρ c) fun w => (dat0 (Y1 m ρ) c).arrAt w cfg0.N
theorem X2_arr (c : Dev nD) (w : Fin cfg0.W) :
    X2 m ρ c (Proc.devRef .tc (Pipeline.arrRef spec0 w)) = (dat0 (Y1 m ρ) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m ρ c (Proc.devRef .tc b) = X1 m ρ c (Proc.devRef .tc b) := by
  unfold X2; exact Pipeline.withArrays_of_ne spec0 c _ _ b hb
abbrev Z2 : (c : Dev nD) → (b : Ref sig .tc) → Buf (Elt F) ((c : Thread nD τ).loc b) := fun c b => X2 m ρ c b
theorem hF0 (c : Dev nD) (w : Fin cfg0.W) : (dat0 (Y1 m ρ) c).arrAt w cfg0.N = Z2 m ρ c (Pipeline.arrRef spec0 w) :=
  (X2_arr m ρ c w).symm
theorem hrest0 (c : Dev nD) : ∀ b, b ∉ Finset.univ.image (Pipeline.arrRef spec0) → Z2 m ρ c b = Y1 m ρ c b :=
  fun b hb => X2_of_ne m ρ c b fun w e => hb (Finset.mem_image.mpr ⟨w, Finset.mem_univ _, e⟩)
abbrev X3 : Dev nD → Valuation τ sig (Elt F) := fun c => StableHlo.after hostOps1 (X2 m ρ c)
abbrev Y3 : (c : Dev nD) → (b : Ref sig .tc) → Buf (Elt F) ((c : Thread nD τ).loc b) := fun c b => X3 m ρ c b
def X4 (c : Dev nD) : Valuation τ sig (Elt F) :=
  Pipeline.withArrays spec1 c (X3 m ρ c) fun w => (dat1 (Y3 m ρ) c).arrAt w cfg1.N
theorem X4_arr (c : Dev nD) (w : Fin cfg1.W) :
    X4 m ρ c (Proc.devRef .tc (Pipeline.arrRef spec1 w)) = (dat1 (Y3 m ρ) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m ρ c (Proc.devRef .tc b) = X3 m ρ c (Proc.devRef .tc b) := by
  unfold X4; exact Pipeline.withArrays_of_ne spec1 c _ _ b hb
abbrev Z4 : (c : Dev nD) → (b : Ref sig .tc) → Buf (Elt F) ((c : Thread nD τ).loc b) := fun c b => X4 m ρ c b
theorem hF1 (c : Dev nD) (w : Fin cfg1.W) : (dat1 (Y3 m ρ) c).arrAt w cfg1.N = Z4 m ρ c (Pipeline.arrRef spec1 w) :=
  (X4_arr m ρ c w).symm
theorem hrest1 (c : Dev nD) : ∀ b, b ∉ Finset.univ.image (Pipeline.arrRef spec1) → Z4 m ρ c b = Y3 m ρ c b :=
  fun b hb => X4_of_ne m ρ c b fun w e => hb (Finset.mem_image.mpr ⟨w, Finset.mem_univ _, e⟩)
abbrev Y4 : (c : Dev nD) → (b : Ref sig .tc) → Buf (Elt F) ((c : Thread nD τ).loc b) := fun c b => X4 m ρ c b
def X5 (c : Dev nD) : Valuation τ sig (Elt F) :=
  Pipeline.withArrays spec2 c (X4 m ρ c) fun w => (dat2 (Y4 m ρ) c).arrAt w cfg2.N
theorem X5_arr (c : Dev nD) (w : Fin cfg2.W) :
    X5 m ρ c (Proc.devRef .tc (Pipeline.arrRef spec2 w)) = (dat2 (Y4 m ρ) c).arrAt w cfg2.N := by
  unfold X5; exact Pipeline.withArrays_arr spec2 launch2.win.arr_inj c _ _ w
theorem X5_of_ne (c : Dev nD) (b : Ref sig .tc) (hb : ∀ w, Pipeline.arrRef spec2 w ≠ b) :
    X5 m ρ c (Proc.devRef .tc b) = X4 m ρ c (Proc.devRef .tc b) := by
  unfold X5; exact Pipeline.withArrays_of_ne spec2 c _ _ b hb
abbrev Z5 : (c : Dev nD) → (b : Ref sig .tc) → Buf (Elt F) ((c : Thread nD τ).loc b) := fun c b => X5 m ρ c b
theorem hF2 (c : Dev nD) (w : Fin cfg2.W) : (dat2 (Y4 m ρ) c).arrAt w cfg2.N = Z5 m ρ c (Pipeline.arrRef spec2 w) :=
  (X5_arr m ρ c w).symm
theorem hrest2 (c : Dev nD) : ∀ b, b ∉ Finset.univ.image (Pipeline.arrRef spec2) → Z5 m ρ c b = Y4 m ρ c b :=
  fun b hb => X5_of_ne m ρ c b fun w e => hb (Finset.mem_image.mpr ⟨w, Finset.mem_univ _, e⟩)
abbrev X6 : Dev nD → Valuation τ sig (Elt F) := fun c => StableHlo.after hostOps3 (X5 m ρ c)
abbrev Y6 : (c : Dev nD) → (b : Ref sig .tc) → Buf (Elt F) ((c : Thread nD τ).loc b) := fun c b => X6 m ρ c b
def X7 (c : Dev nD) : Valuation τ sig (Elt F) :=
  Pipeline.withArrays spec3 c (X6 m ρ c) fun w => (dat3 (Y6 m ρ) c).arrAt w cfg3.N
theorem X7_arr (c : Dev nD) (w : Fin cfg3.W) :
    X7 m ρ c (Proc.devRef .tc (Pipeline.arrRef spec3 w)) = (dat3 (Y6 m ρ) c).arrAt w cfg3.N := by
  unfold X7; exact Pipeline.withArrays_arr spec3 launch3.win.arr_inj c _ _ w
theorem X7_of_ne (c : Dev nD) (b : Ref sig .tc) (hb : ∀ w, Pipeline.arrRef spec3 w ≠ b) :
    X7 m ρ c (Proc.devRef .tc b) = X6 m ρ c (Proc.devRef .tc b) := by
  unfold X7; exact Pipeline.withArrays_of_ne spec3 c _ _ b hb
abbrev Z7 : (c : Dev nD) → (b : Ref sig .tc) → Buf (Elt F) ((c : Thread nD τ).loc b) := fun c b => X7 m ρ c b
theorem hF3 (c : Dev nD) (w : Fin cfg3.W) : (dat3 (Y6 m ρ) c).arrAt w cfg3.N = Z7 m ρ c (Pipeline.arrRef spec3 w) :=
  (X7_arr m ρ c w).symm
theorem hrest3 (c : Dev nD) : ∀ b, b ∉ Finset.univ.image (Pipeline.arrRef spec3) → Z7 m ρ c b = Y6 m ρ c b :=
  fun b hb => X7_of_ne m ρ c b fun w e => hb (Finset.mem_image.mpr ⟨w, Finset.mem_univ _, e⟩)
abbrev Y7 : (c : Dev nD) → (b : Ref sig .tc) → Buf (Elt F) ((c : Thread nD τ).loc b) := fun c b => X7 m ρ c b
def X8 (c : Dev nD) : Valuation τ sig (Elt F) :=
  Pipeline.withArrays spec4 c (X7 m ρ c) fun w => (dat4 (Y7 m ρ) c).arrAt w cfg4.N
theorem X8_arr (c : Dev nD) (w : Fin cfg4.W) :
    X8 m ρ c (Proc.devRef .tc (Pipeline.arrRef spec4 w)) = (dat4 (Y7 m ρ) c).arrAt w cfg4.N := by
  unfold X8; exact Pipeline.withArrays_arr spec4 launch4.win.arr_inj c _ _ w
theorem X8_of_ne (c : Dev nD) (b : Ref sig .tc) (hb : ∀ w, Pipeline.arrRef spec4 w ≠ b) :
    X8 m ρ c (Proc.devRef .tc b) = X7 m ρ c (Proc.devRef .tc b) := by
  unfold X8; exact Pipeline.withArrays_of_ne spec4 c _ _ b hb
abbrev Z8 : (c : Dev nD) → (b : Ref sig .tc) → Buf (Elt F) ((c : Thread nD τ).loc b) := fun c b => X8 m ρ c b
theorem hF4 (c : Dev nD) (w : Fin cfg4.W) : (dat4 (Y7 m ρ) c).arrAt w cfg4.N = Z8 m ρ c (Pipeline.arrRef spec4 w) :=
  (X8_arr m ρ c w).symm
theorem hrest4 (c : Dev nD) : ∀ b, b ∉ Finset.univ.image (Pipeline.arrRef spec4) → Z8 m ρ c b = Y7 m ρ c b :=
  fun b hb => X8_of_ne m ρ c b fun w e => hb (Finset.mem_image.mpr ⟨w, Finset.mem_univ _, e⟩)
abbrev X9 : Dev nD → Valuation τ sig (Elt F) := fun c => StableHlo.after hostOps5 (X8 m ρ c)
abbrev Y9 : (c : Dev nD) → (b : Ref sig .tc) → Buf (Elt F) ((c : Thread nD τ).loc b) := fun c b => X9 m ρ c b
def X10 (c : Dev nD) : Valuation τ sig (Elt F) :=
  Pipeline.withArrays spec5 c (X9 m ρ c) fun w => (dat5 (Y9 m ρ) c).arrAt w cfg5.N
theorem X10_arr (c : Dev nD) (w : Fin cfg5.W) :
    X10 m ρ c (Proc.devRef .tc (Pipeline.arrRef spec5 w)) = (dat5 (Y9 m ρ) c).arrAt w cfg5.N := by
  unfold X10; exact Pipeline.withArrays_arr spec5 launch5.win.arr_inj c _ _ w
theorem X10_of_ne (c : Dev nD) (b : Ref sig .tc) (hb : ∀ w, Pipeline.arrRef spec5 w ≠ b) :
    X10 m ρ c (Proc.devRef .tc b) = X9 m ρ c (Proc.devRef .tc b) := by
  unfold X10; exact Pipeline.withArrays_of_ne spec5 c _ _ b hb
abbrev Z10 : (c : Dev nD) → (b : Ref sig .tc) → Buf (Elt F) ((c : Thread nD τ).loc b) := fun c b => X10 m ρ c b
theorem hF5 (c : Dev nD) (w : Fin cfg5.W) : (dat5 (Y9 m ρ) c).arrAt w cfg5.N = Z10 m ρ c (Pipeline.arrRef spec5 w) :=
  (X10_arr m ρ c w).symm
theorem hrest5 (c : Dev nD) : ∀ b, b ∉ Finset.univ.image (Pipeline.arrRef spec5) → Z10 m ρ c b = Y9 m ρ c b :=
  fun b hb => X10_of_ne m ρ c b fun w e => hb (Finset.mem_image.mpr ⟨w, Finset.mem_univ _, e⟩)
abbrev Y10 : (c : Dev nD) → (b : Ref sig .tc) → Buf (Elt F) ((c : Thread nD τ).loc b) := fun c b => X10 m ρ c b
def X11 (c : Dev nD) : Valuation τ sig (Elt F) :=
  Pipeline.withArrays spec6 c (X10 m ρ c) fun w => (dat6 (Y10 m ρ) c).arrAt w cfg6.N
theorem X11_arr (c : Dev nD) (w : Fin cfg6.W) :
    X11 m ρ c (Proc.devRef .tc (Pipeline.arrRef spec6 w)) = (dat6 (Y10 m ρ) c).arrAt w cfg6.N := by
  unfold X11; exact Pipeline.withArrays_arr spec6 launch6.win.arr_inj c _ _ w
theorem X11_of_ne (c : Dev nD) (b : Ref sig .tc) (hb : ∀ w, Pipeline.arrRef spec6 w ≠ b) :
    X11 m ρ c (Proc.devRef .tc b) = X10 m ρ c (Proc.devRef .tc b) := by
  unfold X11; exact Pipeline.withArrays_of_ne spec6 c _ _ b hb
abbrev Z11 : (c : Dev nD) → (b : Ref sig .tc) → Buf (Elt F) ((c : Thread nD τ).loc b) := fun c b => X11 m ρ c b
theorem hF6 (c : Dev nD) (w : Fin cfg6.W) : (dat6 (Y10 m ρ) c).arrAt w cfg6.N = Z11 m ρ c (Pipeline.arrRef spec6 w) :=
  (X11_arr m ρ c w).symm
theorem hrest6 (c : Dev nD) : ∀ b, b ∉ Finset.univ.image (Pipeline.arrRef spec6) → Z11 m ρ c b = Y10 m ρ c b :=
  fun b hb => X11_of_ne m ρ c b fun w e => hb (Finset.mem_image.mpr ⟨w, Finset.mem_univ _, e⟩)
abbrev X12 : Dev nD → Valuation τ sig (Elt F) := fun c => StableHlo.after hostOps7 (X11 m ρ c)

/-! ## The arguments end as launched: no host operation writes one, and a region only reads it -/
theorem X12_main_arg0 (c : Dev nD) : X12 m ρ c (Proc.devRef .tc main_arg0) = m ((c : Thread nD τ).loc main_arg0) :=
  calc X12 m ρ c (Proc.devRef .tc main_arg0)
    _ = X11 m ρ c (Proc.devRef .tc main_arg0) := StableHlo.after_of_writes_sub hostOps7 _ hostOps7_writes (by decide)
    _ = X10 m ρ c (Proc.devRef .tc main_arg0) := X11_of_ne m ρ c main_arg0 (by decide)
    _ = X9 m ρ c (Proc.devRef .tc main_arg0) := X10_of_ne m ρ c main_arg0 (by decide)
    _ = X8 m ρ c (Proc.devRef .tc main_arg0) := StableHlo.after_of_writes_sub hostOps5 _ hostOps5_writes (by decide)
    _ = X7 m ρ c (Proc.devRef .tc main_arg0) := X8_of_ne m ρ c main_arg0 (by decide)
    _ = X6 m ρ c (Proc.devRef .tc main_arg0) := X7_of_ne m ρ c main_arg0 (by decide)
    _ = X5 m ρ c (Proc.devRef .tc main_arg0) := StableHlo.after_of_writes_sub hostOps3 _ hostOps3_writes (by decide)
    _ = X4 m ρ c (Proc.devRef .tc main_arg0) := X5_of_ne m ρ c main_arg0 (by decide)
    _ = X3 m ρ c (Proc.devRef .tc main_arg0) := X4_of_ne m ρ c main_arg0 (by decide)
    _ = X2 m ρ c (Proc.devRef .tc main_arg0) := StableHlo.after_of_writes_sub hostOps1 _ hostOps1_writes (by decide)
    _ = X1 m ρ c (Proc.devRef .tc main_arg0) := X2_of_ne m ρ c main_arg0 (by decide)
    _ = X0 m ρ c (Proc.devRef .tc main_arg0) := StableHlo.after_of_writes_sub hostOps0 _ hostOps0_writes (by decide)
    _ = m ((c : Thread nD τ).loc main_arg0) := rfl
theorem X12_main_arg1 (c : Dev nD) : X12 m ρ c (Proc.devRef .tc main_arg1) = m ((c : Thread nD τ).loc main_arg1) :=
  calc X12 m ρ c (Proc.devRef .tc main_arg1)
    _ = X11 m ρ c (Proc.devRef .tc main_arg1) := StableHlo.after_of_writes_sub hostOps7 _ hostOps7_writes (by decide)
    _ = X10 m ρ c (Proc.devRef .tc main_arg1) := X11_of_ne m ρ c main_arg1 (by decide)
    _ = X9 m ρ c (Proc.devRef .tc main_arg1) := X10_of_ne m ρ c main_arg1 (by decide)
    _ = X8 m ρ c (Proc.devRef .tc main_arg1) := StableHlo.after_of_writes_sub hostOps5 _ hostOps5_writes (by decide)
    _ = X7 m ρ c (Proc.devRef .tc main_arg1) := X8_of_ne m ρ c main_arg1 (by decide)
    _ = X6 m ρ c (Proc.devRef .tc main_arg1) := X7_of_ne m ρ c main_arg1 (by decide)
    _ = X5 m ρ c (Proc.devRef .tc main_arg1) := StableHlo.after_of_writes_sub hostOps3 _ hostOps3_writes (by decide)
    _ = X4 m ρ c (Proc.devRef .tc main_arg1) := X5_of_ne m ρ c main_arg1 (by decide)
    _ = X3 m ρ c (Proc.devRef .tc main_arg1) := X4_of_ne m ρ c main_arg1 (by decide)
    _ = X2 m ρ c (Proc.devRef .tc main_arg1) := StableHlo.after_of_writes_sub hostOps1 _ hostOps1_writes (by decide)
    _ = X1 m ρ c (Proc.devRef .tc main_arg1) := (X2_arr m ρ c 0).trans (((dat0 (Y1 m ρ) c).arrAt_in 0 rfl _).trans (A_eq0 (Y1 m ρ) c 0))
    _ = X0 m ρ c (Proc.devRef .tc main_arg1) := StableHlo.after_of_writes_sub hostOps0 _ hostOps0_writes (by decide)
    _ = m ((c : Thread nD τ).loc main_arg1) := rfl
theorem X12_main_arg2 (c : Dev nD) : X12 m ρ c (Proc.devRef .tc main_arg2) = m ((c : Thread nD τ).loc main_arg2) :=
  calc X12 m ρ c (Proc.devRef .tc main_arg2)
    _ = X11 m ρ c (Proc.devRef .tc main_arg2) := StableHlo.after_of_writes_sub hostOps7 _ hostOps7_writes (by decide)
    _ = X10 m ρ c (Proc.devRef .tc main_arg2) := X11_of_ne m ρ c main_arg2 (by decide)
    _ = X9 m ρ c (Proc.devRef .tc main_arg2) := X10_of_ne m ρ c main_arg2 (by decide)
    _ = X8 m ρ c (Proc.devRef .tc main_arg2) := StableHlo.after_of_writes_sub hostOps5 _ hostOps5_writes (by decide)
    _ = X7 m ρ c (Proc.devRef .tc main_arg2) := X8_of_ne m ρ c main_arg2 (by decide)
    _ = X6 m ρ c (Proc.devRef .tc main_arg2) := X7_of_ne m ρ c main_arg2 (by decide)
    _ = X5 m ρ c (Proc.devRef .tc main_arg2) := StableHlo.after_of_writes_sub hostOps3 _ hostOps3_writes (by decide)
    _ = X4 m ρ c (Proc.devRef .tc main_arg2) := X5_of_ne m ρ c main_arg2 (by decide)
    _ = X3 m ρ c (Proc.devRef .tc main_arg2) := X4_of_ne m ρ c main_arg2 (by decide)
    _ = X2 m ρ c (Proc.devRef .tc main_arg2) := StableHlo.after_of_writes_sub hostOps1 _ hostOps1_writes (by decide)
    _ = X1 m ρ c (Proc.devRef .tc main_arg2) := (X2_arr m ρ c 1).trans (((dat0 (Y1 m ρ) c).arrAt_in 1 rfl _).trans (A_eq0 (Y1 m ρ) c 1))
    _ = X0 m ρ c (Proc.devRef .tc main_arg2) := StableHlo.after_of_writes_sub hostOps0 _ hostOps0_writes (by decide)
    _ = m ((c : Thread nD τ).loc main_arg2) := rfl
theorem X12_main_arg3 (c : Dev nD) : X12 m ρ c (Proc.devRef .tc main_arg3) = m ((c : Thread nD τ).loc main_arg3) :=
  calc X12 m ρ c (Proc.devRef .tc main_arg3)
    _ = X11 m ρ c (Proc.devRef .tc main_arg3) := StableHlo.after_of_writes_sub hostOps7 _ hostOps7_writes (by decide)
    _ = X10 m ρ c (Proc.devRef .tc main_arg3) := X11_of_ne m ρ c main_arg3 (by decide)
    _ = X9 m ρ c (Proc.devRef .tc main_arg3) := X10_of_ne m ρ c main_arg3 (by decide)
    _ = X8 m ρ c (Proc.devRef .tc main_arg3) := StableHlo.after_of_writes_sub hostOps5 _ hostOps5_writes (by decide)
    _ = X7 m ρ c (Proc.devRef .tc main_arg3) := X8_of_ne m ρ c main_arg3 (by decide)
    _ = X6 m ρ c (Proc.devRef .tc main_arg3) := X7_of_ne m ρ c main_arg3 (by decide)
    _ = X5 m ρ c (Proc.devRef .tc main_arg3) := StableHlo.after_of_writes_sub hostOps3 _ hostOps3_writes (by decide)
    _ = X4 m ρ c (Proc.devRef .tc main_arg3) := X5_of_ne m ρ c main_arg3 (by decide)
    _ = X3 m ρ c (Proc.devRef .tc main_arg3) := X4_of_ne m ρ c main_arg3 (by decide)
    _ = X2 m ρ c (Proc.devRef .tc main_arg3) := StableHlo.after_of_writes_sub hostOps1 _ hostOps1_writes (by decide)
    _ = X1 m ρ c (Proc.devRef .tc main_arg3) := X2_of_ne m ρ c main_arg3 (by decide)
    _ = X0 m ρ c (Proc.devRef .tc main_arg3) := StableHlo.after_of_writes_sub hostOps0 _ hostOps0_writes (by decide)
    _ = m ((c : Thread nD τ).loc main_arg3) := rfl
theorem X12_main_arg4 (c : Dev nD) : X12 m ρ c (Proc.devRef .tc main_arg4) = m ((c : Thread nD τ).loc main_arg4) :=
  calc X12 m ρ c (Proc.devRef .tc main_arg4)
    _ = X11 m ρ c (Proc.devRef .tc main_arg4) := StableHlo.after_of_writes_sub hostOps7 _ hostOps7_writes (by decide)
    _ = X10 m ρ c (Proc.devRef .tc main_arg4) := X11_of_ne m ρ c main_arg4 (by decide)
    _ = X9 m ρ c (Proc.devRef .tc main_arg4) := X10_of_ne m ρ c main_arg4 (by decide)
    _ = X8 m ρ c (Proc.devRef .tc main_arg4) := StableHlo.after_of_writes_sub hostOps5 _ hostOps5_writes (by decide)
    _ = X7 m ρ c (Proc.devRef .tc main_arg4) := X8_of_ne m ρ c main_arg4 (by decide)
    _ = X6 m ρ c (Proc.devRef .tc main_arg4) := X7_of_ne m ρ c main_arg4 (by decide)
    _ = X5 m ρ c (Proc.devRef .tc main_arg4) := StableHlo.after_of_writes_sub hostOps3 _ hostOps3_writes (by decide)
    _ = X4 m ρ c (Proc.devRef .tc main_arg4) := X5_of_ne m ρ c main_arg4 (by decide)
    _ = X3 m ρ c (Proc.devRef .tc main_arg4) := X4_of_ne m ρ c main_arg4 (by decide)
    _ = X2 m ρ c (Proc.devRef .tc main_arg4) := StableHlo.after_of_writes_sub hostOps1 _ hostOps1_writes (by decide)
    _ = X1 m ρ c (Proc.devRef .tc main_arg4) := X2_of_ne m ρ c main_arg4 (by decide)
    _ = X0 m ρ c (Proc.devRef .tc main_arg4) := StableHlo.after_of_writes_sub hostOps0 _ hostOps0_writes (by decide)
    _ = m ((c : Thread nD τ).loc main_arg4) := rfl
theorem X12_main_arg5 (c : Dev nD) : X12 m ρ c (Proc.devRef .tc main_arg5) = m ((c : Thread nD τ).loc main_arg5) :=
  calc X12 m ρ c (Proc.devRef .tc main_arg5)
    _ = X11 m ρ c (Proc.devRef .tc main_arg5) := StableHlo.after_of_writes_sub hostOps7 _ hostOps7_writes (by decide)
    _ = X10 m ρ c (Proc.devRef .tc main_arg5) := X11_of_ne m ρ c main_arg5 (by decide)
    _ = X9 m ρ c (Proc.devRef .tc main_arg5) := X10_of_ne m ρ c main_arg5 (by decide)
    _ = X8 m ρ c (Proc.devRef .tc main_arg5) := StableHlo.after_of_writes_sub hostOps5 _ hostOps5_writes (by decide)
    _ = X7 m ρ c (Proc.devRef .tc main_arg5) := X8_of_ne m ρ c main_arg5 (by decide)
    _ = X6 m ρ c (Proc.devRef .tc main_arg5) := X7_of_ne m ρ c main_arg5 (by decide)
    _ = X5 m ρ c (Proc.devRef .tc main_arg5) := StableHlo.after_of_writes_sub hostOps3 _ hostOps3_writes (by decide)
    _ = X4 m ρ c (Proc.devRef .tc main_arg5) := X5_of_ne m ρ c main_arg5 (by decide)
    _ = X3 m ρ c (Proc.devRef .tc main_arg5) := X4_of_ne m ρ c main_arg5 (by decide)
    _ = X2 m ρ c (Proc.devRef .tc main_arg5) := StableHlo.after_of_writes_sub hostOps1 _ hostOps1_writes (by decide)
    _ = X1 m ρ c (Proc.devRef .tc main_arg5) := X2_of_ne m ρ c main_arg5 (by decide)
    _ = X0 m ρ c (Proc.devRef .tc main_arg5) := StableHlo.after_of_writes_sub hostOps0 _ hostOps0_writes (by decide)
    _ = m ((c : Thread nD τ).loc main_arg5) := rfl

/-! ## The proof data family and the thread state -/

abbrev admR : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) admR p) c
  | ⟨0, _⟩ => fun c => dat0 (Y1 m ρ) c
  | ⟨1, _⟩ => fun c => dat1 (Y3 m ρ) c
  | ⟨2, _⟩ => fun c => dat2 (Y4 m ρ) c
  | ⟨3, _⟩ => fun c => dat3 (Y6 m ρ) c
  | ⟨4, _⟩ => fun c => dat4 (Y7 m ρ) c
  | ⟨5, _⟩ => fun c => dat5 (Y9 m ρ) c
  | ⟨6, _⟩ => fun c => dat6 (Y10 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state's last part still says nothing is owed. -/
theorem R_owes (c : Dev nD) : (R c : sProp 𝕄) ⊢ iprop(∃ W, owes (c : Thread nD τ) (0 : CellTallies nD τ sig Unit) W) := by
  iintro ⟨-, HO⟩; iexact HO

/-! ## The regions as segments -/

set_option backward.isDefEq.respectTransparency.types false in
/-- Region 0: entered from every unscoped buffer at the contents before it, left with its arrays at what its write-backs
    leave and every other buffer unchanged. -/
def reg0 : Pipeline.RegionSeg (pcfgs (F := F)) admR (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y1 m ρ) c).loose
  hwaits := Pipeline.hwaits_of_owed_zero _ _ _ _ L lv 0 fun _ _ => rfl
  pre c := iprop(StableHlo.held (c : Thread nD τ) (Pipeline.ucRefs τ sig) (X1 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := UR sig nD τ) (Lvl := ℕ) spec0 c (Y1 m ρ c)
  hentry c := by
    rw [Pipeline.ownSems0_none]
    have hsplit := Pipeline.arrays_of_unscopedBufs (p := 0) (pcfgs (F := F)) admR (pdats m ρ) launch0.win launch0.arr_whole c
      ((pdats m ρ 0 c).share_full fun _ => rfl) (Y1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Y1 m ρ) c); unfold Pipeline.ΦA
    iintro ⟨Hp, -, Hr⟩
    isplitl [Hr]; · iexact Hr
    iexact Hp
  hout c := by
    rw [Pipeline.ownSems0_none]
    refine (hout0 (Y1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdats m ρ) ((pdats m ρ 0 c).share_full fun _ => rfl)
      (Y1 m ρ c) (Z2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left with its arrays at what its write-backs
    leave and every other buffer unchanged. -/
def reg1 : Pipeline.RegionSeg (pcfgs (F := F)) admR (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Y3 m ρ) c).loose
  hwaits := Pipeline.hwaits_of_owed_zero _ _ _ _ L lv 1 fun _ _ => rfl
  pre c := iprop(StableHlo.held (c : Thread nD τ) (Pipeline.ucRefs τ sig) (X3 m ρ c) ∗ R c)
  post c := iprop(StableHlo.held (c : Thread nD τ) (Pipeline.ucRefs τ sig) (X4 m ρ c) ∗ R c)
  X c := iprop(∃ r, prngReg c r)
  Y c := iprop(∃ r, prngReg c r)
  Z c := Pipeline.unscopedRest (Ix := Unit) (Name := ℕ) (U := UR sig nD τ) (Lvl := ℕ) spec1 c (Y3 m ρ c)
  hentry c := by
    rw [Pipeline.ownSems0_none]
    have hsplit := Pipeline.arrays_of_unscopedBufs (p := 1) (pcfgs (F := F)) admR (pdats m ρ) launch1.win launch1.arr_whole c
      ((pdats m ρ 1 c).share_full fun _ => rfl) (Y3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdats m ρ) ((pdats m ρ 1 c).share_full fun _ => rfl)
      (Y3 m ρ c) (Z4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left with its arrays at what its write-backs
    leave and every other buffer unchanged. -/
def reg2 : Pipeline.RegionSeg (pcfgs (F := F)) admR (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y4 m ρ) c).loose
  hwaits := Pipeline.hwaits_of_owed_zero _ _ _ _ L lv 2 fun _ _ => rfl
  pre c := iprop(StableHlo.held (c : Thread nD τ) (Pipeline.ucRefs τ sig) (X4 m ρ c) ∗ R c)
  post c := iprop(StableHlo.held (c : Thread nD τ) (Pipeline.ucRefs τ sig) (X5 m ρ c) ∗ R c)
  X c := iprop(∃ r, prngReg c r)
  Y c := iprop(∃ r, prngReg c r)
  Z c := Pipeline.unscopedRest (Ix := Unit) (Name := ℕ) (U := UR sig nD τ) (Lvl := ℕ) spec2 c (Y4 m ρ c)
  hentry c := by
    rw [Pipeline.ownSems0_none]
    have hsplit := Pipeline.arrays_of_unscopedBufs (p := 2) (pcfgs (F := F)) admR (pdats m ρ) launch2.win launch2.arr_whole c
      ((pdats m ρ 2 c).share_full fun _ => rfl) (Y4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (Y4 m ρ) c); unfold Pipeline.ΦA
    iintro ⟨Hp, -, Hr⟩
    isplitl [Hr]; · iexact Hr
    iexact Hp
  hout c := by
    rw [Pipeline.ownSems0_none]
    refine (hout2 (Y4 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdats m ρ) ((pdats m ρ 2 c).share_full fun _ => rfl)
      (Y4 m ρ c) (Z5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left with its arrays at what its write-backs
    leave and every other buffer unchanged. -/
def reg3 : Pipeline.RegionSeg (pcfgs (F := F)) admR (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Y6 m ρ) c).loose
  hwaits := Pipeline.hwaits_of_owed_zero _ _ _ _ L lv 3 fun _ _ => rfl
  pre c := iprop(StableHlo.held (c : Thread nD τ) (Pipeline.ucRefs τ sig) (X6 m ρ c) ∗ R c)
  post c := iprop(StableHlo.held (c : Thread nD τ) (Pipeline.ucRefs τ sig) (X7 m ρ c) ∗ R c)
  X c := iprop(∃ r, prngReg c r)
  Y c := iprop(∃ r, prngReg c r)
  Z c := Pipeline.unscopedRest (Ix := Unit) (Name := ℕ) (U := UR sig nD τ) (Lvl := ℕ) spec3 c (Y6 m ρ c)
  hentry c := by
    rw [Pipeline.ownSems0_none]
    have hsplit := Pipeline.arrays_of_unscopedBufs (p := 3) (pcfgs (F := F)) admR (pdats m ρ) launch3.win launch3.arr_whole c
      ((pdats m ρ 3 c).share_full fun _ => rfl) (Y6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admR (Ix := Unit) (Name := ℕ) (U := UR sig nD τ) (Lvl := ℕ)
      launch3.win launch3.arr_whole c (pdats m ρ) ((pdats m ρ 3 c).share_full fun _ => rfl)
      (Y6 m ρ c) (Z7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left with its arrays at what its write-backs
    leave and every other buffer unchanged. -/
def reg4 : Pipeline.RegionSeg (pcfgs (F := F)) admR (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Y7 m ρ) c).loose
  hwaits := Pipeline.hwaits_of_owed_zero _ _ _ _ L lv 4 fun _ _ => rfl
  pre c := iprop(StableHlo.held (c : Thread nD τ) (Pipeline.ucRefs τ sig) (X7 m ρ c) ∗ R c)
  post c := iprop(StableHlo.held (c : Thread nD τ) (Pipeline.ucRefs τ sig) (X8 m ρ c) ∗ R c)
  X c := iprop(∃ r, prngReg c r)
  Y c := iprop(∃ r, prngReg c r)
  Z c := Pipeline.unscopedRest (Ix := Unit) (Name := ℕ) (U := UR sig nD τ) (Lvl := ℕ) spec4 c (Y7 m ρ c)
  hentry c := by
    rw [Pipeline.ownSems0_none]
    have hsplit := Pipeline.arrays_of_unscopedBufs (p := 4) (pcfgs (F := F)) admR (pdats m ρ) launch4.win launch4.arr_whole c
      ((pdats m ρ 4 c).share_full fun _ => rfl) (Y7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (Y7 m ρ) c); unfold Pipeline.ΦA
    iintro ⟨Hp, -, Hr⟩
    isplitl [Hr]; · iexact Hr
    iexact Hp
  hout c := by
    rw [Pipeline.ownSems0_none]
    refine (hout4 (Y7 m ρ) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admR (Ix := Unit) (Name := ℕ) (U := UR sig nD τ) (Lvl := ℕ)
      launch4.win launch4.arr_whole c (pdats m ρ) ((pdats m ρ 4 c).share_full fun _ => rfl)
      (Y7 m ρ c) (Z8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents before it, left with its arrays at what its write-backs
    leave and every other buffer unchanged. -/
def reg5 : Pipeline.RegionSeg (pcfgs (F := F)) admR (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Y9 m ρ) c).loose
  hwaits := Pipeline.hwaits_of_owed_zero _ _ _ _ L lv 5 fun _ _ => rfl
  pre c := iprop(StableHlo.held (c : Thread nD τ) (Pipeline.ucRefs τ sig) (X9 m ρ c) ∗ R c)
  post c := iprop(StableHlo.held (c : Thread nD τ) (Pipeline.ucRefs τ sig) (X10 m ρ c) ∗ R c)
  X c := iprop(∃ r, prngReg c r)
  Y c := iprop(∃ r, prngReg c r)
  Z c := Pipeline.unscopedRest (Ix := Unit) (Name := ℕ) (U := UR sig nD τ) (Lvl := ℕ) spec5 c (Y9 m ρ c)
  hentry c := by
    rw [Pipeline.ownSems0_none]
    have hsplit := Pipeline.arrays_of_unscopedBufs (p := 5) (pcfgs (F := F)) admR (pdats m ρ) launch5.win launch5.arr_whole c
      ((pdats m ρ 5 c).share_full fun _ => rfl) (Y9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admR (Ix := Unit) (Name := ℕ) (U := UR sig nD τ) (Lvl := ℕ)
      launch5.win launch5.arr_whole c (pdats m ρ) ((pdats m ρ 5 c).share_full fun _ => rfl)
      (Y9 m ρ c) (Z10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents before it, left with its arrays at what its write-backs
    leave and every other buffer unchanged. -/
def reg6 : Pipeline.RegionSeg (pcfgs (F := F)) admR (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Y10 m ρ) c).loose
  hwaits := Pipeline.hwaits_of_owed_zero _ _ _ _ L lv 6 fun _ _ => rfl
  pre c := iprop(StableHlo.held (c : Thread nD τ) (Pipeline.ucRefs τ sig) (X10 m ρ c) ∗ R c)
  post c := iprop(StableHlo.held (c : Thread nD τ) (Pipeline.ucRefs τ sig) (X11 m ρ c) ∗ R c)
  X c := iprop(∃ r, prngReg c r)
  Y c := iprop(∃ r, prngReg c r)
  Z c := Pipeline.unscopedRest (Ix := Unit) (Name := ℕ) (U := UR sig nD τ) (Lvl := ℕ) spec6 c (Y10 m ρ c)
  hentry c := by
    rw [Pipeline.ownSems0_none]
    have hsplit := Pipeline.arrays_of_unscopedBufs (p := 6) (pcfgs (F := F)) admR (pdats m ρ) launch6.win launch6.arr_whole c
      ((pdats m ρ 6 c).share_full fun _ => rfl) (Y10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (Y10 m ρ) c); unfold Pipeline.ΦA
    iintro ⟨Hp, -, Hr⟩
    isplitl [Hr]; · iexact Hr
    iexact Hp
  hout c := by
    rw [Pipeline.ownSems0_none]
    refine (hout6 (Y10 m ρ) c).trans ?_; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admR (Ix := Unit) (Name := ℕ) (U := UR sig nD τ) (Lvl := ℕ)
      launch6.win launch6.arr_whole c (pdats m ρ) ((pdats m ρ 6 c).share_full fun _ => rfl)
      (Y10 m ρ c) (Z11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsR : List (Pipeline.Seg (pcfgs (F := F)) admR (pdats m ρ) () defs₀ 𝒱₀ L lv) :=
  [ .host (hseg hostOps0 hostOps0_sub hostOps0_fresh (X0 m ρ)),
    .region (reg0 m ρ),
    .host (hseg hostOps1 hostOps1_sub hostOps1_fresh (X2 m ρ)),
    .region (reg1 m ρ),
    .region (reg2 m ρ),
    .host (hseg hostOps3 hostOps3_sub hostOps3_fresh (X5 m ρ)),
    .region (reg3 m ρ),
    .region (reg4 m ρ),
    .host (hseg hostOps5 hostOps5_sub hostOps5_fresh (X8 m ρ)),
    .region (reg5 m ρ),
    .region (reg6 m ρ),
    .host (hseg hostOps7 hostOps7_sub hostOps7_fresh (X11 m ρ)) ]
theorem main_run (c : Dev nD) : main (F := F) c = Pipeline.Seg.run (segsR m ρ) := (main_chain c).trans (by chain_rfl)

set_option backward.isDefEq.respectTransparency.types false in
/-- THE RUN: from any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X12 m ρ c b) :=
  Pipeline.θ_run_regions_kit (pcfgs (F := F)) admR (pdats m ρ) () cellOf_inj emb₁ defs₀ 𝒱₀ L lv m ρ main (segsR m ρ)
    (fun c Q => by rw [main_run m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m ρ c) ∗ R c)) (Tₙ := fun c => StableHlo.held (c : Thread nD τ) (Pipeline.ucRefs τ sig) (X12 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (X0 m ρ c)
        from Pipeline.unscopedBufs_held c (X0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X12 m ρ c b)
    (hfin := fun c s' => by
      unfold StableHlo.held
      iintro ⟨Hh, HSI⟩
      imodintro
      iapply (pointsTo_read_all (Pipeline.ucRefs τ sig) (fun b => (((c : Thread nD τ)).1, b)) (X12 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (X12_main_arg0 m ρ c),
    (h c _ (mem_uc main_arg1 (by decide))).trans (X12_main_arg1 m ρ c),
    (h c _ (mem_uc main_arg2 (by decide))).trans (X12_main_arg2 m ρ c),
    (h c _ (mem_uc main_arg3 (by decide))).trans (X12_main_arg3 m ρ c),
    (h c _ (mem_uc main_arg4 (by decide))).trans (X12_main_arg4 m ρ c),
    (h c _ (mem_uc main_arg5 (by decide))).trans (X12_main_arg5 m ρ c)⟩) (run_all m ρ)

end Cert.Kernel.Gen

end
-- ==== Proof.MatmulRunsI0.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The block product D·A: a 1024×1024 output block accumulated over four blocks of the contracted axis

The grid is 4×4×4, the contracted axis innermost: point t works on k = t mod 4. At k = 0 the scratch accumulator is
reset, at every point the product of the two input blocks is added to it, at k = 3 it is stored into the output block. -/

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev VO0_2 : View sig .tc .vmem S1024x1024 .bf16 := (Memref.whole cc0_stg2_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev scM0 : Memref sig .tc .vmem S1024x1024 .f32 := Memref.whole cc0_scratch0
abbrev VS0 : View sig .tc .vmem S1024x1024 .f32 := scM0.view

/-- The region invariant before the first point: the accumulator at anything, the other scoped buffers unopened, the
    generator register at some state. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body, case by case (first, middle, last block of the contracted axis) -/

set_option maxHeartbeats 2000000 in
/-- k = 0: the accumulator is reset and the first product added; the output block is not touched. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .f32) :
    { LS0 : List (View.Piece (Elt F) S1024x1024 .f32) //
      ∀ (xo : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xo
            ∗ (∃ d, owns (c : Thread nD τ) arg6 fullShare d)
            ∗ (iprop(owns (c : Thread nD τ) arg3 fullShare x0 ∗ owns (c : Thread nD τ) arg4 fullShare x1 ∗ owns (c : Thread nD τ) arg5 fullShare xo
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨?_, fun xo E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- 0 < k < 3: the product is added to what the point before left in the accumulator. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .f32) (xs0 : Vec F S1024x1024 .f32) :
    { LS0 : List (View.Piece (Elt F) S1024x1024 .f32) //
      ∀ (xo : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xo
            ∗ owns (c : Thread nD τ) arg6 fullShare xs0
            ∗ (iprop(owns (c : Thread nD τ) arg3 fullShare x0 ∗ owns (c : Thread nD τ) arg4 fullShare x1 ∗ owns (c : Thread nD τ) arg5 fullShare xo
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨?_, fun xo E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- k = 3: the last product is added and the accumulator stored into the output block. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .f32) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨?_, ?_, fun E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Gen

end
-- ==== Proof.MatmulI0.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import proofs.«136557_j13331578487504_1_alg».proof.Proof.MatmulRunsI0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output block -/

theorem scover0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 x1 : Vec F S1024x1024 .f32) (y : S1024x1024.Idx) :
    ∃ pc ∈ (kernelRun0_A c i arg3 harg3 arg4 harg4 arg5 harg5 arg6 harg6 hc0 hc1 x0 x1).1, y ∈ pc.1.set :=
  View.cover_of_tiledL (kernelRun0_A c i arg3 harg3 arg4 harg4 arg5 harg5 arg6 harg6 hc0 hc1 x0 x1).1 S1024x1024.size (by sl_kernel_rfl) y
def sout0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 x1 : Vec F S1024x1024 .f32) : Vec F S1024x1024 .f32 :=
  VS0.read (Elt F) (VS0.writes (Elt F) VS0.junk (kernelRun0_A c i arg3 harg3 arg4 harg4 arg5 harg5 arg6 harg6 hc0 hc1 x0 x1).1)

theorem scover0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 x1 xs0 : Vec F S1024x1024 .f32) (y : S1024x1024.Idx) :
    ∃ pc ∈ (kernelRun0_B c i arg3 harg3 arg4 harg4 arg5 harg5 arg6 harg6 hc0 hc1 x0 x1 xs0).1, y ∈ pc.1.set :=
  View.cover_of_tiledL (kernelRun0_B c i arg3 harg3 arg4 harg4 arg5 harg5 arg6 harg6 hc0 hc1 x0 x1 xs0).1 S1024x1024.size (by sl_kernel_rfl) y
def sout0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 x1 xs0 : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs0).1)

theorem cover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y
def out0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) : Vec F S1024x1024 .bf16 :=
  VO0_2.read (Elt F) (VO0_2.writes (Elt F) VO0_2.junk (kernelRun0_C c i arg3 harg3 arg4 harg4 arg5 harg5 arg6 harg6 hc0 hc1 x0 x1 xs0).1)
theorem scover0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y
def sout0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs0).2.1)

/-- A placeholder for the output block at the points that do not store it (never consulted there). -/
def idleBlk0 : Vec F S1024x1024 .bf16 := VO0_2.read (Elt F) VO0_2.junk

/-- THE ACCUMULATION: what the output block's buffer and the accumulator hold after the body at position `n`. -/
def outsAt0 (c : Dev nD) : (n : ℕ) → n < cfg0.N → Vec F S1024x1024 .bf16 × Vec F S1024x1024 .f32
  | 0, hn => (idleBlk0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then False.elim (by omega)
      else (idleBlk0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else (idleBlk0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (idleBlk0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)
theorem outsAt0_B (c : Dev nD) (t : Fin cfg0.N) (h0 : ¬t.val % 4 = 0) (h1 : ¬t.val % 4 = 3) :
    outsAt0 V c t.val t.isLt = (idleBlk0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator holds anything; afterwards what the point
    before left in it. The other scoped buffers stay unopened and the generator register is at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of the block product's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HR⟩, Hg⟩
  isplitl [HS0 HR]
  · isplitl [HS0]
    · iexists _; iexact HS0
    iexact HR
  iexact Hg

end Cert.KernelIdeal.Gen

end
-- ==== Proof.DenseI1.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A dense layer's region: rows of the input times the whole weight matrix

Window 0 is a block of 1024 rows of the 4096×256 input, window 1 the whole 256×256 weight matrix (fetched once),
window 2 the matching block of 1024 rows of the output. The body stores one product into the output block. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S1024x256 := Rect.unit (s := S1024x256) ![0, 0] S1024x256.size inb_S1024x256_S1024x256_0_0
abbrev rW1 : Rect S256x256 := Rect.unit (s := S256x256) ![0, 0] S256x256.size inb_S256x256_S256x256_0_0

/-- The output block after the body: the product of the row block with the weights, stored whole. -/
def out1_2 (x0 : Vec F S1024x256 .f32) (x1 : Vec F S256x256 .f32) : Vec F S1024x256 .f32 :=
  View.canon [⟨rX1, k1_pay1 (View.ld x0 rX1) (View.ld x1 rW1)⟩]

theorem cover1_2 (p0 : Vec F S1024x256 .f32) (y : S1024x256.Idx) :
    ∃ pc ∈ ([⟨rX1, p0⟩] : List (View.Piece (Elt F) S1024x256 .f32)), y ∈ pc.1.set :=
  View.cover_of_tiled [⟨rX1, p0⟩] S1024x256.size (by rfl) y

set_option maxHeartbeats 1000000 in
/-- The body on whole staging buffers: the inputs keep their contents, the output ends at the product. -/
theorem sound_kernel1 (c : Dev nD) (E : Set ℕ) (i : grid1.Coords) (arg1 : Memref sig .tc .vmem S1024x256 .f32) (harg1 : arg1.IsWhole)
    (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the dense layer's pipeline on core `c`: the arrays as the region finds them; the inputs' buffers
    keep their blocks, the output's holds the product of the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.PropRunsI2.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One propagation layer's region: z = P·y accumulated over four blocks of the contracted axis, then the normalised sum

The grid is 4×4, the contracted axis innermost (k = t mod 4). At k = 0 the scratch accumulator is reset; at every point
the product of the P block with the y block is added; at k = 3 the accumulator z is stored as the first result and
acc_in + z / max(‖z‖, ε), row by row, as the second. -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev VO2_3 : View sig .tc .vmem S1024x256 .f32 := (Memref.whole cc2_stg3_0 : Memref sig .tc .vmem S1024x256 .f32).view
abbrev VO2_4 : View sig .tc .vmem S1024x256 .f32 := (Memref.whole cc2_stg4_0 : Memref sig .tc .vmem S1024x256 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .f32 := win2_4.stage (cfg2.slots t 4)
abbrev hs2_4 (t : Fin cfg2.N) : (ms2_4 t).IsWhole := hstage2_4 ((cfg2.slots t 4).cast nbuf2_4)
abbrev scM2 : Memref sig .tc .vmem S1024x256 .f32 := Memref.whole cc2_scratch0
abbrev VS2 : View sig .tc .vmem S1024x256 .f32 := scM2.view

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 2000000 in
/-- k = 0: the accumulator is reset and the first product added; neither result block is touched. -/
noncomputable def kernelRun2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond2_0 i) (hc1 : ¬cond2_1 i)
    (x0 : Vec F S1024x1024 .bf16) (x1 x2 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨?_, fun xo3 xo4 E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- 0 < k < 3: the product is added to what the point before left in the accumulator. -/
noncomputable def kernelRun2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : ¬cond2_1 i)
    (x0 : Vec F S1024x1024 .bf16) (x1 x2 : Vec F S1024x256 .f32) (xs0 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨?_, fun xo3 xo4 E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- k = 3: the last product is added; the accumulator is stored as z and the normalised sum as the new running total. -/
noncomputable def kernelRun2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i)
    (x0 : Vec F S1024x1024 .bf16) (x1 x2 : Vec F S1024x256 .f32) (xs0 : Vec F S1024x256 .f32) :
    Σ' (L3 : List (View.Piece (Elt F) S1024x256 .f32)) (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨?_, ?_, ?_, fun E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Gen

end
-- ==== Proof.PropI2.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import proofs.«136557_j13331578487504_1_alg».proof.Proof.PropRunsI2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the two result blocks -/

theorem scover2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond2_0 i) (hc1 : ¬cond2_1 i) (x0 : Vec F S1024x1024 .bf16) (x1 x2 : Vec F S1024x256 .f32) (y : S1024x256.Idx) :
    ∃ pc ∈ (kernelRun2_A c i arg2 harg2 arg3 harg3 arg4 harg4 arg5 harg5 arg6 harg6 arg7 harg7 hc0 hc1 x0 x1 x2).1, y ∈ pc.1.set :=
  View.cover_of_tiledL (kernelRun2_A c i arg2 harg2 arg3 harg3 arg4 harg4 arg5 harg5 arg6 harg6 arg7 harg7 hc0 hc1 x0 x1 x2).1 S1024x256.size (by sl_kernel_rfl) y
def sout2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond2_0 i) (hc1 : ¬cond2_1 i) (x0 : Vec F S1024x1024 .bf16) (x1 x2 : Vec F S1024x256 .f32) : Vec F S1024x256 .f32 :=
  VS2.read (Elt F) (VS2.writes (Elt F) VS2.junk (kernelRun2_A c i arg2 harg2 arg3 harg3 arg4 harg4 arg5 harg5 arg6 harg6 arg7 harg7 hc0 hc1 x0 x1 x2).1)

theorem scover2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : ¬cond2_1 i) (x0 : Vec F S1024x1024 .bf16) (x1 x2 : Vec F S1024x256 .f32) (xs0 : Vec F S1024x256 .f32) (y : S1024x256.Idx) :
    ∃ pc ∈ (kernelRun2_B c i arg2 harg2 arg3 harg3 arg4 harg4 arg5 harg5 arg6 harg6 arg7 harg7 hc0 hc1 x0 x1 x2 xs0).1, y ∈ pc.1.set :=
  View.cover_of_tiledL (kernelRun2_B c i arg2 harg2 arg3 harg3 arg4 harg4 arg5 harg5 arg6 harg6 arg7 harg7 hc0 hc1 x0 x1 x2 xs0).1 S1024x256.size (by sl_kernel_rfl) y
def sout2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : ¬cond2_1 i) (x0 : Vec F S1024x1024 .bf16) (x1 x2 : Vec F S1024x256 .f32) (xs0 : Vec F S1024x256 .f32) : Vec F S1024x256 .f32 :=
  VS2.read (Elt F) (VS2.writes (Elt F) VS2.junk (kernelRun2_B c i arg2 harg2 arg3 harg3 arg4 harg4 arg5 harg5 arg6 harg6 arg7 harg7 hc0 hc1 x0 x1 x2 xs0).1)

theorem cover2_C3 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) (y : S1024x256.Idx) :
    ∃ pc ∈ (kernelRun2_C c i arg2 harg2 arg3 harg3 arg4 harg4 arg5 harg5 arg6 harg6 arg7 harg7 hc0 hc1 x0 x1 x2 xs0).1, y ∈ pc.1.set :=
  View.cover_of_tiledL (kernelRun2_C c i arg2 harg2 arg3 harg3 arg4 harg4 arg5 harg5 arg6 harg6 arg7 harg7 hc0 hc1 x0 x1 x2 xs0).1 S1024x256.size (by sl_kernel_rfl) y
def out2_C3 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) : Vec F S1024x256 .f32 :=
  VO2_3.read (Elt F) (VO2_3.writes (Elt F) VO2_3.junk (kernelRun2_C c i arg2 harg2 arg3 harg3 arg4 harg4 arg5 harg5 arg6 harg6 arg7 harg7 hc0 hc1 x0 x1 x2 xs0).1)
theorem cover2_C4 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) (y : S1024x256.Idx) :
    ∃ pc ∈ (kernelRun2_C c i arg2 harg2 arg3 harg3 arg4 harg4 arg5 harg5 arg6 harg6 arg7 harg7 hc0 hc1 x0 x1 x2 xs0).2.1, y ∈ pc.1.set :=
  View.cover_of_tiledL (kernelRun2_C c i arg2 harg2 arg3 harg3 arg4 harg4 arg5 harg5 arg6 harg6 arg7 harg7 hc0 hc1 x0 x1 x2 xs0).2.1 S1024x256.size (by sl_kernel_rfl) y
def out2_C4 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) : Vec F S1024x256 .f32 :=
  VO2_4.read (Elt F) (VO2_4.writes (Elt F) VO2_4.junk (kernelRun2_C c i arg2 harg2 arg3 harg3 arg4 harg4 arg5 harg5 arg6 harg6 arg7 harg7 hc0 hc1 x0 x1 x2 xs0).2.1)
theorem scover2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) (y : S1024x256.Idx) :
    ∃ pc ∈ (kernelRun2_C c i arg2 harg2 arg3 harg3 arg4 harg4 arg5 harg5 arg6 harg6 arg7 harg7 hc0 hc1 x0 x1 x2 xs0).2.2.1, y ∈ pc.1.set :=
  View.cover_of_tiledL (kernelRun2_C c i arg2 harg2 arg3 harg3 arg4 harg4 arg5 harg5 arg6 harg6 arg7 harg7 hc0 hc1 x0 x1 x2 xs0).2.2.1 S1024x256.size (by sl_kernel_rfl) y
def sout2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 : Vec F S1024x256 .f32) (xs0 : Vec F S1024x256 .f32) : Vec F S1024x256 .f32 :=
  VS2.read (Elt F) (VS2.writes (Elt F) VS2.junk (kernelRun2_C c i arg2 harg2 arg3 harg3 arg4 harg4 arg5 harg5 arg6 harg6 arg7 harg7 hc0 hc1 x0 x1 x2 xs0).2.2.1)

/-- A placeholder for a result block at the points that do not store it (never consulted there). -/
def idleBlk2 : Vec F S1024x256 .f32 := VO2_3.read (Elt F) VO2_3.junk

/-- THE ACCUMULATION: what the two result blocks' buffers and the accumulator hold after the body at position `n`. -/
def outsAt2 (c : Dev nD) : (n : ℕ) → n < cfg2.N → Vec F S1024x256 .f32 × Vec F S1024x256 .f32 × Vec F S1024x256 .f32
  | 0, hn => (idleBlk2, idleBlk2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then False.elim (by omega)
      else (idleBlk2, idleBlk2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2,
         out2_C4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else (idleBlk2, idleBlk2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

theorem outsAt2_A (c : Dev nD) (t : Fin cfg2.N) (h0 : t.val % 4 = 0) (h1 : ¬t.val % 4 = 3) :
    outsAt2 V c t.val t.isLt = (idleBlk2, idleBlk2, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)
theorem outsAt2_B (c : Dev nD) (t : Fin cfg2.N) (h0 : ¬t.val % 4 = 0) (h1 : ¬t.val % 4 = 3) :
    outsAt2 V c t.val t.isLt = (idleBlk2, idleBlk2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 4 = 0) (h1 : t.val % 4 = 3) :
    outsAt2 V c t.val t.isLt = (out2_C3 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2,
      out2_C4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2,
      sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2.2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of the propagation layer's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C3 out2_C4 sout2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C3 c _ _ _ _ _ _ _ _ _ _ _ _ _ _ _ _ _ _ _)
      unfold owns; iexists _; isplitr
      swap; · iexact H4
      ipureintro; exact View.read_writes_of_cover _ _ _ _ _ (cover2_C4 c _ _ _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS0, HR⟩, Hg⟩
  isplitl [HS0 HR]
  · isplitl [HS0]
    · iexists _; iexact HS0
    iexact HR
  iexact Hg

end Cert.KernelIdeal.Gen

end
-- ==== Proof.DenseI3.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A dense layer's region: rows of the input times the whole weight matrix

Window 0 is a block of 1024 rows of the 4096×256 input, window 1 the whole 256×256 weight matrix (fetched once),
window 2 the matching block of 1024 rows of the output. The body stores one product into the output block. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rX3 : Rect S1024x256 := Rect.unit (s := S1024x256) ![0, 0] S1024x256.size inb_S1024x256_S1024x256_0_0
abbrev rW3 : Rect S256x256 := Rect.unit (s := S256x256) ![0, 0] S256x256.size inb_S256x256_S256x256_0_0

/-- The output block after the body: the product of the row block with the weights, stored whole. -/
def out3_2 (x0 : Vec F S1024x256 .f32) (x1 : Vec F S256x256 .f32) : Vec F S1024x256 .f32 :=
  View.canon [⟨rX3, k3_pay1 (View.ld x0 rX3) (View.ld x1 rW3)⟩]

theorem cover3_2 (p0 : Vec F S1024x256 .f32) (y : S1024x256.Idx) :
    ∃ pc ∈ ([⟨rX3, p0⟩] : List (View.Piece (Elt F) S1024x256 .f32)), y ∈ pc.1.set :=
  View.cover_of_tiled [⟨rX3, p0⟩] S1024x256.size (by rfl) y

set_option maxHeartbeats 1000000 in
/-- The body on whole staging buffers: the inputs keep their contents, the output ends at the product. -/
theorem sound_kernel3 (c : Dev nD) (E : Set ℕ) (i : grid3.Coords) (arg1 : Memref sig .tc .vmem S1024x256 .f32) (harg1 : arg1.IsWhole)
    (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the dense layer's pipeline on core `c`: the arrays as the region finds them; the inputs' buffers
    keep their blocks, the output's holds the product of the point's blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.PropRunsI4.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One propagation layer's region: z = P·y accumulated over four blocks of the contracted axis, then the normalised sum

The grid is 4×4, the contracted axis innermost (k = t mod 4). At k = 0 the scratch accumulator is reset; at every point
the product of the P block with the y block is added; at k = 3 the accumulator z is stored as the first result and
acc_in + z / max(‖z‖, ε), row by row, as the second. -/

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev VO4_3 : View sig .tc .vmem S1024x256 .f32 := (Memref.whole cc4_stg3_0 : Memref sig .tc .vmem S1024x256 .f32).view
abbrev VO4_4 : View sig .tc .vmem S1024x256 .f32 := (Memref.whole cc4_stg4_0 : Memref sig .tc .vmem S1024x256 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x256 .f32 := win4_4.stage (cfg4.slots t 4)
abbrev hs4_4 (t : Fin cfg4.N) : (ms4_4 t).IsWhole := hstage4_4 ((cfg4.slots t 4).cast nbuf4_4)
abbrev scM4 : Memref sig .tc .vmem S1024x256 .f32 := Memref.whole cc4_scratch0
abbrev VS4 : View sig .tc .vmem S1024x256 .f32 := scM4.view

theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

set_option maxHeartbeats 2000000 in
/-- k = 0: the accumulator is reset and the first product added; neither result block is touched. -/
noncomputable def kernelRun4_A (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond4_0 i) (hc1 : ¬cond4_1 i)
    (x0 : Vec F S1024x1024 .bf16) (x1 x2 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨?_, fun xo3 xo4 E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- 0 < k < 3: the product is added to what the point before left in the accumulator. -/
noncomputable def kernelRun4_B (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : ¬cond4_1 i)
    (x0 : Vec F S1024x1024 .bf16) (x1 x2 : Vec F S1024x256 .f32) (xs0 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨?_, fun xo3 xo4 E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- k = 3: the last product is added; the accumulator is stored as z and the normalised sum as the new running total. -/
noncomputable def kernelRun4_C (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i)
    (x0 : Vec F S1024x1024 .bf16) (x1 x2 : Vec F S1024x256 .f32) (xs0 : Vec F S1024x256 .f32) :
    Σ' (L3 : List (View.Piece (Elt F) S1024x256 .f32)) (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨?_, ?_, ?_, fun E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Gen

end
-- ==== Proof.PropI4.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import proofs.«136557_j13331578487504_1_alg».proof.Proof.PropRunsI4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the two result blocks -/

theorem scover4_A (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond4_0 i) (hc1 : ¬cond4_1 i) (x0 : Vec F S1024x1024 .bf16) (x1 x2 : Vec F S1024x256 .f32) (y : S1024x256.Idx) :
    ∃ pc ∈ (kernelRun4_A c i arg2 harg2 arg3 harg3 arg4 harg4 arg5 harg5 arg6 harg6 arg7 harg7 hc0 hc1 x0 x1 x2).1, y ∈ pc.1.set :=
  View.cover_of_tiledL (kernelRun4_A c i arg2 harg2 arg3 harg3 arg4 harg4 arg5 harg5 arg6 harg6 arg7 harg7 hc0 hc1 x0 x1 x2).1 S1024x256.size (by sl_kernel_rfl) y
def sout4_A (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond4_0 i) (hc1 : ¬cond4_1 i) (x0 : Vec F S1024x1024 .bf16) (x1 x2 : Vec F S1024x256 .f32) : Vec F S1024x256 .f32 :=
  VS4.read (Elt F) (VS4.writes (Elt F) VS4.junk (kernelRun4_A c i arg2 harg2 arg3 harg3 arg4 harg4 arg5 harg5 arg6 harg6 arg7 harg7 hc0 hc1 x0 x1 x2).1)

theorem scover4_B (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : ¬cond4_1 i) (x0 : Vec F S1024x1024 .bf16) (x1 x2 : Vec F S1024x256 .f32) (xs0 : Vec F S1024x256 .f32) (y : S1024x256.Idx) :
    ∃ pc ∈ (kernelRun4_B c i arg2 harg2 arg3 harg3 arg4 harg4 arg5 harg5 arg6 harg6 arg7 harg7 hc0 hc1 x0 x1 x2 xs0).1, y ∈ pc.1.set :=
  View.cover_of_tiledL (kernelRun4_B c i arg2 harg2 arg3 harg3 arg4 harg4 arg5 harg5 arg6 harg6 arg7 harg7 hc0 hc1 x0 x1 x2 xs0).1 S1024x256.size (by sl_kernel_rfl) y
def sout4_B (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : ¬cond4_1 i) (x0 : Vec F S1024x1024 .bf16) (x1 x2 : Vec F S1024x256 .f32) (xs0 : Vec F S1024x256 .f32) : Vec F S1024x256 .f32 :=
  VS4.read (Elt F) (VS4.writes (Elt F) VS4.junk (kernelRun4_B c i arg2 harg2 arg3 harg3 arg4 harg4 arg5 harg5 arg6 harg6 arg7 harg7 hc0 hc1 x0 x1 x2 xs0).1)

theorem cover4_C3 (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) (y : S1024x256.Idx) :
    ∃ pc ∈ (kernelRun4_C c i arg2 harg2 arg3 harg3 arg4 harg4 arg5 harg5 arg6 harg6 arg7 harg7 hc0 hc1 x0 x1 x2 xs0).1, y ∈ pc.1.set :=
  View.cover_of_tiledL (kernelRun4_C c i arg2 harg2 arg3 harg3 arg4 harg4 arg5 harg5 arg6 harg6 arg7 harg7 hc0 hc1 x0 x1 x2 xs0).1 S1024x256.size (by sl_kernel_rfl) y
def out4_C3 (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) : Vec F S1024x256 .f32 :=
  VO4_3.read (Elt F) (VO4_3.writes (Elt F) VO4_3.junk (kernelRun4_C c i arg2 harg2 arg3 harg3 arg4 harg4 arg5 harg5 arg6 harg6 arg7 harg7 hc0 hc1 x0 x1 x2 xs0).1)
theorem cover4_C4 (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) (y : S1024x256.Idx) :
    ∃ pc ∈ (kernelRun4_C c i arg2 harg2 arg3 harg3 arg4 harg4 arg5 harg5 arg6 harg6 arg7 harg7 hc0 hc1 x0 x1 x2 xs0).2.1, y ∈ pc.1.set :=
  View.cover_of_tiledL (kernelRun4_C c i arg2 harg2 arg3 harg3 arg4 harg4 arg5 harg5 arg6 harg6 arg7 harg7 hc0 hc1 x0 x1 x2 xs0).2.1 S1024x256.size (by sl_kernel_rfl) y
def out4_C4 (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) : Vec F S1024x256 .f32 :=
  VO4_4.read (Elt F) (VO4_4.writes (Elt F) VO4_4.junk (kernelRun4_C c i arg2 harg2 arg3 harg3 arg4 harg4 arg5 harg5 arg6 harg6 arg7 harg7 hc0 hc1 x0 x1 x2 xs0).2.1)
theorem scover4_C (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) (y : S1024x256.Idx) :
    ∃ pc ∈ (kernelRun4_C c i arg2 harg2 arg3 harg3 arg4 harg4 arg5 harg5 arg6 harg6 arg7 harg7 hc0 hc1 x0 x1 x2 xs0).2.2.1, y ∈ pc.1.set :=
  View.cover_of_tiledL (kernelRun4_C c i arg2 harg2 arg3 harg3 arg4 harg4 arg5 harg5 arg6 harg6 arg7 harg7 hc0 hc1 x0 x1 x2 xs0).2.2.1 S1024x256.size (by sl_kernel_rfl) y
def sout4_C (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 : Vec F S1024x256 .f32) (xs0 : Vec F S1024x256 .f32) : Vec F S1024x256 .f32 :=
  VS4.read (Elt F) (VS4.writes (Elt F) VS4.junk (kernelRun4_C c i arg2 harg2 arg3 harg3 arg4 harg4 arg5 harg5 arg6 harg6 arg7 harg7 hc0 hc1 x0 x1 x2 xs0).2.2.1)

/-- A placeholder for a result block at the points that do not store it (never consulted there). -/
def idleBlk4 : Vec F S1024x256 .f32 := VO4_3.read (Elt F) VO4_3.junk

/-- THE ACCUMULATION: what the two result blocks' buffers and the accumulator hold after the body at position `n`. -/
def outsAt4 (c : Dev nD) : (n : ℕ) → n < cfg4.N → Vec F S1024x256 .f32 × Vec F S1024x256 .f32 × Vec F S1024x256 .f32
  | 0, hn => (idleBlk4, idleBlk4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 4 = 0 then
      if h1 : (n + 1) % 4 = 3 then False.elim (by omega)
      else (idleBlk4, idleBlk4, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 4 = 3 then
        (out4_C3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2,
         out4_C4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2,
         sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2)
      else (idleBlk4, idleBlk4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2)

theorem outsAt4_A (c : Dev nD) (t : Fin cfg4.N) (h0 : t.val % 4 = 0) (h1 : ¬t.val % 4 = 3) :
    outsAt4 V c t.val t.isLt = (idleBlk4, idleBlk4, sout4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)
theorem outsAt4_B (c : Dev nD) (t : Fin cfg4.N) (h0 : ¬t.val % 4 = 0) (h1 : ¬t.val % 4 = 3) :
    outsAt4 V c t.val t.isLt = (idleBlk4, idleBlk4, sout4_B c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt4_C (c : Dev nD) (t : Fin cfg4.N) (h0 : ¬t.val % 4 = 0) (h1 : t.val % 4 = 3) :
    outsAt4 V c t.val t.isLt = (out4_C3 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2,
      out4_C4 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2,
      sout4_C c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2.2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare ((outsAt4 V c n hn).2.2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare ((outsAt4 V c (n - 1) (by omega)).2.2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of the propagation layer's pipeline on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 4 = 0
  · have h1 : ¬t.val % 4 = 3 := by omega
    rw [Dat.leavesExact_idle (dat4 V c) 3 t (idleAt4_3 t (fun h => h1 ((hcond4_1 t).mp h))) (noFlush4_3 t (fun h => h1 ((hcond4_1 t).mp h)))]
    rw [Dat.leavesExact_idle (dat4 V c) 4 t (idleAt4_4 t (fun h => h1 ((hcond4_1 t).mp h))) (noFlush4_4 t (fun h => h1 ((hcond4_1 t).mp h)))]
    rw [outsAt4_A V c t h0 h1]
    unfold sout4_A; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t)).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t)).2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 4 = 3
    · rw [show (dat4 V c).leavesExact 3 t = owns (c : Thread nD τ) (ms4_3 t) fullShare ((dat4 V c).after 3 t) from by
        unfold Dat.leavesExact; rw [liveAt4_3 t ((hcond4_1 t).mpr h1)], after4_3]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C3 out4_C4 sout4_C; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_C3 c _ _ _ _ _ _ _ _ _ _ _ _ _ _ _ _ _ _ _)
      unfold owns; iexists _; isplitr
      swap; · iexact H4
      ipureintro; exact View.read_writes_of_cover _ _ _ _ _ (cover4_C4 c _ _ _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold sout4_B; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) (iblk4 V c 2 t) _).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 16 := N_4; omega), PhiA4_eq]
  iintro ⟨⟨HS0, HR⟩, Hg⟩
  isplitl [HS0 HR]
  · isplitl [HS0]
    · iexists _; iexact HS0
    iexact HR
  iexact Hg

end Cert.KernelIdeal.Gen

end
-- ==== Proof.DenseI5.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A dense layer's region: rows of the input times the whole weight matrix

Window 0 is a block of 1024 rows of the 4096×256 input, window 1 the whole 256×256 weight matrix (fetched once),
window 2 the matching block of 1024 rows of the output. The body stores one product into the output block. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev rX5 : Rect S1024x256 := Rect.unit (s := S1024x256) ![0, 0] S1024x256.size inb_S1024x256_S1024x256_0_0
abbrev rW5 : Rect S256x256 := Rect.unit (s := S256x256) ![0, 0] S256x256.size inb_S256x256_S256x256_0_0

/-- The output block after the body: the product of the row block with the weights, stored whole. -/
def out5_2 (x0 : Vec F S1024x256 .f32) (x1 : Vec F S256x256 .f32) : Vec F S1024x256 .f32 :=
  View.canon [⟨rX5, k5_pay1 (View.ld x0 rX5) (View.ld x1 rW5)⟩]

theorem cover5_2 (p0 : Vec F S1024x256 .f32) (y : S1024x256.Idx) :
    ∃ pc ∈ ([⟨rX5, p0⟩] : List (View.Piece (Elt F) S1024x256 .f32)), y ∈ pc.1.set :=
  View.cover_of_tiled [⟨rX5, p0⟩] S1024x256.size (by rfl) y

set_option maxHeartbeats 1000000 in
/-- The body on whole staging buffers: the inputs keep their contents, the output ends at the product. -/
theorem sound_kernel5 (c : Dev nD) (E : Set ℕ) (i : grid5.Coords) (arg1 : Memref sig .tc .vmem S1024x256 .f32) (harg1 : arg1.IsWhole)
    (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__linear_kernel i arg1 harg1 arg2 harg2 arg3 harg3) K := by
  simp only [cc5__linear_kernel_eq_skeleton]; unfold cc5__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the dense layer's pipeline on core `c`: the arrays as the region finds them; the inputs' buffers
    keep their blocks, the output's holds the product of the point's blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.PropRunsI6.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # One propagation layer's region: z = P·y accumulated over four blocks of the contracted axis, then the normalised sum

The grid is 4×4, the contracted axis innermost (k = t mod 4). At k = 0 the scratch accumulator is reset; at every point
the product of the P block with the y block is added; at k = 3 the accumulator z is stored as the first result and
acc_in + z / max(‖z‖, ε), row by row, as the second. -/

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 4 = 0 :=
  (by decide +kernel : ∀ t : Fin grid6.N, cond6_0 (grid6.coords t) ↔ t.val % 4 = 0)
abbrev cond6_1 (i : grid6.Coords) : Prop := k6_cond2 i = 1#1
theorem hcond6_1 : ∀ t : Fin cfg6.N, cond6_1 (grid6.coords t) ↔ t.val % 4 = 3 :=
  (by decide +kernel : ∀ t : Fin grid6.N, cond6_1 (grid6.coords t) ↔ t.val % 4 = 3)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem idleAt6_3 : ∀ t : Fin cfg6.N, ¬cond6_1 (grid6.coords t) → cfg6.idle 3 (grid6.coords t) = true := by decide +kernel
theorem noFlush6_3 : ∀ t : Fin cfg6.N, ¬cond6_1 (grid6.coords t) → (cfg6.win 3).flush t = false := by decide +kernel
theorem liveAt6_3 : ∀ t : Fin cfg6.N, cond6_1 (grid6.coords t) → cfg6.idle 3 (grid6.coords t) = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4 : ∀ t : Fin cfg6.N, cond6_1 (grid6.coords t) → cfg6.idle 4 (grid6.coords t) = false := by decide +kernel

abbrev VO6_3 : View sig .tc .vmem S1024x256 .f32 := (Memref.whole cc6_stg3_0 : Memref sig .tc .vmem S1024x256 .f32).view
abbrev VO6_4 : View sig .tc .vmem S1024x256 .f32 := (Memref.whole cc6_stg4_0 : Memref sig .tc .vmem S1024x256 .f32).view
abbrev ms6_0 (t : Fin cfg6.N) : Memref sig .tc .vmem S1024x1024 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x256 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1024x256 .f32 := win6_4.stage (cfg6.slots t 4)
abbrev hs6_4 (t : Fin cfg6.N) : (ms6_4 t).IsWhole := hstage6_4 ((cfg6.slots t 4).cast nbuf6_4)
abbrev scM6 : Memref sig .tc .vmem S1024x256 .f32 := Memref.whole cc6_scratch0
abbrev VS6 : View sig .tc .vmem S1024x256 .f32 := scM6.view

theorem PhiA6_eq (c : Dev nD) :
    (Pipeline.ΦA spec6 c : sProp 𝕄)
      = iprop(iprop(iprop((∃ d, owns (c : Thread nD τ) scM6 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

set_option maxHeartbeats 2000000 in
/-- k = 0: the accumulator is reset and the first product added; neither result block is touched. -/
noncomputable def kernelRun6_A (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond6_0 i) (hc1 : ¬cond6_1 i)
    (x0 : Vec F S1024x1024 .bf16) (x1 x2 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc6__propagate_kernel i arg2 harg2 arg3 harg3 arg4 harg4 arg5 harg5 arg6 harg6 arg7 harg7) K } := by
  refine ⟨?_, fun xo3 xo4 E K => ?run⟩
  case run =>
    simp only [cc6__propagate_kernel_eq_skeleton]; unfold cc6__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- 0 < k < 3: the product is added to what the point before left in the accumulator. -/
noncomputable def kernelRun6_B (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : ¬cond6_1 i)
    (x0 : Vec F S1024x1024 .bf16) (x1 x2 : Vec F S1024x256 .f32) (xs0 : Vec F S1024x256 .f32) :
    { LS0 : List (View.Piece (Elt F) S1024x256 .f32) //
      ∀ (xo3 xo4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
                ∗ (∃ f, arg7.view.loc (c : Thread nD τ) ↦[arg7.view.set]{fullShare} arg7.view.writes (Elt F) f LS0)) -∗ K ⟨⟩))
          ⊢ wp frame (wpE (defs₀ (F := F)) Variants.none c none) E (cc6__propagate_kernel i arg2 harg2 arg3 harg3 arg4 harg4 arg5 harg5 arg6 harg6 arg7 harg7) K } := by
  refine ⟨?_, fun xo3 xo4 E K => ?run⟩
  case run =>
    simp only [cc6__propagate_kernel_eq_skeleton]; unfold cc6__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- k = 3: the last product is added; the accumulator is stored as z and the normalised sum as the new running total. -/
noncomputable def kernelRun6_C (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i)
    (x0 : Vec F S1024x1024 .bf16) (x1 x2 : Vec F S1024x256 .f32) (xs0 : Vec F S1024x256 .f32) :
    Σ' (L3 : List (View.Piece (Elt F) S1024x256 .f32)) (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc6__propagate_kernel i arg2 harg2 arg3 harg3 arg4 harg4 arg5 harg5 arg6 harg6 arg7 harg7) K } := by
  refine ⟨?_, ?_, ?_, fun E K => ?run⟩
  case run =>
    simp only [cc6__propagate_kernel_eq_skeleton]; unfold cc6__propagate_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Gen

end
-- ==== Proof.PropI6.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import proofs.«136557_j13331578487504_1_alg».proof.Proof.PropRunsI6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the two result blocks -/

theorem scover6_A (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond6_0 i) (hc1 : ¬cond6_1 i) (x0 : Vec F S1024x1024 .bf16) (x1 x2 : Vec F S1024x256 .f32) (y : S1024x256.Idx) :
    ∃ pc ∈ (kernelRun6_A c i arg2 harg2 arg3 harg3 arg4 harg4 arg5 harg5 arg6 harg6 arg7 harg7 hc0 hc1 x0 x1 x2).1, y ∈ pc.1.set :=
  View.cover_of_tiledL (kernelRun6_A c i arg2 harg2 arg3 harg3 arg4 harg4 arg5 harg5 arg6 harg6 arg7 harg7 hc0 hc1 x0 x1 x2).1 S1024x256.size (by sl_kernel_rfl) y
def sout6_A (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond6_0 i) (hc1 : ¬cond6_1 i) (x0 : Vec F S1024x1024 .bf16) (x1 x2 : Vec F S1024x256 .f32) : Vec F S1024x256 .f32 :=
  VS6.read (Elt F) (VS6.writes (Elt F) VS6.junk (kernelRun6_A c i arg2 harg2 arg3 harg3 arg4 harg4 arg5 harg5 arg6 harg6 arg7 harg7 hc0 hc1 x0 x1 x2).1)

theorem scover6_B (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : ¬cond6_1 i) (x0 : Vec F S1024x1024 .bf16) (x1 x2 : Vec F S1024x256 .f32) (xs0 : Vec F S1024x256 .f32) (y : S1024x256.Idx) :
    ∃ pc ∈ (kernelRun6_B c i arg2 harg2 arg3 harg3 arg4 harg4 arg5 harg5 arg6 harg6 arg7 harg7 hc0 hc1 x0 x1 x2 xs0).1, y ∈ pc.1.set :=
  View.cover_of_tiledL (kernelRun6_B c i arg2 harg2 arg3 harg3 arg4 harg4 arg5 harg5 arg6 harg6 arg7 harg7 hc0 hc1 x0 x1 x2 xs0).1 S1024x256.size (by sl_kernel_rfl) y
def sout6_B (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : ¬cond6_1 i) (x0 : Vec F S1024x1024 .bf16) (x1 x2 : Vec F S1024x256 .f32) (xs0 : Vec F S1024x256 .f32) : Vec F S1024x256 .f32 :=
  VS6.read (Elt F) (VS6.writes (Elt F) VS6.junk (kernelRun6_B c i arg2 harg2 arg3 harg3 arg4 harg4 arg5 harg5 arg6 harg6 arg7 harg7 hc0 hc1 x0 x1 x2 xs0).1)

theorem cover6_C3 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) (y : S1024x256.Idx) :
    ∃ pc ∈ (kernelRun6_C c i arg2 harg2 arg3 harg3 arg4 harg4 arg5 harg5 arg6 harg6 arg7 harg7 hc0 hc1 x0 x1 x2 xs0).1, y ∈ pc.1.set :=
  View.cover_of_tiledL (kernelRun6_C c i arg2 harg2 arg3 harg3 arg4 harg4 arg5 harg5 arg6 harg6 arg7 harg7 hc0 hc1 x0 x1 x2 xs0).1 S1024x256.size (by sl_kernel_rfl) y
def out6_C3 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) : Vec F S1024x256 .f32 :=
  VO6_3.read (Elt F) (VO6_3.writes (Elt F) VO6_3.junk (kernelRun6_C c i arg2 harg2 arg3 harg3 arg4 harg4 arg5 harg5 arg6 harg6 arg7 harg7 hc0 hc1 x0 x1 x2 xs0).1)
theorem cover6_C4 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) (y : S1024x256.Idx) :
    ∃ pc ∈ (kernelRun6_C c i arg2 harg2 arg3 harg3 arg4 harg4 arg5 harg5 arg6 harg6 arg7 harg7 hc0 hc1 x0 x1 x2 xs0).2.1, y ∈ pc.1.set :=
  View.cover_of_tiledL (kernelRun6_C c i arg2 harg2 arg3 harg3 arg4 harg4 arg5 harg5 arg6 harg6 arg7 harg7 hc0 hc1 x0 x1 x2 xs0).2.1 S1024x256.size (by sl_kernel_rfl) y
def out6_C4 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) : Vec F S1024x256 .f32 :=
  VO6_4.read (Elt F) (VO6_4.writes (Elt F) VO6_4.junk (kernelRun6_C c i arg2 harg2 arg3 harg3 arg4 harg4 arg5 harg5 arg6 harg6 arg7 harg7 hc0 hc1 x0 x1 x2 xs0).2.1)
theorem scover6_C (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) (y : S1024x256.Idx) :
    ∃ pc ∈ (kernelRun6_C c i arg2 harg2 arg3 harg3 arg4 harg4 arg5 harg5 arg6 harg6 arg7 harg7 hc0 hc1 x0 x1 x2 xs0).2.2.1, y ∈ pc.1.set :=
  View.cover_of_tiledL (kernelRun6_C c i arg2 harg2 arg3 harg3 arg4 harg4 arg5 harg5 arg6 harg6 arg7 harg7 hc0 hc1 x0 x1 x2 xs0).2.2.1 S1024x256.size (by sl_kernel_rfl) y
def sout6_C (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 : Vec F S1024x256 .f32) (xs0 : Vec F S1024x256 .f32) : Vec F S1024x256 .f32 :=
  VS6.read (Elt F) (VS6.writes (Elt F) VS6.junk (kernelRun6_C c i arg2 harg2 arg3 harg3 arg4 harg4 arg5 harg5 arg6 harg6 arg7 harg7 hc0 hc1 x0 x1 x2 xs0).2.2.1)

/-- A placeholder for a result block at the points that do not store it (never consulted there). -/
def idleBlk6 : Vec F S1024x256 .f32 := VO6_3.read (Elt F) VO6_3.junk

/-- THE ACCUMULATION: what the two result blocks' buffers and the accumulator hold after the body at position `n`. -/
def outsAt6 (c : Dev nD) : (n : ℕ) → n < cfg6.N → Vec F S1024x256 .f32 × Vec F S1024x256 .f32 × Vec F S1024x256 .f32
  | 0, hn => (idleBlk6, idleBlk6, sout6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h0 : (n + 1) % 4 = 0 then
      if h1 : (n + 1) % 4 = 3 then False.elim (by omega)
      else (idleBlk6, idleBlk6, sout6_A c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩))
    else
      if h1 : (n + 1) % 4 = 3 then
        (out6_C3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2,
         out6_C4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2,
         sout6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2)
      else (idleBlk6, idleBlk6, sout6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2)

theorem outsAt6_A (c : Dev nD) (t : Fin cfg6.N) (h0 : t.val % 4 = 0) (h1 : ¬t.val % 4 = 3) :
    outsAt6 V c t.val t.isLt = (idleBlk6, idleBlk6, sout6_A c (grid6.coords t) (ms6_0 t) (hs6_0 t) (ms6_1 t) (hs6_1 t) (ms6_2 t) (hs6_2 t) (ms6_3 t) (hs6_3 t) (ms6_4 t) (hs6_4 t) scM6 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (dif_pos h0).trans ((dif_neg h1).trans rfl)
theorem outsAt6_B (c : Dev nD) (t : Fin cfg6.N) (h0 : ¬t.val % 4 = 0) (h1 : ¬t.val % 4 = 3) :
    outsAt6 V c t.val t.isLt = (idleBlk6, idleBlk6, sout6_B c (grid6.coords t) (ms6_0 t) (hs6_0 t) (ms6_1 t) (hs6_1 t) (ms6_2 t) (hs6_2 t) (ms6_3 t) (hs6_3 t) (ms6_4 t) (hs6_4 t) scM6 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem outsAt6_C (c : Dev nD) (t : Fin cfg6.N) (h0 : ¬t.val % 4 = 0) (h1 : t.val % 4 = 3) :
    outsAt6 V c t.val t.isLt = (out6_C3 c (grid6.coords t) (ms6_0 t) (hs6_0 t) (ms6_1 t) (hs6_1 t) (ms6_2 t) (hs6_2 t) (ms6_3 t) (hs6_3 t) (ms6_4 t) (hs6_4 t) scM6 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2,
      out6_C4 c (grid6.coords t) (ms6_0 t) (hs6_0 t) (ms6_1 t) (hs6_1 t) (ms6_2 t) (hs6_2 t) (ms6_3 t) (hs6_3 t) (ms6_4 t) (hs6_4 t) scM6 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2,
      sout6_C c (grid6.coords t) (ms6_0 t) (hs6_0 t) (ms6_1 t) (hs6_1 t) (ms6_2 t) (hs6_2 t) (ms6_3 t) (hs6_3 t) (ms6_4 t) (hs6_4 t) scM6 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2.2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6 fullShare ((outsAt6 V c n hn).2.2) ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6 fullShare ((outsAt6 V c (n - 1) (by omega)).2.2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The proof data of the propagation layer's pipeline on core `c`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t
    ∗ (dat6 V c).leavesExact 3 t ∗ (dat6 V c).leavesExact 4 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 16 := lt_of_lt_of_eq t.isLt (show cfg6.N = 16 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  by_cases h0 : t.val % 4 = 0
  · have h1 : ¬t.val % 4 = 3 := by omega
    rw [Dat.leavesExact_idle (dat6 V c) 3 t (idleAt6_3 t (fun h => h1 ((hcond6_1 t).mp h))) (noFlush6_3 t (fun h => h1 ((hcond6_1 t).mp h)))]
    rw [Dat.leavesExact_idle (dat6 V c) 4 t (idleAt6_4 t (fun h => h1 ((hcond6_1 t).mp h))) (noFlush6_4 t (fun h => h1 ((hcond6_1 t).mp h)))]
    rw [outsAt6_A V c t h0 h1]
    unfold sout6_A; (try dsimp only)
    by_cases hz : t.val = 0
    · rw [PhiS6_castSucc V c t, PhiS6_zero V c _ _ hz, PhiA6_eq]
      iintro ⟨⟨⟨HS0, HR⟩, Hg⟩, Ho, ⟨%d0, H0⟩, ⟨%d1, H1⟩, ⟨%d2, H2⟩, ⟨%d3, H3⟩, ⟨%d4, H4⟩⟩
      iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 4 = 3
    · rw [show (dat6 V c).leavesExact 3 t = owns (c : Thread nD τ) (ms6_3 t) fullShare ((dat6 V c).after 3 t) from by
        unfold Dat.leavesExact; rw [liveAt6_3 t ((hcond6_1 t).mpr h1)], after6_3]
      rw [show (dat6 V c).leavesExact 4 t = owns (c : Thread nD τ) (ms6_4 t) fullShare ((dat6 V c).after 4 t) from by
        unfold Dat.leavesExact; rw [liveAt6_4 t ((hcond6_1 t).mpr h1)], after6_4]
      rw [outsAt6_C V c t h0 h1]
      unfold out6_C3 out6_C4 sout6_C; (try dsimp only)
      rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ (fun h => h0 ((hcond6_0 t).mp h)) ((hcond6_1 t).mpr h1) (iblk6 V c 0 t) (iblk6 V c 1 t) (iblk6 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_C c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_C3 c _ _ _ _ _ _ _ _ _ _ _ _ _ _ _ _ _ _ _)
      unfold owns; iexists _; isplitr
      swap; · iexact H4
      ipureintro; exact View.read_writes_of_cover _ _ _ _ _ (cover6_C4 c _ _ _ _ _ _ _ _ _ _ _ _ _ _ _ _ _ _ _)
    · rw [Dat.leavesExact_idle (dat6 V c) 3 t (idleAt6_3 t (fun h => h1 ((hcond6_1 t).mp h))) (noFlush6_3 t (fun h => h1 ((hcond6_1 t).mp h)))]
      rw [Dat.leavesExact_idle (dat6 V c) 4 t (idleAt6_4 t (fun h => h1 ((hcond6_1 t).mp h))) (noFlush6_4 t (fun h => h1 ((hcond6_1 t).mp h)))]
      rw [outsAt6_B V c t h0 h1]
      unfold sout6_B; (try dsimp only)
      rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ (fun h => h0 ((hcond6_0 t).mp h)) (fun h => h1 ((hcond6_1 t).mp h)) (iblk6 V c 0 t) (iblk6 V c 1 t) (iblk6 V c 2 t) _).2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 16 := N_6; omega), PhiA6_eq]
  iintro ⟨⟨HS0, HR⟩, Hg⟩
  isplitl [HS0 HR]
  · isplitl [HS0]
    · iexists _; iexact HS0
    iexact HR
  iexact Hg

end Cert.KernelIdeal.Gen

end
-- ==== Proof.RunI.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import proofs.«136557_j13331578487504_1_alg».proof.Proof.MatmulI0
import proofs.«136557_j13331578487504_1_alg».proof.Proof.DenseI1
import proofs.«136557_j13331578487504_1_alg».proof.Proof.PropI2
import proofs.«136557_j13331578487504_1_alg».proof.Proof.DenseI3
import proofs.«136557_j13331578487504_1_alg».proof.Proof.PropI4
import proofs.«136557_j13331578487504_1_alg».proof.Proof.DenseI5
import proofs.«136557_j13331578487504_1_alg».proof.Proof.PropI6
import proofs.«136557_j13331578487504_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the buffers' contents at each boundary of @main, a fold from the launch memory

A stretch of host operations applies its operations; a region leaves each of its arrays at what its write-backs leave and
every other buffer as it found it. -/

abbrev X0 : Dev nD → Valuation τ sig (Elt F) := fun c b => (s₀ m ρ).mem ((c : Dev nD), b)
abbrev X1 : Dev nD → Valuation τ sig (Elt F) := fun c => StableHlo.after hostOps0 (X0 m ρ c)
abbrev Y1 : (c : Dev nD) → (b : Ref sig .tc) → Buf (Elt F) ((c : Thread nD τ).loc b) := fun c b => X1 m ρ c b
def X2 (c : Dev nD) : Valuation τ sig (Elt F) :=
  Pipeline.withArrays spec0 c (X1 m ρ c) fun w => (dat0 (Y1 m ρ) c).arrAt w cfg0.N
theorem X2_arr (c : Dev nD) (w : Fin cfg0.W) :
    X2 m ρ c (Proc.devRef .tc (Pipeline.arrRef spec0 w)) = (dat0 (Y1 m ρ) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m ρ c (Proc.devRef .tc b) = X1 m ρ c (Proc.devRef .tc b) := by
  unfold X2; exact Pipeline.withArrays_of_ne spec0 c _ _ b hb
abbrev Z2 : (c : Dev nD) → (b : Ref sig .tc) → Buf (Elt F) ((c : Thread nD τ).loc b) := fun c b => X2 m ρ c b
theorem hF0 (c : Dev nD) (w : Fin cfg0.W) : (dat0 (Y1 m ρ) c).arrAt w cfg0.N = Z2 m ρ c (Pipeline.arrRef spec0 w) :=
  (X2_arr m ρ c w).symm
theorem hrest0 (c : Dev nD) : ∀ b, b ∉ Finset.univ.image (Pipeline.arrRef spec0) → Z2 m ρ c b = Y1 m ρ c b :=
  fun b hb => X2_of_ne m ρ c b fun w e => hb (Finset.mem_image.mpr ⟨w, Finset.mem_univ _, e⟩)
abbrev X3 : Dev nD → Valuation τ sig (Elt F) := fun c => StableHlo.after hostOps1 (X2 m ρ c)
abbrev Y3 : (c : Dev nD) → (b : Ref sig .tc) → Buf (Elt F) ((c : Thread nD τ).loc b) := fun c b => X3 m ρ c b
def X4 (c : Dev nD) : Valuation τ sig (Elt F) :=
  Pipeline.withArrays spec1 c (X3 m ρ c) fun w => (dat1 (Y3 m ρ) c).arrAt w cfg1.N
theorem X4_arr (c : Dev nD) (w : Fin cfg1.W) :
    X4 m ρ c (Proc.devRef .tc (Pipeline.arrRef spec1 w)) = (dat1 (Y3 m ρ) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m ρ c (Proc.devRef .tc b) = X3 m ρ c (Proc.devRef .tc b) := by
  unfold X4; exact Pipeline.withArrays_of_ne spec1 c _ _ b hb
abbrev Z4 : (c : Dev nD) → (b : Ref sig .tc) → Buf (Elt F) ((c : Thread nD τ).loc b) := fun c b => X4 m ρ c b
theorem hF1 (c : Dev nD) (w : Fin cfg1.W) : (dat1 (Y3 m ρ) c).arrAt w cfg1.N = Z4 m ρ c (Pipeline.arrRef spec1 w) :=
  (X4_arr m ρ c w).symm
theorem hrest1 (c : Dev nD) : ∀ b, b ∉ Finset.univ.image (Pipeline.arrRef spec1) → Z4 m ρ c b = Y3 m ρ c b :=
  fun b hb => X4_of_ne m ρ c b fun w e => hb (Finset.mem_image.mpr ⟨w, Finset.mem_univ _, e⟩)
abbrev Y4 : (c : Dev nD) → (b : Ref sig .tc) → Buf (Elt F) ((c : Thread nD τ).loc b) := fun c b => X4 m ρ c b
def X5 (c : Dev nD) : Valuation τ sig (Elt F) :=
  Pipeline.withArrays spec2 c (X4 m ρ c) fun w => (dat2 (Y4 m ρ) c).arrAt w cfg2.N
theorem X5_arr (c : Dev nD) (w : Fin cfg2.W) :
    X5 m ρ c (Proc.devRef .tc (Pipeline.arrRef spec2 w)) = (dat2 (Y4 m ρ) c).arrAt w cfg2.N := by
  unfold X5; exact Pipeline.withArrays_arr spec2 launch2.win.arr_inj c _ _ w
theorem X5_of_ne (c : Dev nD) (b : Ref sig .tc) (hb : ∀ w, Pipeline.arrRef spec2 w ≠ b) :
    X5 m ρ c (Proc.devRef .tc b) = X4 m ρ c (Proc.devRef .tc b) := by
  unfold X5; exact Pipeline.withArrays_of_ne spec2 c _ _ b hb
abbrev Z5 : (c : Dev nD) → (b : Ref sig .tc) → Buf (Elt F) ((c : Thread nD τ).loc b) := fun c b => X5 m ρ c b
theorem hF2 (c : Dev nD) (w : Fin cfg2.W) : (dat2 (Y4 m ρ) c).arrAt w cfg2.N = Z5 m ρ c (Pipeline.arrRef spec2 w) :=
  (X5_arr m ρ c w).symm
theorem hrest2 (c : Dev nD) : ∀ b, b ∉ Finset.univ.image (Pipeline.arrRef spec2) → Z5 m ρ c b = Y4 m ρ c b :=
  fun b hb => X5_of_ne m ρ c b fun w e => hb (Finset.mem_image.mpr ⟨w, Finset.mem_univ _, e⟩)
abbrev X6 : Dev nD → Valuation τ sig (Elt F) := fun c => StableHlo.after hostOps3 (X5 m ρ c)
abbrev Y6 : (c : Dev nD) → (b : Ref sig .tc) → Buf (Elt F) ((c : Thread nD τ).loc b) := fun c b => X6 m ρ c b
def X7 (c : Dev nD) : Valuation τ sig (Elt F) :=
  Pipeline.withArrays spec3 c (X6 m ρ c) fun w => (dat3 (Y6 m ρ) c).arrAt w cfg3.N
theorem X7_arr (c : Dev nD) (w : Fin cfg3.W) :
    X7 m ρ c (Proc.devRef .tc (Pipeline.arrRef spec3 w)) = (dat3 (Y6 m ρ) c).arrAt w cfg3.N := by
  unfold X7; exact Pipeline.withArrays_arr spec3 launch3.win.arr_inj c _ _ w
theorem X7_of_ne (c : Dev nD) (b : Ref sig .tc) (hb : ∀ w, Pipeline.arrRef spec3 w ≠ b) :
    X7 m ρ c (Proc.devRef .tc b) = X6 m ρ c (Proc.devRef .tc b) := by
  unfold X7; exact Pipeline.withArrays_of_ne spec3 c _ _ b hb
abbrev Z7 : (c : Dev nD) → (b : Ref sig .tc) → Buf (Elt F) ((c : Thread nD τ).loc b) := fun c b => X7 m ρ c b
theorem hF3 (c : Dev nD) (w : Fin cfg3.W) : (dat3 (Y6 m ρ) c).arrAt w cfg3.N = Z7 m ρ c (Pipeline.arrRef spec3 w) :=
  (X7_arr m ρ c w).symm
theorem hrest3 (c : Dev nD) : ∀ b, b ∉ Finset.univ.image (Pipeline.arrRef spec3) → Z7 m ρ c b = Y6 m ρ c b :=
  fun b hb => X7_of_ne m ρ c b fun w e => hb (Finset.mem_image.mpr ⟨w, Finset.mem_univ _, e⟩)
abbrev Y7 : (c : Dev nD) → (b : Ref sig .tc) → Buf (Elt F) ((c : Thread nD τ).loc b) := fun c b => X7 m ρ c b
def X8 (c : Dev nD) : Valuation τ sig (Elt F) :=
  Pipeline.withArrays spec4 c (X7 m ρ c) fun w => (dat4 (Y7 m ρ) c).arrAt w cfg4.N
theorem X8_arr (c : Dev nD) (w : Fin cfg4.W) :
    X8 m ρ c (Proc.devRef .tc (Pipeline.arrRef spec4 w)) = (dat4 (Y7 m ρ) c).arrAt w cfg4.N := by
  unfold X8; exact Pipeline.withArrays_arr spec4 launch4.win.arr_inj c _ _ w
theorem X8_of_ne (c : Dev nD) (b : Ref sig .tc) (hb : ∀ w, Pipeline.arrRef spec4 w ≠ b) :
    X8 m ρ c (Proc.devRef .tc b) = X7 m ρ c (Proc.devRef .tc b) := by
  unfold X8; exact Pipeline.withArrays_of_ne spec4 c _ _ b hb
abbrev Z8 : (c : Dev nD) → (b : Ref sig .tc) → Buf (Elt F) ((c : Thread nD τ).loc b) := fun c b => X8 m ρ c b
theorem hF4 (c : Dev nD) (w : Fin cfg4.W) : (dat4 (Y7 m ρ) c).arrAt w cfg4.N = Z8 m ρ c (Pipeline.arrRef spec4 w) :=
  (X8_arr m ρ c w).symm
theorem hrest4 (c : Dev nD) : ∀ b, b ∉ Finset.univ.image (Pipeline.arrRef spec4) → Z8 m ρ c b = Y7 m ρ c b :=
  fun b hb => X8_of_ne m ρ c b fun w e => hb (Finset.mem_image.mpr ⟨w, Finset.mem_univ _, e⟩)
abbrev X9 : Dev nD → Valuation τ sig (Elt F) := fun c => StableHlo.after hostOps5 (X8 m ρ c)
abbrev Y9 : (c : Dev nD) → (b : Ref sig .tc) → Buf (Elt F) ((c : Thread nD τ).loc b) := fun c b => X9 m ρ c b
def X10 (c : Dev nD) : Valuation τ sig (Elt F) :=
  Pipeline.withArrays spec5 c (X9 m ρ c) fun w => (dat5 (Y9 m ρ) c).arrAt w cfg5.N
theorem X10_arr (c : Dev nD) (w : Fin cfg5.W) :
    X10 m ρ c (Proc.devRef .tc (Pipeline.arrRef spec5 w)) = (dat5 (Y9 m ρ) c).arrAt w cfg5.N := by
  unfold X10; exact Pipeline.withArrays_arr spec5 launch5.win.arr_inj c _ _ w
theorem X10_of_ne (c : Dev nD) (b : Ref sig .tc) (hb : ∀ w, Pipeline.arrRef spec5 w ≠ b) :
    X10 m ρ c (Proc.devRef .tc b) = X9 m ρ c (Proc.devRef .tc b) := by
  unfold X10; exact Pipeline.withArrays_of_ne spec5 c _ _ b hb
abbrev Z10 : (c : Dev nD) → (b : Ref sig .tc) → Buf (Elt F) ((c : Thread nD τ).loc b) := fun c b => X10 m ρ c b
theorem hF5 (c : Dev nD) (w : Fin cfg5.W) : (dat5 (Y9 m ρ) c).arrAt w cfg5.N = Z10 m ρ c (Pipeline.arrRef spec5 w) :=
  (X10_arr m ρ c w).symm
theorem hrest5 (c : Dev nD) : ∀ b, b ∉ Finset.univ.image (Pipeline.arrRef spec5) → Z10 m ρ c b = Y9 m ρ c b :=
  fun b hb => X10_of_ne m ρ c b fun w e => hb (Finset.mem_image.mpr ⟨w, Finset.mem_univ _, e⟩)
abbrev Y10 : (c : Dev nD) → (b : Ref sig .tc) → Buf (Elt F) ((c : Thread nD τ).loc b) := fun c b => X10 m ρ c b
def X11 (c : Dev nD) : Valuation τ sig (Elt F) :=
  Pipeline.withArrays spec6 c (X10 m ρ c) fun w => (dat6 (Y10 m ρ) c).arrAt w cfg6.N
theorem X11_arr (c : Dev nD) (w : Fin cfg6.W) :
    X11 m ρ c (Proc.devRef .tc (Pipeline.arrRef spec6 w)) = (dat6 (Y10 m ρ) c).arrAt w cfg6.N := by
  unfold X11; exact Pipeline.withArrays_arr spec6 launch6.win.arr_inj c _ _ w
theorem X11_of_ne (c : Dev nD) (b : Ref sig .tc) (hb : ∀ w, Pipeline.arrRef spec6 w ≠ b) :
    X11 m ρ c (Proc.devRef .tc b) = X10 m ρ c (Proc.devRef .tc b) := by
  unfold X11; exact Pipeline.withArrays_of_ne spec6 c _ _ b hb
abbrev Z11 : (c : Dev nD) → (b : Ref sig .tc) → Buf (Elt F) ((c : Thread nD τ).loc b) := fun c b => X11 m ρ c b
theorem hF6 (c : Dev nD) (w : Fin cfg6.W) : (dat6 (Y10 m ρ) c).arrAt w cfg6.N = Z11 m ρ c (Pipeline.arrRef spec6 w) :=
  (X11_arr m ρ c w).symm
theorem hrest6 (c : Dev nD) : ∀ b, b ∉ Finset.univ.image (Pipeline.arrRef spec6) → Z11 m ρ c b = Y10 m ρ c b :=
  fun b hb => X11_of_ne m ρ c b fun w e => hb (Finset.mem_image.mpr ⟨w, Finset.mem_univ _, e⟩)
abbrev X12 : Dev nD → Valuation τ sig (Elt F) := fun c => StableHlo.after hostOps7 (X11 m ρ c)

/-! ## The arguments end as launched: no host operation writes one, and a region only reads it -/
theorem X12_main_arg0 (c : Dev nD) : X12 m ρ c (Proc.devRef .tc main_arg0) = m ((c : Thread nD τ).loc main_arg0) :=
  calc X12 m ρ c (Proc.devRef .tc main_arg0)
    _ = X11 m ρ c (Proc.devRef .tc main_arg0) := StableHlo.after_of_writes_sub hostOps7 _ hostOps7_writes (by decide)
    _ = X10 m ρ c (Proc.devRef .tc main_arg0) := X11_of_ne m ρ c main_arg0 (by decide)
    _ = X9 m ρ c (Proc.devRef .tc main_arg0) := X10_of_ne m ρ c main_arg0 (by decide)
    _ = X8 m ρ c (Proc.devRef .tc main_arg0) := StableHlo.after_of_writes_sub hostOps5 _ hostOps5_writes (by decide)
    _ = X7 m ρ c (Proc.devRef .tc main_arg0) := X8_of_ne m ρ c main_arg0 (by decide)
    _ = X6 m ρ c (Proc.devRef .tc main_arg0) := X7_of_ne m ρ c main_arg0 (by decide)
    _ = X5 m ρ c (Proc.devRef .tc main_arg0) := StableHlo.after_of_writes_sub hostOps3 _ hostOps3_writes (by decide)
    _ = X4 m ρ c (Proc.devRef .tc main_arg0) := X5_of_ne m ρ c main_arg0 (by decide)
    _ = X3 m ρ c (Proc.devRef .tc main_arg0) := X4_of_ne m ρ c main_arg0 (by decide)
    _ = X2 m ρ c (Proc.devRef .tc main_arg0) := StableHlo.after_of_writes_sub hostOps1 _ hostOps1_writes (by decide)
    _ = X1 m ρ c (Proc.devRef .tc main_arg0) := X2_of_ne m ρ c main_arg0 (by decide)
    _ = X0 m ρ c (Proc.devRef .tc main_arg0) := StableHlo.after_of_writes_sub hostOps0 _ hostOps0_writes (by decide)
    _ = m ((c : Thread nD τ).loc main_arg0) := rfl
theorem X12_main_arg1 (c : Dev nD) : X12 m ρ c (Proc.devRef .tc main_arg1) = m ((c : Thread nD τ).loc main_arg1) :=
  calc X12 m ρ c (Proc.devRef .tc main_arg1)
    _ = X11 m ρ c (Proc.devRef .tc main_arg1) := StableHlo.after_of_writes_sub hostOps7 _ hostOps7_writes (by decide)
    _ = X10 m ρ c (Proc.devRef .tc main_arg1) := X11_of_ne m ρ c main_arg1 (by decide)
    _ = X9 m ρ c (Proc.devRef .tc main_arg1) := X10_of_ne m ρ c main_arg1 (by decide)
    _ = X8 m ρ c (Proc.devRef .tc main_arg1) := StableHlo.after_of_writes_sub hostOps5 _ hostOps5_writes (by decide)
    _ = X7 m ρ c (Proc.devRef .tc main_arg1) := X8_of_ne m ρ c main_arg1 (by decide)
    _ = X6 m ρ c (Proc.devRef .tc main_arg1) := X7_of_ne m ρ c main_arg1 (by decide)
    _ = X5 m ρ c (Proc.devRef .tc main_arg1) := StableHlo.after_of_writes_sub hostOps3 _ hostOps3_writes (by decide)
    _ = X4 m ρ c (Proc.devRef .tc main_arg1) := X5_of_ne m ρ c main_arg1 (by decide)
    _ = X3 m ρ c (Proc.devRef .tc main_arg1) := X4_of_ne m ρ c main_arg1 (by decide)
    _ = X2 m ρ c (Proc.devRef .tc main_arg1) := StableHlo.after_of_writes_sub hostOps1 _ hostOps1_writes (by decide)
    _ = X1 m ρ c (Proc.devRef .tc main_arg1) := (X2_arr m ρ c 0).trans (((dat0 (Y1 m ρ) c).arrAt_in 0 rfl _).trans (A_eq0 (Y1 m ρ) c 0))
    _ = X0 m ρ c (Proc.devRef .tc main_arg1) := StableHlo.after_of_writes_sub hostOps0 _ hostOps0_writes (by decide)
    _ = m ((c : Thread nD τ).loc main_arg1) := rfl
theorem X12_main_arg2 (c : Dev nD) : X12 m ρ c (Proc.devRef .tc main_arg2) = m ((c : Thread nD τ).loc main_arg2) :=
  calc X12 m ρ c (Proc.devRef .tc main_arg2)
    _ = X11 m ρ c (Proc.devRef .tc main_arg2) := StableHlo.after_of_writes_sub hostOps7 _ hostOps7_writes (by decide)
    _ = X10 m ρ c (Proc.devRef .tc main_arg2) := X11_of_ne m ρ c main_arg2 (by decide)
    _ = X9 m ρ c (Proc.devRef .tc main_arg2) := X10_of_ne m ρ c main_arg2 (by decide)
    _ = X8 m ρ c (Proc.devRef .tc main_arg2) := StableHlo.after_of_writes_sub hostOps5 _ hostOps5_writes (by decide)
    _ = X7 m ρ c (Proc.devRef .tc main_arg2) := X8_of_ne m ρ c main_arg2 (by decide)
    _ = X6 m ρ c (Proc.devRef .tc main_arg2) := X7_of_ne m ρ c main_arg2 (by decide)
    _ = X5 m ρ c (Proc.devRef .tc main_arg2) := StableHlo.after_of_writes_sub hostOps3 _ hostOps3_writes (by decide)
    _ = X4 m ρ c (Proc.devRef .tc main_arg2) := X5_of_ne m ρ c main_arg2 (by decide)
    _ = X3 m ρ c (Proc.devRef .tc main_arg2) := X4_of_ne m ρ c main_arg2 (by decide)
    _ = X2 m ρ c (Proc.devRef .tc main_arg2) := StableHlo.after_of_writes_sub hostOps1 _ hostOps1_writes (by decide)
    _ = X1 m ρ c (Proc.devRef .tc main_arg2) := (X2_arr m ρ c 1).trans (((dat0 (Y1 m ρ) c).arrAt_in 1 rfl _).trans (A_eq0 (Y1 m ρ) c 1))
    _ = X0 m ρ c (Proc.devRef .tc main_arg2) := StableHlo.after_of_writes_sub hostOps0 _ hostOps0_writes (by decide)
    _ = m ((c : Thread nD τ).loc main_arg2) := rfl
theorem X12_main_arg3 (c : Dev nD) : X12 m ρ c (Proc.devRef .tc main_arg3) = m ((c : Thread nD τ).loc main_arg3) :=
  calc X12 m ρ c (Proc.devRef .tc main_arg3)
    _ = X11 m ρ c (Proc.devRef .tc main_arg3) := StableHlo.after_of_writes_sub hostOps7 _ hostOps7_writes (by decide)
    _ = X10 m ρ c (Proc.devRef .tc main_arg3) := X11_of_ne m ρ c main_arg3 (by decide)
    _ = X9 m ρ c (Proc.devRef .tc main_arg3) := X10_of_ne m ρ c main_arg3 (by decide)
    _ = X8 m ρ c (Proc.devRef .tc main_arg3) := StableHlo.after_of_writes_sub hostOps5 _ hostOps5_writes (by decide)
    _ = X7 m ρ c (Proc.devRef .tc main_arg3) := X8_of_ne m ρ c main_arg3 (by decide)
    _ = X6 m ρ c (Proc.devRef .tc main_arg3) := X7_of_ne m ρ c main_arg3 (by decide)
    _ = X5 m ρ c (Proc.devRef .tc main_arg3) := StableHlo.after_of_writes_sub hostOps3 _ hostOps3_writes (by decide)
    _ = X4 m ρ c (Proc.devRef .tc main_arg3) := X5_of_ne m ρ c main_arg3 (by decide)
    _ = X3 m ρ c (Proc.devRef .tc main_arg3) := X4_of_ne m ρ c main_arg3 (by decide)
    _ = X2 m ρ c (Proc.devRef .tc main_arg3) := StableHlo.after_of_writes_sub hostOps1 _ hostOps1_writes (by decide)
    _ = X1 m ρ c (Proc.devRef .tc main_arg3) := X2_of_ne m ρ c main_arg3 (by decide)
    _ = X0 m ρ c (Proc.devRef .tc main_arg3) := StableHlo.after_of_writes_sub hostOps0 _ hostOps0_writes (by decide)
    _ = m ((c : Thread nD τ).loc main_arg3) := rfl
theorem X12_main_arg4 (c : Dev nD) : X12 m ρ c (Proc.devRef .tc main_arg4) = m ((c : Thread nD τ).loc main_arg4) :=
  calc X12 m ρ c (Proc.devRef .tc main_arg4)
    _ = X11 m ρ c (Proc.devRef .tc main_arg4) := StableHlo.after_of_writes_sub hostOps7 _ hostOps7_writes (by decide)
    _ = X10 m ρ c (Proc.devRef .tc main_arg4) := X11_of_ne m ρ c main_arg4 (by decide)
    _ = X9 m ρ c (Proc.devRef .tc main_arg4) := X10_of_ne m ρ c main_arg4 (by decide)
    _ = X8 m ρ c (Proc.devRef .tc main_arg4) := StableHlo.after_of_writes_sub hostOps5 _ hostOps5_writes (by decide)
    _ = X7 m ρ c (Proc.devRef .tc main_arg4) := X8_of_ne m ρ c main_arg4 (by decide)
    _ = X6 m ρ c (Proc.devRef .tc main_arg4) := X7_of_ne m ρ c main_arg4 (by decide)
    _ = X5 m ρ c (Proc.devRef .tc main_arg4) := StableHlo.after_of_writes_sub hostOps3 _ hostOps3_writes (by decide)
    _ = X4 m ρ c (Proc.devRef .tc main_arg4) := X5_of_ne m ρ c main_arg4 (by decide)
    _ = X3 m ρ c (Proc.devRef .tc main_arg4) := X4_of_ne m ρ c main_arg4 (by decide)
    _ = X2 m ρ c (Proc.devRef .tc main_arg4) := StableHlo.after_of_writes_sub hostOps1 _ hostOps1_writes (by decide)
    _ = X1 m ρ c (Proc.devRef .tc main_arg4) := X2_of_ne m ρ c main_arg4 (by decide)
    _ = X0 m ρ c (Proc.devRef .tc main_arg4) := StableHlo.after_of_writes_sub hostOps0 _ hostOps0_writes (by decide)
    _ = m ((c : Thread nD τ).loc main_arg4) := rfl
theorem X12_main_arg5 (c : Dev nD) : X12 m ρ c (Proc.devRef .tc main_arg5) = m ((c : Thread nD τ).loc main_arg5) :=
  calc X12 m ρ c (Proc.devRef .tc main_arg5)
    _ = X11 m ρ c (Proc.devRef .tc main_arg5) := StableHlo.after_of_writes_sub hostOps7 _ hostOps7_writes (by decide)
    _ = X10 m ρ c (Proc.devRef .tc main_arg5) := X11_of_ne m ρ c main_arg5 (by decide)
    _ = X9 m ρ c (Proc.devRef .tc main_arg5) := X10_of_ne m ρ c main_arg5 (by decide)
    _ = X8 m ρ c (Proc.devRef .tc main_arg5) := StableHlo.after_of_writes_sub hostOps5 _ hostOps5_writes (by decide)
    _ = X7 m ρ c (Proc.devRef .tc main_arg5) := X8_of_ne m ρ c main_arg5 (by decide)
    _ = X6 m ρ c (Proc.devRef .tc main_arg5) := X7_of_ne m ρ c main_arg5 (by decide)
    _ = X5 m ρ c (Proc.devRef .tc main_arg5) := StableHlo.after_of_writes_sub hostOps3 _ hostOps3_writes (by decide)
    _ = X4 m ρ c (Proc.devRef .tc main_arg5) := X5_of_ne m ρ c main_arg5 (by decide)
    _ = X3 m ρ c (Proc.devRef .tc main_arg5) := X4_of_ne m ρ c main_arg5 (by decide)
    _ = X2 m ρ c (Proc.devRef .tc main_arg5) := StableHlo.after_of_writes_sub hostOps1 _ hostOps1_writes (by decide)
    _ = X1 m ρ c (Proc.devRef .tc main_arg5) := X2_of_ne m ρ c main_arg5 (by decide)
    _ = X0 m ρ c (Proc.devRef .tc main_arg5) := StableHlo.after_of_writes_sub hostOps0 _ hostOps0_writes (by decide)
    _ = m ((c : Thread nD τ).loc main_arg5) := rfl

/-! ## The proof data family and the thread state -/

abbrev admR : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) admR p) c
  | ⟨0, _⟩ => fun c => dat0 (Y1 m ρ) c
  | ⟨1, _⟩ => fun c => dat1 (Y3 m ρ) c
  | ⟨2, _⟩ => fun c => dat2 (Y4 m ρ) c
  | ⟨3, _⟩ => fun c => dat3 (Y6 m ρ) c
  | ⟨4, _⟩ => fun c => dat4 (Y7 m ρ) c
  | ⟨5, _⟩ => fun c => dat5 (Y9 m ρ) c
  | ⟨6, _⟩ => fun c => dat6 (Y10 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state's last part still says nothing is owed. -/
theorem R_owes (c : Dev nD) : (R c : sProp 𝕄) ⊢ iprop(∃ W, owes (c : Thread nD τ) (0 : CellTallies nD τ sig Unit) W) := by
  iintro ⟨-, HO⟩; iexact HO

/-! ## The regions as segments -/

set_option backward.isDefEq.respectTransparency.types false in
/-- Region 0: entered from every unscoped buffer at the contents before it, left with its arrays at what its write-backs
    leave and every other buffer unchanged. -/
def reg0 : Pipeline.RegionSeg (pcfgs (F := F)) admR (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y1 m ρ) c).loose
  hwaits := Pipeline.hwaits_of_owed_zero _ _ _ _ L lv 0 fun _ _ => rfl
  pre c := iprop(StableHlo.held (c : Thread nD τ) (Pipeline.ucRefs τ sig) (X1 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := UR sig nD τ) (Lvl := ℕ) spec0 c (Y1 m ρ c)
  hentry c := by
    rw [Pipeline.ownSems0_none]
    have hsplit := Pipeline.arrays_of_unscopedBufs (p := 0) (pcfgs (F := F)) admR (pdats m ρ) launch0.win launch0.arr_whole c
      ((pdats m ρ 0 c).share_full fun _ => rfl) (Y1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Y1 m ρ) c); unfold Pipeline.ΦA
    iintro ⟨Hp, -, Hr⟩
    isplitl [Hr]; · iexact Hr
    iexact Hp
  hout c := by
    rw [Pipeline.ownSems0_none]
    refine (hout0 (Y1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdats m ρ) ((pdats m ρ 0 c).share_full fun _ => rfl)
      (Y1 m ρ c) (Z2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left with its arrays at what its write-backs
    leave and every other buffer unchanged. -/
def reg1 : Pipeline.RegionSeg (pcfgs (F := F)) admR (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Y3 m ρ) c).loose
  hwaits := Pipeline.hwaits_of_owed_zero _ _ _ _ L lv 1 fun _ _ => rfl
  pre c := iprop(StableHlo.held (c : Thread nD τ) (Pipeline.ucRefs τ sig) (X3 m ρ c) ∗ R c)
  post c := iprop(StableHlo.held (c : Thread nD τ) (Pipeline.ucRefs τ sig) (X4 m ρ c) ∗ R c)
  X c := iprop(∃ r, prngReg c r)
  Y c := iprop(∃ r, prngReg c r)
  Z c := Pipeline.unscopedRest (Ix := Unit) (Name := ℕ) (U := UR sig nD τ) (Lvl := ℕ) spec1 c (Y3 m ρ c)
  hentry c := by
    rw [Pipeline.ownSems0_none]
    have hsplit := Pipeline.arrays_of_unscopedBufs (p := 1) (pcfgs (F := F)) admR (pdats m ρ) launch1.win launch1.arr_whole c
      ((pdats m ρ 1 c).share_full fun _ => rfl) (Y3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdats m ρ) ((pdats m ρ 1 c).share_full fun _ => rfl)
      (Y3 m ρ c) (Z4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left with its arrays at what its write-backs
    leave and every other buffer unchanged. -/
def reg2 : Pipeline.RegionSeg (pcfgs (F := F)) admR (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y4 m ρ) c).loose
  hwaits := Pipeline.hwaits_of_owed_zero _ _ _ _ L lv 2 fun _ _ => rfl
  pre c := iprop(StableHlo.held (c : Thread nD τ) (Pipeline.ucRefs τ sig) (X4 m ρ c) ∗ R c)
  post c := iprop(StableHlo.held (c : Thread nD τ) (Pipeline.ucRefs τ sig) (X5 m ρ c) ∗ R c)
  X c := iprop(∃ r, prngReg c r)
  Y c := iprop(∃ r, prngReg c r)
  Z c := Pipeline.unscopedRest (Ix := Unit) (Name := ℕ) (U := UR sig nD τ) (Lvl := ℕ) spec2 c (Y4 m ρ c)
  hentry c := by
    rw [Pipeline.ownSems0_none]
    have hsplit := Pipeline.arrays_of_unscopedBufs (p := 2) (pcfgs (F := F)) admR (pdats m ρ) launch2.win launch2.arr_whole c
      ((pdats m ρ 2 c).share_full fun _ => rfl) (Y4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (Y4 m ρ) c); unfold Pipeline.ΦA
    iintro ⟨Hp, -, Hr⟩
    isplitl [Hr]; · iexact Hr
    iexact Hp
  hout c := by
    rw [Pipeline.ownSems0_none]
    refine (hout2 (Y4 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdats m ρ) ((pdats m ρ 2 c).share_full fun _ => rfl)
      (Y4 m ρ c) (Z5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left with its arrays at what its write-backs
    leave and every other buffer unchanged. -/
def reg3 : Pipeline.RegionSeg (pcfgs (F := F)) admR (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Y6 m ρ) c).loose
  hwaits := Pipeline.hwaits_of_owed_zero _ _ _ _ L lv 3 fun _ _ => rfl
  pre c := iprop(StableHlo.held (c : Thread nD τ) (Pipeline.ucRefs τ sig) (X6 m ρ c) ∗ R c)
  post c := iprop(StableHlo.held (c : Thread nD τ) (Pipeline.ucRefs τ sig) (X7 m ρ c) ∗ R c)
  X c := iprop(∃ r, prngReg c r)
  Y c := iprop(∃ r, prngReg c r)
  Z c := Pipeline.unscopedRest (Ix := Unit) (Name := ℕ) (U := UR sig nD τ) (Lvl := ℕ) spec3 c (Y6 m ρ c)
  hentry c := by
    rw [Pipeline.ownSems0_none]
    have hsplit := Pipeline.arrays_of_unscopedBufs (p := 3) (pcfgs (F := F)) admR (pdats m ρ) launch3.win launch3.arr_whole c
      ((pdats m ρ 3 c).share_full fun _ => rfl) (Y6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admR (Ix := Unit) (Name := ℕ) (U := UR sig nD τ) (Lvl := ℕ)
      launch3.win launch3.arr_whole c (pdats m ρ) ((pdats m ρ 3 c).share_full fun _ => rfl)
      (Y6 m ρ c) (Z7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left with its arrays at what its write-backs
    leave and every other buffer unchanged. -/
def reg4 : Pipeline.RegionSeg (pcfgs (F := F)) admR (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Y7 m ρ) c).loose
  hwaits := Pipeline.hwaits_of_owed_zero _ _ _ _ L lv 4 fun _ _ => rfl
  pre c := iprop(StableHlo.held (c : Thread nD τ) (Pipeline.ucRefs τ sig) (X7 m ρ c) ∗ R c)
  post c := iprop(StableHlo.held (c : Thread nD τ) (Pipeline.ucRefs τ sig) (X8 m ρ c) ∗ R c)
  X c := iprop(∃ r, prngReg c r)
  Y c := iprop(∃ r, prngReg c r)
  Z c := Pipeline.unscopedRest (Ix := Unit) (Name := ℕ) (U := UR sig nD τ) (Lvl := ℕ) spec4 c (Y7 m ρ c)
  hentry c := by
    rw [Pipeline.ownSems0_none]
    have hsplit := Pipeline.arrays_of_unscopedBufs (p := 4) (pcfgs (F := F)) admR (pdats m ρ) launch4.win launch4.arr_whole c
      ((pdats m ρ 4 c).share_full fun _ => rfl) (Y7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (Y7 m ρ) c); unfold Pipeline.ΦA
    iintro ⟨Hp, -, Hr⟩
    isplitl [Hr]; · iexact Hr
    iexact Hp
  hout c := by
    rw [Pipeline.ownSems0_none]
    refine (hout4 (Y7 m ρ) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admR (Ix := Unit) (Name := ℕ) (U := UR sig nD τ) (Lvl := ℕ)
      launch4.win launch4.arr_whole c (pdats m ρ) ((pdats m ρ 4 c).share_full fun _ => rfl)
      (Y7 m ρ c) (Z8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents before it, left with its arrays at what its write-backs
    leave and every other buffer unchanged. -/
def reg5 : Pipeline.RegionSeg (pcfgs (F := F)) admR (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Y9 m ρ) c).loose
  hwaits := Pipeline.hwaits_of_owed_zero _ _ _ _ L lv 5 fun _ _ => rfl
  pre c := iprop(StableHlo.held (c : Thread nD τ) (Pipeline.ucRefs τ sig) (X9 m ρ c) ∗ R c)
  post c := iprop(StableHlo.held (c : Thread nD τ) (Pipeline.ucRefs τ sig) (X10 m ρ c) ∗ R c)
  X c := iprop(∃ r, prngReg c r)
  Y c := iprop(∃ r, prngReg c r)
  Z c := Pipeline.unscopedRest (Ix := Unit) (Name := ℕ) (U := UR sig nD τ) (Lvl := ℕ) spec5 c (Y9 m ρ c)
  hentry c := by
    rw [Pipeline.ownSems0_none]
    have hsplit := Pipeline.arrays_of_unscopedBufs (p := 5) (pcfgs (F := F)) admR (pdats m ρ) launch5.win launch5.arr_whole c
      ((pdats m ρ 5 c).share_full fun _ => rfl) (Y9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admR (Ix := Unit) (Name := ℕ) (U := UR sig nD τ) (Lvl := ℕ)
      launch5.win launch5.arr_whole c (pdats m ρ) ((pdats m ρ 5 c).share_full fun _ => rfl)
      (Y9 m ρ c) (Z10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents before it, left with its arrays at what its write-backs
    leave and every other buffer unchanged. -/
def reg6 : Pipeline.RegionSeg (pcfgs (F := F)) admR (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Y10 m ρ) c).loose
  hwaits := Pipeline.hwaits_of_owed_zero _ _ _ _ L lv 6 fun _ _ => rfl
  pre c := iprop(StableHlo.held (c : Thread nD τ) (Pipeline.ucRefs τ sig) (X10 m ρ c) ∗ R c)
  post c := iprop(StableHlo.held (c : Thread nD τ) (Pipeline.ucRefs τ sig) (X11 m ρ c) ∗ R c)
  X c := iprop(∃ r, prngReg c r)
  Y c := iprop(∃ r, prngReg c r)
  Z c := Pipeline.unscopedRest (Ix := Unit) (Name := ℕ) (U := UR sig nD τ) (Lvl := ℕ) spec6 c (Y10 m ρ c)
  hentry c := by
    rw [Pipeline.ownSems0_none]
    have hsplit := Pipeline.arrays_of_unscopedBufs (p := 6) (pcfgs (F := F)) admR (pdats m ρ) launch6.win launch6.arr_whole c
      ((pdats m ρ 6 c).share_full fun _ => rfl) (Y10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (Y10 m ρ) c); unfold Pipeline.ΦA
    iintro ⟨Hp, -, Hr⟩
    isplitl [Hr]; · iexact Hr
    iexact Hp
  hout c := by
    rw [Pipeline.ownSems0_none]
    refine (hout6 (Y10 m ρ) c).trans ?_; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admR (Ix := Unit) (Name := ℕ) (U := UR sig nD τ) (Lvl := ℕ)
      launch6.win launch6.arr_whole c (pdats m ρ) ((pdats m ρ 6 c).share_full fun _ => rfl)
      (Y10 m ρ c) (Z11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsR : List (Pipeline.Seg (pcfgs (F := F)) admR (pdats m ρ) () defs₀ 𝒱₀ L lv) :=
  [ .host (hseg hostOps0 hostOps0_sub hostOps0_fresh (X0 m ρ)),
    .region (reg0 m ρ),
    .host (hseg hostOps1 hostOps1_sub hostOps1_fresh (X2 m ρ)),
    .region (reg1 m ρ),
    .region (reg2 m ρ),
    .host (hseg hostOps3 hostOps3_sub hostOps3_fresh (X5 m ρ)),
    .region (reg3 m ρ),
    .region (reg4 m ρ),
    .host (hseg hostOps5 hostOps5_sub hostOps5_fresh (X8 m ρ)),
    .region (reg5 m ρ),
    .region (reg6 m ρ),
    .host (hseg hostOps7 hostOps7_sub hostOps7_fresh (X11 m ρ)) ]
theorem main_run (c : Dev nD) : main (F := F) c = Pipeline.Seg.run (segsR m ρ) := (main_chain c).trans (by chain_rfl)

set_option backward.isDefEq.respectTransparency.types false in
/-- THE RUN: from any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X12 m ρ c b) :=
  Pipeline.θ_run_regions_kit (pcfgs (F := F)) admR (pdats m ρ) () cellOf_inj emb₁ defs₀ 𝒱₀ L lv m ρ main (segsR m ρ)
    (fun c Q => by rw [main_run m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m ρ c) ∗ R c)) (Tₙ := fun c => StableHlo.held (c : Thread nD τ) (Pipeline.ucRefs τ sig) (X12 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (X0 m ρ c)
        from Pipeline.unscopedBufs_held c (X0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X12 m ρ c b)
    (hfin := fun c s' => by
      unfold StableHlo.held
      iintro ⟨Hh, HSI⟩
      imodintro
      iapply (pointsTo_read_all (Pipeline.ucRefs τ sig) (fun b => (((c : Thread nD τ)).1, b)) (X12 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (X12_main_arg0 m ρ c),
    (h c _ (mem_uc main_arg1 (by decide))).trans (X12_main_arg1 m ρ c),
    (h c _ (mem_uc main_arg2 (by decide))).trans (X12_main_arg2 m ρ c),
    (h c _ (mem_uc main_arg3 (by decide))).trans (X12_main_arg3 m ρ c),
    (h c _ (mem_uc main_arg4 (by decide))).trans (X12_main_arg4 m ρ c),
    (h c _ (mem_uc main_arg5 (by decide))).trans (X12_main_arg5 m ρ c)⟩) (run_all m ρ)

end Cert.KernelIdeal.Gen

end
-- ==== Proof.ChainI.lean ====
import proofs.«136557_j13331578487504_1_alg».proof.Proof.Gen.KernelIdeal.Launch
import proofs.«136557_j13331578487504_1_alg».proof.Proof.Gen.KernelIdeal.Skeleton
import proofs.«136557_j13331578487504_1_alg».proof.Proof.Gen.KernelIdeal.Points
import proofs.«136557_j13331578487504_1_alg».proof.Proof.RunI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What each buffer holds where it is read: no stage between its writing and its reading changes it -/

theorem X1_main_arg1_from0 (c : Dev nD) : X1 m ρ c (Proc.devRef .tc main_arg1) = X0 m ρ c (Proc.devRef .tc main_arg1) :=
  calc X1 m ρ c (Proc.devRef .tc main_arg1)
    _ = X0 m ρ c (Proc.devRef .tc main_arg1) := StableHlo.after_of_writes_sub hostOps0 _ hostOps0_writes (by decide)

theorem X1_main_arg2_from0 (c : Dev nD) : X1 m ρ c (Proc.devRef .tc main_arg2) = X0 m ρ c (Proc.devRef .tc main_arg2) :=
  calc X1 m ρ c (Proc.devRef .tc main_arg2)
    _ = X0 m ρ c (Proc.devRef .tc main_arg2) := StableHlo.after_of_writes_sub hostOps0 _ hostOps0_writes (by decide)

theorem X2_main_arg5_from0 (c : Dev nD) : X2 m ρ c (Proc.devRef .tc main_arg5) = X0 m ρ c (Proc.devRef .tc main_arg5) :=
  calc X2 m ρ c (Proc.devRef .tc main_arg5)
    _ = X1 m ρ c (Proc.devRef .tc main_arg5) := X2_of_ne m ρ c main_arg5 (by decide)
    _ = X0 m ρ c (Proc.devRef .tc main_arg5) := StableHlo.after_of_writes_sub hostOps0 _ hostOps0_writes (by decide)

theorem X5_main_arg5_from0 (c : Dev nD) : X5 m ρ c (Proc.devRef .tc main_arg5) = X0 m ρ c (Proc.devRef .tc main_arg5) :=
  calc X5 m ρ c (Proc.devRef .tc main_arg5)
    _ = X4 m ρ c (Proc.devRef .tc main_arg5) := X5_of_ne m ρ c main_arg5 (by decide)
    _ = X3 m ρ c (Proc.devRef .tc main_arg5) := X4_of_ne m ρ c main_arg5 (by decide)
    _ = X2 m ρ c (Proc.devRef .tc main_arg5) := StableHlo.after_of_writes_sub hostOps1 _ hostOps1_writes (by decide)
    _ = X1 m ρ c (Proc.devRef .tc main_arg5) := X2_of_ne m ρ c main_arg5 (by decide)
    _ = X0 m ρ c (Proc.devRef .tc main_arg5) := StableHlo.after_of_writes_sub hostOps0 _ hostOps0_writes (by decide)

theorem X8_main_arg5_from0 (c : Dev nD) : X8 m ρ c (Proc.devRef .tc main_arg5) = X0 m ρ c (Proc.devRef .tc main_arg5) :=
  calc X8 m ρ c (Proc.devRef .tc main_arg5)
    _ = X7 m ρ c (Proc.devRef .tc main_arg5) := X8_of_ne m ρ c main_arg5 (by decide)
    _ = X6 m ρ c (Proc.devRef .tc main_arg5) := X7_of_ne m ρ c main_arg5 (by decide)
    _ = X5 m ρ c (Proc.devRef .tc main_arg5) := StableHlo.after_of_writes_sub hostOps3 _ hostOps3_writes (by decide)
    _ = X4 m ρ c (Proc.devRef .tc main_arg5) := X5_of_ne m ρ c main_arg5 (by decide)
    _ = X3 m ρ c (Proc.devRef .tc main_arg5) := X4_of_ne m ρ c main_arg5 (by decide)
    _ = X2 m ρ c (Proc.devRef .tc main_arg5) := StableHlo.after_of_writes_sub hostOps1 _ hostOps1_writes (by decide)
    _ = X1 m ρ c (Proc.devRef .tc main_arg5) := X2_of_ne m ρ c main_arg5 (by decide)
    _ = X0 m ρ c (Proc.devRef .tc main_arg5) := StableHlo.after_of_writes_sub hostOps0 _ hostOps0_writes (by decide)

theorem X3_main_v11_from1 (c : Dev nD) : X3 m ρ c (Proc.devRef .tc main_v11) = X1 m ρ c (Proc.devRef .tc main_v11) :=
  calc X3 m ρ c (Proc.devRef .tc main_v11)
    _ = X2 m ρ c (Proc.devRef .tc main_v11) := StableHlo.after_of_writes_sub hostOps1 _ hostOps1_writes (by decide)
    _ = X1 m ρ c (Proc.devRef .tc main_v11) := X2_of_ne m ρ c main_v11 (by decide)

theorem X4_main_v11_from1 (c : Dev nD) : X4 m ρ c (Proc.devRef .tc main_v11) = X1 m ρ c (Proc.devRef .tc main_v11) :=
  calc X4 m ρ c (Proc.devRef .tc main_v11)
    _ = X3 m ρ c (Proc.devRef .tc main_v11) := (X4_arr m ρ c 0).trans (((dat1 (Y3 m ρ) c).arrAt_in 0 rfl _).trans (A_eq1 (Y3 m ρ) c 0))
    _ = X2 m ρ c (Proc.devRef .tc main_v11) := StableHlo.after_of_writes_sub hostOps1 _ hostOps1_writes (by decide)
    _ = X1 m ρ c (Proc.devRef .tc main_v11) := X2_of_ne m ρ c main_v11 (by decide)

theorem X4_main_v12_from2 (c : Dev nD) : X4 m ρ c (Proc.devRef .tc main_v12) = X2 m ρ c (Proc.devRef .tc main_v12) :=
  calc X4 m ρ c (Proc.devRef .tc main_v12)
    _ = X3 m ρ c (Proc.devRef .tc main_v12) := X4_of_ne m ρ c main_v12 (by decide)
    _ = X2 m ρ c (Proc.devRef .tc main_v12) := StableHlo.after_of_writes_sub hostOps1 _ hostOps1_writes (by decide)

theorem X7_main_v12_from2 (c : Dev nD) : X7 m ρ c (Proc.devRef .tc main_v12) = X2 m ρ c (Proc.devRef .tc main_v12) :=
  calc X7 m ρ c (Proc.devRef .tc main_v12)
    _ = X6 m ρ c (Proc.devRef .tc main_v12) := X7_of_ne m ρ c main_v12 (by decide)
    _ = X5 m ρ c (Proc.devRef .tc main_v12) := StableHlo.after_of_writes_sub hostOps3 _ hostOps3_writes (by decide)
    _ = X4 m ρ c (Proc.devRef .tc main_v12) := (X5_arr m ρ c 0).trans (((dat2 (Y4 m ρ) c).arrAt_in 0 rfl _).trans (A_eq2 (Y4 m ρ) c 0))
    _ = X3 m ρ c (Proc.devRef .tc main_v12) := X4_of_ne m ρ c main_v12 (by decide)
    _ = X2 m ρ c (Proc.devRef .tc main_v12) := StableHlo.after_of_writes_sub hostOps1 _ hostOps1_writes (by decide)

theorem X10_main_v12_from2 (c : Dev nD) : X10 m ρ c (Proc.devRef .tc main_v12) = X2 m ρ c (Proc.devRef .tc main_v12) :=
  calc X10 m ρ c (Proc.devRef .tc main_v12)
    _ = X9 m ρ c (Proc.devRef .tc main_v12) := X10_of_ne m ρ c main_v12 (by decide)
    _ = X8 m ρ c (Proc.devRef .tc main_v12) := StableHlo.after_of_writes_sub hostOps5 _ hostOps5_writes (by decide)
    _ = X7 m ρ c (Proc.devRef .tc main_v12) := (X8_arr m ρ c 0).trans (((dat4 (Y7 m ρ) c).arrAt_in 0 rfl _).trans (A_eq4 (Y7 m ρ) c 0))
    _ = X6 m ρ c (Proc.devRef .tc main_v12) := X7_of_ne m ρ c main_v12 (by decide)
    _ = X5 m ρ c (Proc.devRef .tc main_v12) := StableHlo.after_of_writes_sub hostOps3 _ hostOps3_writes (by decide)
    _ = X4 m ρ c (Proc.devRef .tc main_v12) := (X5_arr m ρ c 0).trans (((dat2 (Y4 m ρ) c).arrAt_in 0 rfl _).trans (A_eq2 (Y4 m ρ) c 0))
    _ = X3 m ρ c (Proc.devRef .tc main_v12) := X4_of_ne m ρ c main_v12 (by decide)
    _ = X2 m ρ c (Proc.devRef .tc main_v12) := StableHlo.after_of_writes_sub hostOps1 _ hostOps1_writes (by decide)

theorem X6_main_v17_0_from5 (c : Dev nD) : X6 m ρ c (Proc.devRef .tc main_v17_0) = X5 m ρ c (Proc.devRef .tc main_v17_0) :=
  calc X6 m ρ c (Proc.devRef .tc main_v17_0)
    _ = X5 m ρ c (Proc.devRef .tc main_v17_0) := StableHlo.after_of_writes_sub hostOps3 _ hostOps3_writes (by decide)

theorem X7_main_v17_1_from5 (c : Dev nD) : X7 m ρ c (Proc.devRef .tc main_v17_1) = X5 m ρ c (Proc.devRef .tc main_v17_1) :=
  calc X7 m ρ c (Proc.devRef .tc main_v17_1)
    _ = X6 m ρ c (Proc.devRef .tc main_v17_1) := X7_of_ne m ρ c main_v17_1 (by decide)
    _ = X5 m ρ c (Proc.devRef .tc main_v17_1) := StableHlo.after_of_writes_sub hostOps3 _ hostOps3_writes (by decide)

theorem X9_main_v22_0_from8 (c : Dev nD) : X9 m ρ c (Proc.devRef .tc main_v22_0) = X8 m ρ c (Proc.devRef .tc main_v22_0) :=
  calc X9 m ρ c (Proc.devRef .tc main_v22_0)
    _ = X8 m ρ c (Proc.devRef .tc main_v22_0) := StableHlo.after_of_writes_sub hostOps5 _ hostOps5_writes (by decide)

theorem X10_main_v22_1_from8 (c : Dev nD) : X10 m ρ c (Proc.devRef .tc main_v22_1) = X8 m ρ c (Proc.devRef .tc main_v22_1) :=
  calc X10 m ρ c (Proc.devRef .tc main_v22_1)
    _ = X9 m ρ c (Proc.devRef .tc main_v22_1) := X10_of_ne m ρ c main_v22_1 (by decide)
    _ = X8 m ρ c (Proc.devRef .tc main_v22_1) := StableHlo.after_of_writes_sub hostOps5 _ hostOps5_writes (by decide)

end Cert.KernelIdeal.Gen

end
-- ==== Proof.Spec.lean ====
/-
  The mathematics both programs compute, as whole-array functions on the extended reals.

  A session embedding S (4096×256), a propagation matrix P = D·A (4096×4096) and three 256×256 weight matrices.
  One layer sends x to z = P·(x·W) and adds to a running total the rows of z divided by max(‖row‖₂, ε).
  The network's value is the total after three layers, the first summand being S itself, divided by 4.
-/
import Idealize.ShloMosaic.PureOps.Ideal
import Idealize.ShloMosaic.Lib.ValueIdx

noncomputable section

namespace Cert.Spec

open Idealize.ShloMosaic Idealize.ShloMosaic.ValueIdx

abbrev M4096x4096 : Type := (⟨2, ![4096, 4096]⟩ : Shape).Idx → EReal
abbrev M4096x256 : Type := (⟨2, ![4096, 256]⟩ : Shape).Idx → EReal
abbrev M256x256 : Type := (⟨2, ![256, 256]⟩ : Shape).Idx → EReal

/-- The single-precision word of 1e-12, as the extended real it denotes (never evaluated: both programs carry the same word). -/
def eps : EReal := Ideal.ofBits .f32 0x2B8CBCCC#32
/-- The single-precision word of 4.0. -/
def four : EReal := Ideal.ofBits .f32 0x40800000#32

/-- D·A: entry (r, c) is the sum over k of D(r,k)·A(k,c). -/
def mulDA (D A : M4096x4096) : M4096x4096 := fun i => ∑ k : Fin 4096, D (ix2 (i 0) k) * A (ix2 k (i 1))
/-- X·W for a 256×256 weight matrix. -/
def mulW (X : M4096x256) (W : M256x256) : M4096x256 := fun i => ∑ k : Fin 256, X (ix2 (i 0) k) * W (ix2 k (i 1))
/-- P·Y for the 4096×4096 propagation matrix. -/
def mulP (P : M4096x4096) (Y : M4096x256) : M4096x256 := fun i => ∑ k : Fin 4096, P (ix2 (i 0) k) * Y (ix2 k (i 1))
/-- The Euclidean norm of row r. -/
def rowNorm (Z : M4096x256) (r : Fin 4096) : EReal := Ideal.sqrt (∑ k : Fin 256, Z (ix2 r k) * Z (ix2 r k))
/-- Each row divided by the larger of its norm and ε. -/
def normalized (Z : M4096x256) : M4096x256 := fun i => Ideal.div (Z i) (max (rowNorm Z (i 0)) eps)
/-- One layer's propagated value. -/
def layerZ (P : M4096x4096) (W : M256x256) (X : M4096x256) : M4096x256 := mulP P (mulW X W)
/-- The running total after a layer. -/
def layerAcc (acc Z : M4096x256) : M4096x256 := fun i => acc i + normalized Z i
/-- The whole network. -/
def net (P : M4096x4096) (W0 W1 W2 : M256x256) (S : M4096x256) : M4096x256 :=
  fun i => Ideal.div (layerAcc (layerAcc (layerAcc S (layerZ P W0 S)) (layerZ P W1 (layerZ P W0 S)))
      (layerZ P W2 (layerZ P W1 (layerZ P W0 S))) i) four

end Cert.Spec

end
-- ==== Proof.PayIdx.lean ====
/-
  The kernel bodies' arithmetic read at an index, on the extended reals.

  Every store of the seven bodies writes a pure term of the values the body loaded. Here each such term is read at
  a coordinate pair (p, q): a zero fill is 0; an accumulation step is the old entry plus a row-by-column sum of
  products; a dense step is such a sum alone; the epilogue adds to the running total the entry divided by the larger
  of its row's Euclidean norm and ε. A last lemma cuts a sum over 4096 terms into four runs of 1024.
-/
import proofs.«136557_j13331578487504_1_alg».proof.Proof.Gen.KernelIdeal.Skeleton
import proofs.«136557_j13331578487504_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.PayIdx

open Idealize.ShloMosaic Idealize.ShloMosaic.ValueIdx Cert.KernelIdeal Cert.KernelIdeal.Gen
open Cert.KernelIdeal.Facts₀

/-! ## A 1024×256 row block times a 256×256 matrix -/

/-- The dimension numbers of this product: rows of the left operand against columns of the right. -/
abbrev dotW : DotDims S1024x256 S256x256 S1024x256 := dot_S1024x256_S256x256_S1024x256_1_0_0_1_n_n

/-- The left operand is read in the output's row … -/
theorem dotW_lhs0 (i : S1024x256.Idx) (c : dotW.contr.Idx) : (dotW.lhsIdx i c 0).val = (i 0).val := by
  unfold DotDims.lhsIdx
  rw [dif_neg (show ¬(0 : Fin S1024x256.rank) ∈ dotW.lhsBatch by decide),
    dif_pos (show (0 : Fin S1024x256.rank) ∈ dotW.lhsNonContracting by decide)]
  rfl
/-- … at the contraction position; … -/
theorem dotW_lhs1 (i : S1024x256.Idx) (c : dotW.contr.Idx) : (dotW.lhsIdx i c 1).val = (c ⟨0, by decide⟩).val :=
  dotW.lhsIdx_val_of_single rfl i c
/-- … the right operand at the contraction position … -/
theorem dotW_rhs0 (i : S1024x256.Idx) (c : dotW.contr.Idx) : (dotW.rhsIdx i c 0).val = (c ⟨0, by decide⟩).val :=
  dotW.rhsIdx_val_of_single rfl i c
/-- … in the output's column. -/
theorem dotW_rhs1 (i : S1024x256.Idx) (c : dotW.contr.Idx) : (dotW.rhsIdx i c 1).val = (i 1).val := by
  unfold DotDims.rhsIdx
  rw [dif_neg (show ¬(1 : Fin S256x256.rank) ∈ dotW.rhsBatch by decide),
    dif_pos (show (1 : Fin S256x256.rank) ∈ dotW.rhsNonContracting by decide)]
  rfl

/-- The product into a zero accumulator, at (p, q): the sum over k of left (p, k) times right (k, q). -/
theorem dotW_apply {φ₁ φ₂ : FTy} (x : FVec Ideal S1024x256 φ₁) (w : FVec Ideal S256x256 φ₂) (p : Fin 1024) (q : Fin 256) :
    matmul dotW none x w (constant (F := Ideal) S1024x256 .f32 0x00000000#32) (ix2 p q)
      = ∑ k : Fin 256, x (ix2 p k) * w (ix2 k q) := by
  simp only [matmul]
  rw [Ideal.matmul_constant_zero_apply, ← Equiv.sum_comp (contrEquiv1 dotW 256 rfl rfl).symm]
  refine Finset.sum_congr rfl fun k _ => ?_
  have hk := contrEquiv1_symm_val dotW 256 rfl rfl k
  have el : dotW.lhsIdx (ix2 p q) ((contrEquiv1 dotW 256 rfl rfl).symm k) = ix2 p k := funext fun a => Fin.ext (by
    match a with
    | ⟨0, _⟩ => exact dotW_lhs0 _ _
    | ⟨1, _⟩ => exact (dotW_lhs1 _ _).trans hk)
  have er : dotW.rhsIdx (ix2 p q) ((contrEquiv1 dotW 256 rfl rfl).symm k) = ix2 k q := funext fun a => Fin.ext (by
    match a with
    | ⟨0, _⟩ => exact (dotW_rhs0 _ _).trans hk
    | ⟨1, _⟩ => exact dotW_rhs1 _ _)
  rw [el, er]

/-- Dense step 1: the row block times the weight matrix, at (p, q). -/
theorem dense1 (x : Vec Ideal S1024x256 .f32) (w : Vec Ideal S256x256 .f32) (p : Fin 1024) (q : Fin 256) :
    k1_pay1 (F := Ideal) x w (ix2 p q) = ∑ k : Fin 256, x (ix2 p k) * w (ix2 k q) := by
  unfold k1_pay1
  simp only [shapeCast_self]
  exact dotW_apply _ _ p q

/-- Dense step 3: the row block times the weight matrix, at (p, q). -/
theorem dense3 (x : Vec Ideal S1024x256 .f32) (w : Vec Ideal S256x256 .f32) (p : Fin 1024) (q : Fin 256) :
    k3_pay1 (F := Ideal) x w (ix2 p q) = ∑ k : Fin 256, x (ix2 p k) * w (ix2 k q) := by
  unfold k3_pay1
  simp only [shapeCast_self]
  exact dotW_apply _ _ p q

/-- Dense step 5: the row block times the weight matrix, at (p, q). -/
theorem dense5 (x : Vec Ideal S1024x256 .f32) (w : Vec Ideal S256x256 .f32) (p : Fin 1024) (q : Fin 256) :
    k5_pay1 (F := Ideal) x w (ix2 p q) = ∑ k : Fin 256, x (ix2 p k) * w (ix2 k q) := by
  unfold k5_pay1
  simp only [shapeCast_self]
  exact dotW_apply _ _ p q

/-! ## A 1024×1024 block times a 1024×1024 block -/

/-- The dimension numbers of this product: rows of the left operand against columns of the right. -/
abbrev dotA : DotDims S1024x1024 S1024x1024 S1024x1024 := dot_S1024x1024_S1024x1024_S1024x1024_1_0_0_1_n_n

/-- The left operand is read in the output's row … -/
theorem dotA_lhs0 (i : S1024x1024.Idx) (c : dotA.contr.Idx) : (dotA.lhsIdx i c 0).val = (i 0).val := by
  unfold DotDims.lhsIdx
  rw [dif_neg (show ¬(0 : Fin S1024x1024.rank) ∈ dotA.lhsBatch by decide),
    dif_pos (show (0 : Fin S1024x1024.rank) ∈ dotA.lhsNonContracting by decide)]
  rfl
/-- … at the contraction position; … -/
theorem dotA_lhs1 (i : S1024x1024.Idx) (c : dotA.contr.Idx) : (dotA.lhsIdx i c 1).val = (c ⟨0, by decide⟩).val :=
  dotA.lhsIdx_val_of_single rfl i c
/-- … the right operand at the contraction position … -/
theorem dotA_rhs0 (i : S1024x1024.Idx) (c : dotA.contr.Idx) : (dotA.rhsIdx i c 0).val = (c ⟨0, by decide⟩).val :=
  dotA.rhsIdx_val_of_single rfl i c
/-- … in the output's column. -/
theorem dotA_rhs1 (i : S1024x1024.Idx) (c : dotA.contr.Idx) : (dotA.rhsIdx i c 1).val = (i 1).val := by
  unfold DotDims.rhsIdx
  rw [dif_neg (show ¬(1 : Fin S1024x1024.rank) ∈ dotA.rhsBatch by decide),
    dif_pos (show (1 : Fin S1024x1024.rank) ∈ dotA.rhsNonContracting by decide)]
  rfl

/-- The product into a zero accumulator, at (p, q): the sum over k of left (p, k) times right (k, q). -/
theorem dotA_apply {φ₁ φ₂ : FTy} (x : FVec Ideal S1024x1024 φ₁) (w : FVec Ideal S1024x1024 φ₂) (p : Fin 1024) (q : Fin 1024) :
    matmul dotA none x w (constant (F := Ideal) S1024x1024 .f32 0x00000000#32) (ix2 p q)
      = ∑ k : Fin 1024, x (ix2 p k) * w (ix2 k q) := by
  simp only [matmul]
  rw [Ideal.matmul_constant_zero_apply, ← Equiv.sum_comp (contrEquiv1 dotA 1024 rfl rfl).symm]
  refine Finset.sum_congr rfl fun k _ => ?_
  have hk := contrEquiv1_symm_val dotA 1024 rfl rfl k
  have el : dotA.lhsIdx (ix2 p q) ((contrEquiv1 dotA 1024 rfl rfl).symm k) = ix2 p k := funext fun a => Fin.ext (by
    match a with
    | ⟨0, _⟩ => exact dotA_lhs0 _ _
    | ⟨1, _⟩ => exact (dotA_lhs1 _ _).trans hk)
  have er : dotA.rhsIdx (ix2 p q) ((contrEquiv1 dotA 1024 rfl rfl).symm k) = ix2 k q := funext fun a => Fin.ext (by
    match a with
    | ⟨0, _⟩ => exact (dotA_rhs0 _ _).trans hk
    | ⟨1, _⟩ => exact dotA_rhs1 _ _)
  rw [el, er]

/-- An accumulation step of the block product: the old entry plus the row-by-column sum, at (p, q). -/
theorem acc0 (a b s : Vec Ideal S1024x1024 .f32) (p q : Fin 1024) :
    k0_pay2 (F := Ideal) a b s (ix2 p q) = s (ix2 p q) + ∑ k : Fin 1024, a (ix2 p k) * b (ix2 k q) := by
  unfold k0_pay2
  simp only [shapeCast_self]
  rw [addf_apply]
  exact congrArg (s (ix2 p q) + ·) (dotA_apply _ _ p q)

/-! ## A 1024×1024 block times a 1024×256 block -/

/-- The dimension numbers of this product: rows of the left operand against columns of the right. -/
abbrev dotP : DotDims S1024x1024 S1024x256 S1024x256 := dot_S1024x1024_S1024x256_S1024x256_1_0_0_1_n_n

/-- The left operand is read in the output's row … -/
theorem dotP_lhs0 (i : S1024x256.Idx) (c : dotP.contr.Idx) : (dotP.lhsIdx i c 0).val = (i 0).val := by
  unfold DotDims.lhsIdx
  rw [dif_neg (show ¬(0 : Fin S1024x1024.rank) ∈ dotP.lhsBatch by decide),
    dif_pos (show (0 : Fin S1024x1024.rank) ∈ dotP.lhsNonContracting by decide)]
  rfl
/-- … at the contraction position; … -/
theorem dotP_lhs1 (i : S1024x256.Idx) (c : dotP.contr.Idx) : (dotP.lhsIdx i c 1).val = (c ⟨0, by decide⟩).val :=
  dotP.lhsIdx_val_of_single rfl i c
/-- … the right operand at the contraction position … -/
theorem dotP_rhs0 (i : S1024x256.Idx) (c : dotP.contr.Idx) : (dotP.rhsIdx i c 0).val = (c ⟨0, by decide⟩).val :=
  dotP.rhsIdx_val_of_single rfl i c
/-- … in the output's column. -/
theorem dotP_rhs1 (i : S1024x256.Idx) (c : dotP.contr.Idx) : (dotP.rhsIdx i c 1).val = (i 1).val := by
  unfold DotDims.rhsIdx
  rw [dif_neg (show ¬(1 : Fin S1024x256.rank) ∈ dotP.rhsBatch by decide),
    dif_pos (show (1 : Fin S1024x256.rank) ∈ dotP.rhsNonContracting by decide)]
  rfl

/-- The product into a zero accumulator, at (p, q): the sum over k of left (p, k) times right (k, q). -/
theorem dotP_apply {φ₁ φ₂ : FTy} (x : FVec Ideal S1024x1024 φ₁) (w : FVec Ideal S1024x256 φ₂) (p : Fin 1024) (q : Fin 256) :
    matmul dotP none x w (constant (F := Ideal) S1024x256 .f32 0x00000000#32) (ix2 p q)
      = ∑ k : Fin 1024, x (ix2 p k) * w (ix2 k q) := by
  simp only [matmul]
  rw [Ideal.matmul_constant_zero_apply, ← Equiv.sum_comp (contrEquiv1 dotP 1024 rfl rfl).symm]
  refine Finset.sum_congr rfl fun k _ => ?_
  have hk := contrEquiv1_symm_val dotP 1024 rfl rfl k
  have el : dotP.lhsIdx (ix2 p q) ((contrEquiv1 dotP 1024 rfl rfl).symm k) = ix2 p k := funext fun a => Fin.ext (by
    match a with
    | ⟨0, _⟩ => exact dotP_lhs0 _ _
    | ⟨1, _⟩ => exact (dotP_lhs1 _ _).trans hk)
  have er : dotP.rhsIdx (ix2 p q) ((contrEquiv1 dotP 1024 rfl rfl).symm k) = ix2 k q := funext fun a => Fin.ext (by
    match a with
    | ⟨0, _⟩ => exact (dotP_rhs0 _ _).trans hk
    | ⟨1, _⟩ => exact dotP_rhs1 _ _)
  rw [el, er]

/-- Propagation step 2: the old entry plus the sum over k of the matrix block at (p, k) times the operand at (k, q). -/
theorem acc2 (a : Vec Ideal S1024x1024 .bf16) (y s : Vec Ideal S1024x256 .f32) (p : Fin 1024) (q : Fin 256) :
    k2_pay2 (F := Ideal) a y s (ix2 p q) = s (ix2 p q) + ∑ k : Fin 1024, a (ix2 p k) * y (ix2 k q) := by
  unfold k2_pay2
  simp only [shapeCast_self]
  rw [addf_apply]
  exact congrArg (s (ix2 p q) + ·) (dotP_apply _ _ p q)

/-- Propagation step 4: the old entry plus the sum over k of the matrix block at (p, k) times the operand at (k, q). -/
theorem acc4 (a : Vec Ideal S1024x1024 .bf16) (y s : Vec Ideal S1024x256 .f32) (p : Fin 1024) (q : Fin 256) :
    k4_pay2 (F := Ideal) a y s (ix2 p q) = s (ix2 p q) + ∑ k : Fin 1024, a (ix2 p k) * y (ix2 k q) := by
  unfold k4_pay2
  simp only [shapeCast_self]
  rw [addf_apply]
  exact congrArg (s (ix2 p q) + ·) (dotP_apply _ _ p q)

/-- Propagation step 6: the old entry plus the sum over k of the matrix block at (p, k) times the operand at (k, q). -/
theorem acc6 (a : Vec Ideal S1024x1024 .bf16) (y s : Vec Ideal S1024x256 .f32) (p : Fin 1024) (q : Fin 256) :
    k6_pay2 (F := Ideal) a y s (ix2 p q) = s (ix2 p q) + ∑ k : Fin 1024, a (ix2 p k) * y (ix2 k q) := by
  unfold k6_pay2
  simp only [shapeCast_self]
  rw [addf_apply]
  exact congrArg (s (ix2 p q) + ·) (dotP_apply _ _ p q)

/-! ## The zero fills and the final store -/

/-- The block product's accumulator is cleared: every entry is 0. -/
theorem zero0 (p : Fin 1024) (q : Fin 1024) : k0_pay1 (F := Ideal) (ix2 p q) = 0 := by
  unfold k0_pay1
  simp only [shapeCast_self]
  exact Ideal.ofBits_zero_f32

/-- Propagation step 2's accumulator is cleared: every entry is 0. -/
theorem zero2 (p : Fin 1024) (q : Fin 256) : k2_pay1 (F := Ideal) (ix2 p q) = 0 := by
  unfold k2_pay1
  simp only [shapeCast_self]
  exact Ideal.ofBits_zero_f32

/-- Propagation step 4's accumulator is cleared: every entry is 0. -/
theorem zero4 (p : Fin 1024) (q : Fin 256) : k4_pay1 (F := Ideal) (ix2 p q) = 0 := by
  unfold k4_pay1
  simp only [shapeCast_self]
  exact Ideal.ofBits_zero_f32

/-- Propagation step 6's accumulator is cleared: every entry is 0. -/
theorem zero6 (p : Fin 1024) (q : Fin 256) : k6_pay1 (F := Ideal) (ix2 p q) = 0 := by
  unfold k6_pay1
  simp only [shapeCast_self]
  exact Ideal.ofBits_zero_f32

/-- The finished block product is stored as it stands: narrowing the format changes no extended real. -/
theorem store0 (v : Vec Ideal S1024x1024 .f32) (p q : Fin 1024) : k0_pay3 (F := Ideal) v (ix2 p q) = v (ix2 p q) := rfl

/-! ## A sum over 4096 terms in four runs of 1024 -/

/-- A position below 4096 is a run number below 4 and a place below 1024 in the run. -/
def split4 : Fin 4 × Fin 1024 ≃ Fin 4096 where
  toFun x := ⟨x.1.val * 1024 + x.2.val, by have := x.1.isLt; have := x.2.isLt; omega⟩
  invFun k := (⟨k.val / 1024, by have := k.isLt; omega⟩, ⟨k.val % 1024, by omega⟩)
  left_inv x := by
    obtain ⟨b, j⟩ := x
    have hb := b.isLt
    have hj := j.isLt
    refine Prod.ext (Fin.ext ?_) (Fin.ext ?_)
    · show (b.val * 1024 + j.val) / 1024 = b.val
      omega
    · show (b.val * 1024 + j.val) % 1024 = j.val
      omega
  right_inv k := Fin.ext (by
    have hk := k.isLt
    show k.val / 1024 * 1024 + k.val % 1024 = k.val
    omega)

/-- The sum over all 4096 positions is the sum over the four runs of each run's sum. -/
theorem tile4 (f : Fin 4096 → EReal) :
    ∑ k : Fin 4096, f k = ∑ b : Fin 4, ∑ j : Fin 1024, f ⟨b.val * 1024 + j.val, by have := b.isLt; have := j.isLt; omega⟩ := by
  rw [← split4.sum_comp f, Fintype.sum_prod_type]
  rfl

/-! ## The epilogue: a row's norm, kept as a column and spread back over the row -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along a row of a 1024×256 array, at row `p`: the sum over the 256 columns. -/
theorem rowSum_apply (v : FVec Ideal S1024x256 .f32) (h : S1024x256.Reduces [1] S1024) (hφ : FKind.Formats .f32)
    (hacc : (0x00000000#32 : BitVec 32) = 0x00000000#32) (p : Fin 1024) :
    multiReduction (F := Ideal) .add [1] S1024 v 0x00000000#32 h hφ hacc (ix1 p) = ∑ k : Fin 256, v (ix2 p k) := by
  refine (Ideal.multiReduction_add_single v 0x00000000#32 h hφ hacc (ix1 p)).trans ?_
  refine Finset.sum_congr rfl fun k _ => congrArg v (funext fun c => Fin.ext ?_)
  match c with
  | ⟨0, _⟩ => rfl
  | ⟨1, _⟩ => rfl

/-- Epilogue 2: the running total plus the entry divided by the larger of its row's Euclidean norm and ε. -/
theorem epi2 (z accin : Vec Ideal S1024x256 .f32) (p : Fin 1024) (q : Fin 256) :
    k2_pay3 (F := Ideal) z accin (ix2 p q)
      = accin (ix2 p q) + Ideal.div (z (ix2 p q)) (max (Ideal.sqrt (∑ k : Fin 256, z (ix2 p k) * z (ix2 p k))) Cert.Spec.eps) := by
  unfold k2_pay3
  simp only [shapeCast_self]
  rw [addf_apply, divf_apply]
  refine congrArg (fun t => accin (ix2 p q) + Ideal.div (z (ix2 p q)) t) ?_
  refine (broadcastTo_a1_ab_apply _ _ p q).trans ?_
  rw [maximumf_apply, broadcast_apply]
  refine congrArg₂ max ?_ rfl
  exact congrArg Ideal.sqrt ((shapeCast_a_a1_apply _ _ p 0).trans (rowSum_apply _ _ _ _ p))

/-- Epilogue 4: the running total plus the entry divided by the larger of its row's Euclidean norm and ε. -/
theorem epi4 (z accin : Vec Ideal S1024x256 .f32) (p : Fin 1024) (q : Fin 256) :
    k4_pay3 (F := Ideal) z accin (ix2 p q)
      = accin (ix2 p q) + Ideal.div (z (ix2 p q)) (max (Ideal.sqrt (∑ k : Fin 256, z (ix2 p k) * z (ix2 p k))) Cert.Spec.eps) := by
  unfold k4_pay3
  simp only [shapeCast_self]
  rw [addf_apply, divf_apply]
  refine congrArg (fun t => accin (ix2 p q) + Ideal.div (z (ix2 p q)) t) ?_
  refine (broadcastTo_a1_ab_apply _ _ p q).trans ?_
  rw [maximumf_apply, broadcast_apply]
  refine congrArg₂ max ?_ rfl
  exact congrArg Ideal.sqrt ((shapeCast_a_a1_apply _ _ p 0).trans (rowSum_apply _ _ _ _ p))

/-- Epilogue 6: the running total plus the entry divided by the larger of its row's Euclidean norm and ε. -/
theorem epi6 (z accin : Vec Ideal S1024x256 .f32) (p : Fin 1024) (q : Fin 256) :
    k6_pay3 (F := Ideal) z accin (ix2 p q)
      = accin (ix2 p q) + Ideal.div (z (ix2 p q)) (max (Ideal.sqrt (∑ k : Fin 256, z (ix2 p k) * z (ix2 p k))) Cert.Spec.eps) := by
  unfold k6_pay3
  simp only [shapeCast_self]
  rw [addf_apply, divf_apply]
  refine congrArg (fun t => accin (ix2 p q) + Ideal.div (z (ix2 p q)) t) ?_
  refine (broadcastTo_a1_ab_apply _ _ p q).trans ?_
  rw [maximumf_apply, broadcast_apply]
  refine congrArg₂ max ?_ rfl
  exact congrArg Ideal.sqrt ((shapeCast_a_a1_apply _ _ p 0).trans (rowSum_apply _ _ _ _ p))

end Cert.PayIdx

end
-- ==== Proof.PieceI.lean ====
/-
  What each kernel body leaves in its buffers, as the body's arithmetic applied to what it found there.

  A body's run records the stores it made as a list of pieces. Each body here loads and stores whole buffers, so
  what a covering list of stores leaves is the payload of the last store, and a load of a whole buffer reads its
  contents; a load of a buffer just stored reads the stored payload.
-/
import proofs.«136557_j13331578487504_1_alg».proof.Proof.DenseI1
import proofs.«136557_j13331578487504_1_alg».proof.Proof.DenseI3
import proofs.«136557_j13331578487504_1_alg».proof.Proof.DenseI5
import proofs.«136557_j13331578487504_1_alg».proof.Proof.MatmulI0
import proofs.«136557_j13331578487504_1_alg».proof.Proof.PropI2
import proofs.«136557_j13331578487504_1_alg».proof.Proof.PropI4
import proofs.«136557_j13331578487504_1_alg».proof.Proof.PropI6
import Idealize.ShloMosaic.Lib.Pipeline.Value
import Idealize.ShloMosaic.Lib.Tactic

set_option maxRecDepth 16384

noncomputable section

namespace Cert.PieceI

open Idealize.ShloMosaic Idealize.ShloMosaic.TcCoe Idealize.ShloMosaic.Tactic Idealize.SL.Sem
open Cert.KernelIdeal Cert.KernelIdeal.Gen Cert.KernelIdeal.Facts₀

variable {F : FTy → Type} [FloatOps F]

/-- The zero offsets of a rank-two rectangle, however spelt. -/
theorem hz : (![0, 0] : Fin 2 → Nat) = fun _ => 0 := funext fun a => by fin_cases a <;> rfl

/-! ## The dense steps -/

/-- Dense step 1: the output block is the product of the row block with the weights. -/
theorem out1_2_eq (x0 : Vec F S1024x256 .f32) (x1 : Vec F S256x256 .f32) : out1_2 x0 x1 = k1_pay1 x0 x1 := by
  unfold out1_2
  rw [View.canon_unit_zero hz]
  simp only [View.ld_unit_zero (S := S1024x256) hz, View.ld_unit_zero (S := S256x256) hz]

/-- Dense step 3: the output block is the product of the row block with the weights. -/
theorem out3_2_eq (x0 : Vec F S1024x256 .f32) (x1 : Vec F S256x256 .f32) : out3_2 x0 x1 = k3_pay1 x0 x1 := by
  unfold out3_2
  rw [View.canon_unit_zero hz]
  simp only [View.ld_unit_zero (S := S1024x256) hz, View.ld_unit_zero (S := S256x256) hz]

/-- Dense step 5: the output block is the product of the row block with the weights. -/
theorem out5_2_eq (x0 : Vec F S1024x256 .f32) (x1 : Vec F S256x256 .f32) : out5_2 x0 x1 = k5_pay1 x0 x1 := by
  unfold out5_2
  rw [View.canon_unit_zero hz]
  simp only [View.ld_unit_zero (S := S1024x256) hz, View.ld_unit_zero (S := S256x256) hz]

/-! ## The block product -/

/-- First block of the contracted axis: the accumulator is cleared, read back, and the first product added. -/
theorem sout0_A_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 x1 : Vec F S1024x1024 .f32) :
    sout0_A c i arg3 harg3 arg4 harg4 arg5 harg5 arg6 harg6 hc0 hc1 x0 x1 = k0_pay2 x0 x1 k0_pay1 := by
  unfold sout0_A
  rw [View.read_writes_eq_canon _ _ _ (scover0_A c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle block: the product is added to what the accumulator held. -/
theorem sout0_B_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 x1 xs0 : Vec F S1024x1024 .f32) :
    sout0_B c i arg3 harg3 arg4 harg4 arg5 harg5 arg6 harg6 hc0 hc1 x0 x1 xs0 = k0_pay2 x0 x1 xs0 := by
  unfold sout0_B
  rw [View.read_writes_eq_canon _ _ _ (scover0_B c i arg3 harg3 arg4 harg4 arg5 harg5 arg6 harg6 hc0 hc1 x0 x1 xs0)]
  unfold kernelRun0_B
  dsimp only
  rw [View.canon_unit_zero (S := S1024x1024) hz]
  simp only [View.readAt_eq_ld, harg3.read_unread, harg4.read_unread, harg6.read_unread, View.ld_unit_zero (S := S1024x1024) hz]

/-- The last block: the accumulator after the last product … -/
theorem sout0_C_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) :
    sout0_C c i arg3 harg3 arg4 harg4 arg5 harg5 arg6 harg6 hc0 hc1 x0 x1 xs0 = k0_pay2 x0 x1 xs0 := by
  unfold sout0_C
  rw [View.read_writes_eq_canon _ _ _ (scover0_C c i arg3 harg3 arg4 harg4 arg5 harg5 arg6 harg6 hc0 hc1 x0 x1 xs0)]
  unfold kernelRun0_C
  dsimp only
  sl_unfold_words
  rw [View.canon_unit_zero (S := S1024x1024) hz]
  simp only [View.readAt_eq_ld, harg3.read_unread, harg4.read_unread, harg6.read_unread, View.ld_unit_zero (S := S1024x1024) hz]

/-- … and the output block, the accumulator read back and stored. -/
theorem out0_C_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 x1 xs0 : Vec F S1024x1024 .f32) :
    out0_C c i arg3 harg3 arg4 harg4 arg5 harg5 arg6 harg6 hc0 hc1 x0 x1 xs0 = k0_pay3 (k0_pay2 x0 x1 xs0) := by
  unfold out0_C
  rw [View.read_writes_eq_canon _ _ _ (cover0_C c i arg3 harg3 arg4 harg4 arg5 harg5 arg6 harg6 hc0 hc1 x0 x1 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S1024x1024) hz]

/-! ## Propagation step 2 -/

/-- First block of the contracted axis: the accumulator is cleared, read back, and the first product added. -/
theorem sout2_A_eq (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond2_0 i) (hc1 : ¬cond2_1 i) (x0 : Vec F S1024x1024 .bf16) (x1 x2 : Vec F S1024x256 .f32) :
    sout2_A c i arg2 harg2 arg3 harg3 arg4 harg4 arg5 harg5 arg6 harg6 arg7 harg7 hc0 hc1 x0 x1 x2 = k2_pay2 x0 x1 k2_pay1 := by
  unfold sout2_A
  rw [View.read_writes_eq_canon _ _ _ (scover2_A c i arg2 harg2 arg3 harg3 arg4 harg4 arg5 harg5 arg6 harg6 arg7 harg7 hc0 hc1 x0 x1 x2)]
  unfold kernelRun2_A
  dsimp only
  sl_unfold_words
  rw [View.canon_cons_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

/-- A middle block: the product is added to what the accumulator held. -/
theorem sout2_B_eq (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : ¬cond2_1 i) (x0 : Vec F S1024x1024 .bf16) (x1 x2 xs0 : Vec F S1024x256 .f32) :
    sout2_B c i arg2 harg2 arg3 harg3 arg4 harg4 arg5 harg5 arg6 harg6 arg7 harg7 hc0 hc1 x0 x1 x2 xs0 = k2_pay2 x0 x1 xs0 := by
  unfold sout2_B
  rw [View.read_writes_eq_canon _ _ _ (scover2_B c i arg2 harg2 arg3 harg3 arg4 harg4 arg5 harg5 arg6 harg6 arg7 harg7 hc0 hc1 x0 x1 x2 xs0)]
  unfold kernelRun2_B
  dsimp only
  sl_unfold_words
  rw [View.canon_unit_zero (S := S1024x256) hz]
  simp only [View.readAt_eq_ld, harg2.read_unread, harg3.read_unread, harg4.read_unread, harg7.read_unread,
    View.ld_unit_zero (S := S1024x256) hz, View.ld_unit_zero (S := S1024x1024) hz]

/-- The last block: the accumulator after the last product; … -/
theorem sout2_C_eq (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 xs0 : Vec F S1024x256 .f32) :
    sout2_C c i arg2 harg2 arg3 harg3 arg4 harg4 arg5 harg5 arg6 harg6 arg7 harg7 hc0 hc1 x0 x1 x2 xs0 = k2_pay2 x0 x1 xs0 := by
  unfold sout2_C
  rw [View.read_writes_eq_canon _ _ _ (scover2_C c i arg2 harg2 arg3 harg3 arg4 harg4 arg5 harg5 arg6 harg6 arg7 harg7 hc0 hc1 x0 x1 x2 xs0)]
  unfold kernelRun2_C
  dsimp only
  sl_unfold_words
  rw [View.canon_unit_zero (S := S1024x256) hz]
  simp only [View.readAt_eq_ld, harg2.read_unread, harg3.read_unread, harg4.read_unread, harg7.read_unread,
    View.ld_unit_zero (S := S1024x256) hz, View.ld_unit_zero (S := S1024x1024) hz]

/-- … the first result block, the accumulator read back and stored as it stands; … -/
theorem out2_C3_eq (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 xs0 : Vec F S1024x256 .f32) :
    out2_C3 c i arg2 harg2 arg3 harg3 arg4 harg4 arg5 harg5 arg6 harg6 arg7 harg7 hc0 hc1 x0 x1 x2 xs0 = k2_pay2 x0 x1 xs0 := by
  unfold out2_C3
  rw [View.read_writes_eq_canon _ _ _ (cover2_C3 c i arg2 harg2 arg3 harg3 arg4 harg4 arg5 harg5 arg6 harg6 arg7 harg7 hc0 hc1 x0 x1 x2 xs0)]
  unfold kernelRun2_C
  dsimp only
  sl_unfold_words
  rw [View.canon_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

/-- … and the second, the epilogue of the read-back accumulator and the running total. -/
theorem out2_C4_eq (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond2_0 i) (hc1 : cond2_1 i) (x0 : Vec F S1024x1024 .bf16) (x1 x2 xs0 : Vec F S1024x256 .f32) :
    out2_C4 c i arg2 harg2 arg3 harg3 arg4 harg4 arg5 harg5 arg6 harg6 arg7 harg7 hc0 hc1 x0 x1 x2 xs0 = k2_pay3 (k2_pay2 x0 x1 xs0) x2 := by
  unfold out2_C4
  rw [View.read_writes_eq_canon _ _ _ (cover2_C4 c i arg2 harg2 arg3 harg3 arg4 harg4 arg5 harg5 arg6 harg6 arg7 harg7 hc0 hc1 x0 x1 x2 xs0)]
  unfold kernelRun2_C
  dsimp only
  sl_unfold_words
  rw [View.canon_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

/-! ## Propagation step 4 -/

/-- First block of the contracted axis: the accumulator is cleared, read back, and the first product added. -/
theorem sout4_A_eq (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond4_0 i) (hc1 : ¬cond4_1 i) (x0 : Vec F S1024x1024 .bf16) (x1 x2 : Vec F S1024x256 .f32) :
    sout4_A c i arg2 harg2 arg3 harg3 arg4 harg4 arg5 harg5 arg6 harg6 arg7 harg7 hc0 hc1 x0 x1 x2 = k4_pay2 x0 x1 k4_pay1 := by
  unfold sout4_A
  rw [View.read_writes_eq_canon _ _ _ (scover4_A c i arg2 harg2 arg3 harg3 arg4 harg4 arg5 harg5 arg6 harg6 arg7 harg7 hc0 hc1 x0 x1 x2)]
  unfold kernelRun4_A
  dsimp only
  sl_unfold_words
  rw [View.canon_cons_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

/-- A middle block: the product is added to what the accumulator held. -/
theorem sout4_B_eq (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : ¬cond4_1 i) (x0 : Vec F S1024x1024 .bf16) (x1 x2 xs0 : Vec F S1024x256 .f32) :
    sout4_B c i arg2 harg2 arg3 harg3 arg4 harg4 arg5 harg5 arg6 harg6 arg7 harg7 hc0 hc1 x0 x1 x2 xs0 = k4_pay2 x0 x1 xs0 := by
  unfold sout4_B
  rw [View.read_writes_eq_canon _ _ _ (scover4_B c i arg2 harg2 arg3 harg3 arg4 harg4 arg5 harg5 arg6 harg6 arg7 harg7 hc0 hc1 x0 x1 x2 xs0)]
  unfold kernelRun4_B
  dsimp only
  sl_unfold_words
  rw [View.canon_unit_zero (S := S1024x256) hz]
  simp only [View.readAt_eq_ld, harg2.read_unread, harg3.read_unread, harg4.read_unread, harg7.read_unread,
    View.ld_unit_zero (S := S1024x256) hz, View.ld_unit_zero (S := S1024x1024) hz]

/-- The last block: the accumulator after the last product; … -/
theorem sout4_C_eq (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 xs0 : Vec F S1024x256 .f32) :
    sout4_C c i arg2 harg2 arg3 harg3 arg4 harg4 arg5 harg5 arg6 harg6 arg7 harg7 hc0 hc1 x0 x1 x2 xs0 = k4_pay2 x0 x1 xs0 := by
  unfold sout4_C
  rw [View.read_writes_eq_canon _ _ _ (scover4_C c i arg2 harg2 arg3 harg3 arg4 harg4 arg5 harg5 arg6 harg6 arg7 harg7 hc0 hc1 x0 x1 x2 xs0)]
  unfold kernelRun4_C
  dsimp only
  sl_unfold_words
  rw [View.canon_unit_zero (S := S1024x256) hz]
  simp only [View.readAt_eq_ld, harg2.read_unread, harg3.read_unread, harg4.read_unread, harg7.read_unread,
    View.ld_unit_zero (S := S1024x256) hz, View.ld_unit_zero (S := S1024x1024) hz]

/-- … the first result block, the accumulator read back and stored as it stands; … -/
theorem out4_C3_eq (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 xs0 : Vec F S1024x256 .f32) :
    out4_C3 c i arg2 harg2 arg3 harg3 arg4 harg4 arg5 harg5 arg6 harg6 arg7 harg7 hc0 hc1 x0 x1 x2 xs0 = k4_pay2 x0 x1 xs0 := by
  unfold out4_C3
  rw [View.read_writes_eq_canon _ _ _ (cover4_C3 c i arg2 harg2 arg3 harg3 arg4 harg4 arg5 harg5 arg6 harg6 arg7 harg7 hc0 hc1 x0 x1 x2 xs0)]
  unfold kernelRun4_C
  dsimp only
  sl_unfold_words
  rw [View.canon_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

/-- … and the second, the epilogue of the read-back accumulator and the running total. -/
theorem out4_C4_eq (c : Dev nD) (i : grid4.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond4_0 i) (hc1 : cond4_1 i) (x0 : Vec F S1024x1024 .bf16) (x1 x2 xs0 : Vec F S1024x256 .f32) :
    out4_C4 c i arg2 harg2 arg3 harg3 arg4 harg4 arg5 harg5 arg6 harg6 arg7 harg7 hc0 hc1 x0 x1 x2 xs0 = k4_pay3 (k4_pay2 x0 x1 xs0) x2 := by
  unfold out4_C4
  rw [View.read_writes_eq_canon _ _ _ (cover4_C4 c i arg2 harg2 arg3 harg3 arg4 harg4 arg5 harg5 arg6 harg6 arg7 harg7 hc0 hc1 x0 x1 x2 xs0)]
  unfold kernelRun4_C
  dsimp only
  sl_unfold_words
  rw [View.canon_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

/-! ## Propagation step 6 -/

/-- First block of the contracted axis: the accumulator is cleared, read back, and the first product added. -/
theorem sout6_A_eq (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : cond6_0 i) (hc1 : ¬cond6_1 i) (x0 : Vec F S1024x1024 .bf16) (x1 x2 : Vec F S1024x256 .f32) :
    sout6_A c i arg2 harg2 arg3 harg3 arg4 harg4 arg5 harg5 arg6 harg6 arg7 harg7 hc0 hc1 x0 x1 x2 = k6_pay2 x0 x1 k6_pay1 := by
  unfold sout6_A
  rw [View.read_writes_eq_canon _ _ _ (scover6_A c i arg2 harg2 arg3 harg3 arg4 harg4 arg5 harg5 arg6 harg6 arg7 harg7 hc0 hc1 x0 x1 x2)]
  unfold kernelRun6_A
  dsimp only
  sl_unfold_words
  rw [View.canon_cons_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

/-- A middle block: the product is added to what the accumulator held. -/
theorem sout6_B_eq (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : ¬cond6_1 i) (x0 : Vec F S1024x1024 .bf16) (x1 x2 xs0 : Vec F S1024x256 .f32) :
    sout6_B c i arg2 harg2 arg3 harg3 arg4 harg4 arg5 harg5 arg6 harg6 arg7 harg7 hc0 hc1 x0 x1 x2 xs0 = k6_pay2 x0 x1 xs0 := by
  unfold sout6_B
  rw [View.read_writes_eq_canon _ _ _ (scover6_B c i arg2 harg2 arg3 harg3 arg4 harg4 arg5 harg5 arg6 harg6 arg7 harg7 hc0 hc1 x0 x1 x2 xs0)]
  unfold kernelRun6_B
  dsimp only
  sl_unfold_words
  rw [View.canon_unit_zero (S := S1024x256) hz]
  simp only [View.readAt_eq_ld, harg2.read_unread, harg3.read_unread, harg4.read_unread, harg7.read_unread,
    View.ld_unit_zero (S := S1024x256) hz, View.ld_unit_zero (S := S1024x1024) hz]

/-- The last block: the accumulator after the last product; … -/
theorem sout6_C_eq (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 xs0 : Vec F S1024x256 .f32) :
    sout6_C c i arg2 harg2 arg3 harg3 arg4 harg4 arg5 harg5 arg6 harg6 arg7 harg7 hc0 hc1 x0 x1 x2 xs0 = k6_pay2 x0 x1 xs0 := by
  unfold sout6_C
  rw [View.read_writes_eq_canon _ _ _ (scover6_C c i arg2 harg2 arg3 harg3 arg4 harg4 arg5 harg5 arg6 harg6 arg7 harg7 hc0 hc1 x0 x1 x2 xs0)]
  unfold kernelRun6_C
  dsimp only
  sl_unfold_words
  rw [View.canon_unit_zero (S := S1024x256) hz]
  simp only [View.readAt_eq_ld, harg2.read_unread, harg3.read_unread, harg4.read_unread, harg7.read_unread,
    View.ld_unit_zero (S := S1024x256) hz, View.ld_unit_zero (S := S1024x1024) hz]

/-- … the first result block, the accumulator read back and stored as it stands; … -/
theorem out6_C3_eq (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 xs0 : Vec F S1024x256 .f32) :
    out6_C3 c i arg2 harg2 arg3 harg3 arg4 harg4 arg5 harg5 arg6 harg6 arg7 harg7 hc0 hc1 x0 x1 x2 xs0 = k6_pay2 x0 x1 xs0 := by
  unfold out6_C3
  rw [View.read_writes_eq_canon _ _ _ (cover6_C3 c i arg2 harg2 arg3 harg3 arg4 harg4 arg5 harg5 arg6 harg6 arg7 harg7 hc0 hc1 x0 x1 x2 xs0)]
  unfold kernelRun6_C
  dsimp only
  sl_unfold_words
  rw [View.canon_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

/-- … and the second, the epilogue of the read-back accumulator and the running total. -/
theorem out6_C4_eq (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (hc0 : ¬cond6_0 i) (hc1 : cond6_1 i) (x0 : Vec F S1024x1024 .bf16) (x1 x2 xs0 : Vec F S1024x256 .f32) :
    out6_C4 c i arg2 harg2 arg3 harg3 arg4 harg4 arg5 harg5 arg6 harg6 arg7 harg7 hc0 hc1 x0 x1 x2 xs0 = k6_pay3 (k6_pay2 x0 x1 xs0) x2 := by
  unfold out6_C4
  rw [View.read_writes_eq_canon _ _ _ (cover6_C4 c i arg2 harg2 arg3 harg3 arg4 harg4 arg5 harg5 arg6 harg6 arg7 harg7 hc0 hc1 x0 x1 x2 xs0)]
  unfold kernelRun6_C
  dsimp only
  sl_unfold_words
  rw [View.canon_unit_zero (S := S1024x256) hz, View.readCov_unit_zero (S := S1024x256) _ hz]
  simp only [View.readAt_eq_ld, harg2.read_unread, harg3.read_unread, harg4.read_unread, harg7.read_unread,
    View.ld_unit_zero (S := S1024x256) hz, View.ld_unit_zero (S := S1024x1024) hz]

end Cert.PieceI

end
-- ==== Proof.ValMatmul0.lean ====
import proofs.«136557_j13331578487504_1_alg».proof.Proof.MatmulI0
import proofs.«136557_j13331578487504_1_alg».proof.Proof.PayIdx
import proofs.«136557_j13331578487504_1_alg».proof.Proof.PieceI
import proofs.«136557_j13331578487504_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # The block product's output array: D·A

A point with k = 3 writes back the accumulator after four steps from zero: the sum over the four blocks of the contracted
axis of the blocks' products, which is the whole sum over that axis. -/

theorem idx_facts0 : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The product of two 1024×1024 blocks at entry (p, q). -/
def blockProd0 (a b : Vec Ideal S1024x1024 .f32) (p q : Fin 1024) : EReal := ∑ k : Fin 1024, a (ix2 p k) * b (ix2 k q)
/-- The product of the two input blocks of the point at position `n`. -/
def bp0 (c : Dev nD) (n : ℕ) (hn : n < cfg0.N) (p q : Fin 1024) : EReal :=
  blockProd0 (iblk0 V c 0 ⟨n, hn⟩) (iblk0 V c 1 ⟨n, hn⟩) p q

theorem scr0_first (c : Dev nD) (n : ℕ) (hn : n < cfg0.N) (h0 : n % 4 = 0) (p q : Fin 1024) :
    (outsAt0 V c n hn).2 (ix2 p q) = bp0 V c n hn p q := by
  have h1 : ¬ n % 4 = 3 := by omega
  rw [outsAt0_A V c ⟨n, hn⟩ h0 h1]
  dsimp only
  rw [Cert.PieceI.sout0_A_eq]
  refine (Cert.PayIdx.acc0 _ _ _ p q).trans ?_
  rw [Cert.PayIdx.zero0, zero_add]; rfl

theorem scr0_step (c : Dev nD) (n : ℕ) (hn : n < cfg0.N) (h0 : ¬ n % 4 = 0) (p q : Fin 1024) :
    (outsAt0 V c n hn).2 (ix2 p q) = (outsAt0 V c (n - 1) (Nat.lt_of_le_of_lt (Nat.sub_le _ _) hn)).2 (ix2 p q) + bp0 V c n hn p q := by
  by_cases h1 : n % 4 = 3
  · rw [outsAt0_C V c ⟨n, hn⟩ h0 h1]
    dsimp only
    rw [Cert.PieceI.sout0_C_eq]
    exact Cert.PayIdx.acc0 _ _ _ p q
  · rw [outsAt0_B V c ⟨n, hn⟩ h0 h1]
    dsimp only
    rw [Cert.PieceI.sout0_B_eq]
    exact Cert.PayIdx.acc0 _ _ _ p q

theorem out0_last (c : Dev nD) (n : ℕ) (hn : n < cfg0.N) (h1 : n % 4 = 3) (p q : Fin 1024) :
    (outsAt0 V c n hn).1 (ix2 p q) = (outsAt0 V c n hn).2 (ix2 p q) := by
  have h0 : ¬ n % 4 = 0 := by omega
  rw [outsAt0_C V c ⟨n, hn⟩ h0 h1]
  dsimp only
  rw [Cert.PieceI.out0_C_eq, Cert.PieceI.sout0_C_eq]
  exact Cert.PayIdx.store0 _ p q

/-- The share of entry `i` of D·A that the `b`-th block of the contracted axis contributes. -/
def shareDA (D A : Cert.Spec.M4096x4096) (i : (⟨2, ![4096, 4096]⟩ : Shape).Idx) (b : Fin 4) : EReal :=
  ∑ k : Fin 1024, D (ix2 (i 0) ⟨b.val * 1024 + k.val, by omega⟩) * A (ix2 ⟨b.val * 1024 + k.val, by omega⟩ (i 1))

/-- The whole contraction is the sum of the four blocks' shares. -/
theorem mulDA_shares (D A : Cert.Spec.M4096x4096) (i : (⟨2, ![4096, 4096]⟩ : Shape).Idx) :
    Cert.Spec.mulDA D A i = shareDA D A i 0 + shareDA D A i 1 + shareDA D A i 2 + shareDA D A i 3 := by
  unfold Cert.Spec.mulDA shareDA
  rw [Cert.PayIdx.tile4, Fin.sum_univ_four]

/-- The block product of a point `s` in the same output block as `t`, on the `b`-th block of the contracted axis, is that
    block's share of entry (p, q) of block `t` of D·A. -/
theorem bp0_eq (c : Dev nD) (t s : Fin cfg0.N) (b : Fin 4) (hi : s.val / 16 = t.val / 16) (hj : s.val / 4 % 4 = t.val / 4 % 4)
    (hk : s.val % 4 = b.val) (p q : Fin 1024) :
    bp0 V c s.val s.isLt p q
      = shareDA (V c (Pipeline.arrRef spec0 0)) (V c (Pipeline.arrRef spec0 1)) (((cfg0.win 2).blk t).view.emb (ix2 p q)) b := by
  obtain ⟨a0, a1, a2, a3, a4, a5⟩ := idx_facts0 s
  obtain ⟨d0, d1, d2, d3, d4, d5⟩ := idx_facts0 t
  unfold bp0 blockProd0 shareDA
  refine Finset.sum_congr rfl fun k _ => ?_
  have hk' : k.val < 1024 := k.isLt
  have hp : p.val < 1024 := p.isLt
  have hq : q.val < 1024 := q.isLt
  congr 1
  · show V c (Pipeline.arrRef spec0 0) (((cfg0.win 0).blk s).view.emb (ix2 p k)) = _
    congr 1; funext a; apply Fin.ext
    match a with
    | ⟨0, _⟩ => show win0_0.index s (0 : Fin 2) * 1024 + 1 * p.val = win0_2.index t (0 : Fin 2) * 1024 + 1 * p.val; omega
    | ⟨1, _⟩ => show win0_0.index s (1 : Fin 2) * 1024 + 1 * k.val = b.val * 1024 + k.val; omega
  · show V c (Pipeline.arrRef spec0 1) (((cfg0.win 1).blk s).view.emb (ix2 k q)) = _
    congr 1; funext a; apply Fin.ext
    match a with
    | ⟨0, _⟩ => show win0_1.index s (0 : Fin 2) * 1024 + 1 * k.val = b.val * 1024 + k.val; omega
    | ⟨1, _⟩ => show win0_1.index s (1 : Fin 2) * 1024 + 1 * q.val = win0_2.index t (1 : Fin 2) * 1024 + 1 * q.val; omega

/-- What a point with k = 3 writes back is its block of D·A. -/
theorem flushed0_eq (c : Dev nD) (t : Fin cfg0.N) (hf : (cfg0.win 2).flush t = true) :
    (dat0 V c).flushed 2 t = ((cfg0.win 2).blk t).view.read (Elt Ideal)
      (Cert.Spec.mulDA (V c (Pipeline.arrRef spec0 0)) (V c (Pipeline.arrRef spec0 1))) := by
  have h3 : t.val % 4 = 3 := (flush0_2 t).mp hf
  have hN : cfg0.N = 64 := N_0
  obtain ⟨tv, ht⟩ := t
  dsimp only at h3
  show (cfg0.win 2).cut (grid0.coords ⟨tv, ht⟩) ((dat0 V c).after 2 ⟨tv, ht⟩) = _
  rw [after0_2]
  funext j
  obtain ⟨p, q, rfl⟩ : ∃ (p : Fin 1024) (q : Fin 1024), j = ix2 p q := ⟨j 0, j 1, eq_ix2 j⟩
  show (outsAt0 V c tv ht).1 (ix2 p q) = Cert.Spec.mulDA _ _ (((cfg0.win 2).blk ⟨tv, ht⟩).view.emb (ix2 p q))
  rw [out0_last V c tv ht h3, scr0_step V c tv ht (by omega), scr0_step V c (tv - 1) (by omega) (by omega),
    scr0_step V c (tv - 1 - 1) (by omega) (by omega), scr0_first V c (tv - 1 - 1 - 1) (by omega) (by omega)]
  rw [bp0_eq V c ⟨tv, ht⟩ ⟨tv - 1 - 1 - 1, by omega⟩ 0 (by dsimp only; omega) (by dsimp only; omega) (by dsimp only; omega) p q,
    bp0_eq V c ⟨tv, ht⟩ ⟨tv - 1 - 1, by omega⟩ 1 (by dsimp only; omega) (by dsimp only; omega) (by dsimp only; omega) p q,
    bp0_eq V c ⟨tv, ht⟩ ⟨tv - 1, by omega⟩ 2 (by dsimp only; omega) (by dsimp only; omega) (by dsimp only; omega) p q,
    bp0_eq V c ⟨tv, ht⟩ ⟨tv, ht⟩ 3 rfl rfl (by dsimp only; omega) p q]
  exact (mulDA_shares _ _ _).symm

theorem mem_blk0 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v12).slice (win0_2.rect t)).set ↔ _
  rw [View.set_slice_whole, Rect.mem_set_unit]
  exact Iff.rfl

/-- Entry (r, s) lies in the block of the point (r / 1024, s / 1024, 3). -/
theorem cover0 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 64 := N_0
  have hlt : (i 0).val / 1024 * 16 + (i 1).val / 1024 * 4 + 3 < cfg0.N := by omega
  refine ⟨⟨(i 0).val / 1024 * 16 + (i 1).val / 1024 * 4 + 3, hlt⟩, (flush0_2 _).mpr (by dsimp only; omega), ?_⟩
  rw [mem_blk0]
  obtain ⟨e0, e1, e2, e3, e4, e5⟩ := idx_facts0 ⟨(i 0).val / 1024 * 16 + (i 1).val / 1024 * 4 + 3, hlt⟩
  dsimp only at e4 e5
  intro a
  match a with
  | ⟨0, _⟩ => show win0_2.index _ (0 : Fin 2) * 1024 ≤ (i 0).val ∧ (i 0).val < win0_2.index _ (0 : Fin 2) * 1024 + 1024; omega
  | ⟨1, _⟩ => show win0_2.index _ (1 : Fin 2) * 1024 ≤ (i 1).val ∧ (i 1).val < win0_2.index _ (1 : Fin 2) * 1024 + 1024; omega

/-- THE OUTPUT ARRAY after the region: D·A. -/
theorem final0 (c : Dev nD) :
    (dat0 V c).arrAt 2 cfg0.N = Cert.Spec.mulDA (V c (Pipeline.arrRef spec0 0)) (V c (Pipeline.arrRef spec0 1)) :=
  (dat0 V c).arrAt_eq_of_cover 2 _ (fun t hf => flushed0_eq V c t hf) (cover0)

end Cert.KernelIdeal.Gen

end
-- ==== Proof.ValDense1.lean ====
import proofs.«136557_j13331578487504_1_alg».proof.Proof.DenseI1
import proofs.«136557_j13331578487504_1_alg».proof.Proof.PayIdx
import proofs.«136557_j13331578487504_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # The dense layer's output array: every row block of X·W, so the whole product -/

theorem hzD1 : (![0, 0] : Fin 2 → Nat) = fun _ => 0 := funext fun a => by fin_cases a <;> rfl

/-- The printed index maps over the grid: the input's row block is the output's, the weight matrix is one block. -/
theorem idx_facts1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 ∧ win1_2.index t (0 : Fin 2) = t.val :=
  (by decide +kernel : ∀ t : Fin grid1.N, _)

/-- What point `t` writes back is block `t` of the product of the two arrays the region finds. -/
theorem flushed1_eq (c : Dev nD) (t : Fin cfg1.N) :
    (dat1 V c).flushed 2 t = ((cfg1.win 2).blk t).view.read (Elt Ideal)
      (Cert.Spec.mulW (V c (Pipeline.arrRef spec1 0)) (V c (Pipeline.arrRef spec1 1))) := by
  show (cfg1.win 2).cut (grid1.coords t) ((dat1 V c).after 2 t) = _
  rw [after1_2]
  unfold out1_2
  rw [View.canon_unit_zero hzD1]
  simp only [View.ld_unit_zero (S := S1024x256) hzD1, View.ld_unit_zero (S := S256x256) hzD1]
  obtain ⟨e0, e1, e2, e3, e4, e5⟩ := idx_facts1 t
  funext j
  obtain ⟨p, q, rfl⟩ : ∃ (p : Fin 1024) (q : Fin 256), j = ix2 p q := ⟨j 0, j 1, eq_ix2 j⟩
  refine (Cert.PayIdx.dense1 _ _ p q).trans ?_
  show _ = Cert.Spec.mulW _ _ (((cfg1.win 2).blk t).view.emb (ix2 p q))
  unfold Cert.Spec.mulW
  refine Finset.sum_congr rfl fun k _ => ?_
  congr 1
  · show V c (Pipeline.arrRef spec1 0) (((cfg1.win 0).blk t).view.emb (ix2 p k)) = _
    congr 1; funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 256 + 1 * k.val = k.val; omega
  · show V c (Pipeline.arrRef spec1 1) (((cfg1.win 1).blk t).view.emb (ix2 k q)) = _
    congr 1; funext a; apply Fin.ext
    match a with
    | ⟨0, _⟩ => show win1_1.index t (0 : Fin 2) * 256 + 1 * k.val = k.val; omega
    | ⟨1, _⟩ => show win1_1.index t (1 : Fin 2) * 256 + 1 * q.val = win1_2.index t (1 : Fin 2) * 256 + 1 * q.val; omega

theorem mem_blk1 (t : Fin cfg1.N) (i : S4096x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v16).slice (win1_2.rect t)).set ↔ _
  rw [View.set_slice_whole, Rect.mem_set_unit]
  exact Iff.rfl

/-- Row r lies in the block of point r / 1024. -/
theorem cover1 (i : S4096x256.Idx) : ∃ t : Fin cfg1.N, (cfg1.win 2).flush t = true ∧ i ∈ ((cfg1.win 2).blk t).view.set := by
  have hi0 : (i 0).val < 4096 := (i 0).isLt
  have hi1 : (i 1).val < 256 := (i 1).isLt
  refine ⟨⟨(i 0).val / 1024, by rw [show cfg1.N = 4 from N_1]; omega⟩, flush1_2 _, ?_⟩
  rw [mem_blk1]
  obtain ⟨e0, e1, e2, e3, e4, e5⟩ := idx_facts1 ⟨(i 0).val / 1024, by rw [show cfg1.N = 4 from N_1]; omega⟩
  intro a
  match a with
  | ⟨0, _⟩ => show win1_2.index _ (0 : Fin 2) * 1024 ≤ (i 0).val ∧ (i 0).val < win1_2.index _ (0 : Fin 2) * 1024 + 1024; rw [e5]; dsimp only; omega
  | ⟨1, _⟩ => show win1_2.index _ (1 : Fin 2) * 256 ≤ (i 1).val ∧ (i 1).val < win1_2.index _ (1 : Fin 2) * 256 + 256; rw [e4]; omega

/-- THE OUTPUT ARRAY after the region: the product of the two arrays it found. -/
theorem final1 (c : Dev nD) :
    (dat1 V c).arrAt 2 cfg1.N = Cert.Spec.mulW (V c (Pipeline.arrRef spec1 0)) (V c (Pipeline.arrRef spec1 1)) :=
  (dat1 V c).arrAt_eq_of_cover 2 _ (fun t _ => flushed1_eq V c t) (cover1)

end Cert.KernelIdeal.Gen

end
-- ==== Proof.ValDense3.lean ====
import proofs.«136557_j13331578487504_1_alg».proof.Proof.DenseI3
import proofs.«136557_j13331578487504_1_alg».proof.Proof.PayIdx
import proofs.«136557_j13331578487504_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # The dense layer's output array: every row block of X·W, so the whole product -/

theorem hzD3 : (![0, 0] : Fin 2 → Nat) = fun _ => 0 := funext fun a => by fin_cases a <;> rfl

/-- The printed index maps over the grid: the input's row block is the output's, the weight matrix is one block. -/
theorem idx_facts3 : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0 ∧ win3_2.index t (1 : Fin 2) = 0 ∧ win3_2.index t (0 : Fin 2) = t.val :=
  (by decide +kernel : ∀ t : Fin grid3.N, _)

/-- What point `t` writes back is block `t` of the product of the two arrays the region finds. -/
theorem flushed3_eq (c : Dev nD) (t : Fin cfg3.N) :
    (dat3 V c).flushed 2 t = ((cfg3.win 2).blk t).view.read (Elt Ideal)
      (Cert.Spec.mulW (V c (Pipeline.arrRef spec3 0)) (V c (Pipeline.arrRef spec3 1))) := by
  show (cfg3.win 2).cut (grid3.coords t) ((dat3 V c).after 2 t) = _
  rw [after3_2]
  unfold out3_2
  rw [View.canon_unit_zero hzD3]
  simp only [View.ld_unit_zero (S := S1024x256) hzD3, View.ld_unit_zero (S := S256x256) hzD3]
  obtain ⟨e0, e1, e2, e3, e4, e5⟩ := idx_facts3 t
  funext j
  obtain ⟨p, q, rfl⟩ : ∃ (p : Fin 1024) (q : Fin 256), j = ix2 p q := ⟨j 0, j 1, eq_ix2 j⟩
  refine (Cert.PayIdx.dense3 _ _ p q).trans ?_
  show _ = Cert.Spec.mulW _ _ (((cfg3.win 2).blk t).view.emb (ix2 p q))
  unfold Cert.Spec.mulW
  refine Finset.sum_congr rfl fun k _ => ?_
  congr 1
  · show V c (Pipeline.arrRef spec3 0) (((cfg3.win 0).blk t).view.emb (ix2 p k)) = _
    congr 1; funext a; apply Fin.ext
    match a with
    | ⟨0, _⟩ => show win3_0.index t (0 : Fin 2) * 1024 + 1 * p.val = win3_2.index t (0 : Fin 2) * 1024 + 1 * p.val; omega
    | ⟨1, _⟩ => show win3_0.index t (1 : Fin 2) * 256 + 1 * k.val = k.val; omega
  · show V c (Pipeline.arrRef spec3 1) (((cfg3.win 1).blk t).view.emb (ix2 k q)) = _
    congr 1; funext a; apply Fin.ext
    match a with
    | ⟨0, _⟩ => show win3_1.index t (0 : Fin 2) * 256 + 1 * k.val = k.val; omega
    | ⟨1, _⟩ => show win3_1.index t (1 : Fin 2) * 256 + 1 * q.val = win3_2.index t (1 : Fin 2) * 256 + 1 * q.val; omega

theorem mem_blk3 (t : Fin cfg3.N) (i : S4096x256.Idx) :
    i ∈ ((cfg3.win 2).blk t).view.set ↔ ∀ a : Fin 2, win3_2.index t a * S1024x256.size a ≤ (i a).val ∧ (i a).val < win3_2.index t a * S1024x256.size a + S1024x256.size a := by
  show i ∈ ((View.whole main_v21).slice (win3_2.rect t)).set ↔ _
  rw [View.set_slice_whole, Rect.mem_set_unit]
  exact Iff.rfl

/-- Row r lies in the block of point r / 1024. -/
theorem cover3 (i : S4096x256.Idx) : ∃ t : Fin cfg3.N, (cfg3.win 2).flush t = true ∧ i ∈ ((cfg3.win 2).blk t).view.set := by
  have hi0 : (i 0).val < 4096 := (i 0).isLt
  have hi1 : (i 1).val < 256 := (i 1).isLt
  refine ⟨⟨(i 0).val / 1024, by rw [show cfg3.N = 4 from N_3]; omega⟩, flush3_2 _, ?_⟩
  rw [mem_blk3]
  obtain ⟨e0, e1, e2, e3, e4, e5⟩ := idx_facts3 ⟨(i 0).val / 1024, by rw [show cfg3.N = 4 from N_3]; omega⟩
  intro a
  match a with
  | ⟨0, _⟩ => show win3_2.index _ (0 : Fin 2) * 1024 ≤ (i 0).val ∧ (i 0).val < win3_2.index _ (0 : Fin 2) * 1024 + 1024; rw [e5]; dsimp only; omega
  | ⟨1, _⟩ => show win3_2.index _ (1 : Fin 2) * 256 ≤ (i 1).val ∧ (i 1).val < win3_2.index _ (1 : Fin 2) * 256 + 256; rw [e4]; omega

/-- THE OUTPUT ARRAY after the region: the product of the two arrays it found. -/
theorem final3 (c : Dev nD) :
    (dat3 V c).arrAt 2 cfg3.N = Cert.Spec.mulW (V c (Pipeline.arrRef spec3 0)) (V c (Pipeline.arrRef spec3 1)) :=
  (dat3 V c).arrAt_eq_of_cover 2 _ (fun t _ => flushed3_eq V c t) (cover3)

end Cert.KernelIdeal.Gen

end
-- ==== Proof.ValDense5.lean ====
import proofs.«136557_j13331578487504_1_alg».proof.Proof.DenseI5
import proofs.«136557_j13331578487504_1_alg».proof.Proof.PayIdx
import proofs.«136557_j13331578487504_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # The dense layer's output array: every row block of X·W, so the whole product -/

theorem hzD5 : (![0, 0] : Fin 2 → Nat) = fun _ => 0 := funext fun a => by fin_cases a <;> rfl

/-- The printed index maps over the grid: the input's row block is the output's, the weight matrix is one block. -/
theorem idx_facts5 : ∀ t : Fin cfg5.N, win5_0.index t (0 : Fin 2) = win5_2.index t (0 : Fin 2) ∧ win5_0.index t (1 : Fin 2) = 0
    ∧ win5_1.index t (0 : Fin 2) = 0 ∧ win5_1.index t (1 : Fin 2) = 0 ∧ win5_2.index t (1 : Fin 2) = 0 ∧ win5_2.index t (0 : Fin 2) = t.val :=
  (by decide +kernel : ∀ t : Fin grid5.N, _)

/-- What point `t` writes back is block `t` of the product of the two arrays the region finds. -/
theorem flushed5_eq (c : Dev nD) (t : Fin cfg5.N) :
    (dat5 V c).flushed 2 t = ((cfg5.win 2).blk t).view.read (Elt Ideal)
      (Cert.Spec.mulW (V c (Pipeline.arrRef spec5 0)) (V c (Pipeline.arrRef spec5 1))) := by
  show (cfg5.win 2).cut (grid5.coords t) ((dat5 V c).after 2 t) = _
  rw [after5_2]
  unfold out5_2
  rw [View.canon_unit_zero hzD5]
  simp only [View.ld_unit_zero (S := S1024x256) hzD5, View.ld_unit_zero (S := S256x256) hzD5]
  obtain ⟨e0, e1, e2, e3, e4, e5⟩ := idx_facts5 t
  funext j
  obtain ⟨p, q, rfl⟩ : ∃ (p : Fin 1024) (q : Fin 256), j = ix2 p q := ⟨j 0, j 1, eq_ix2 j⟩
  refine (Cert.PayIdx.dense5 _ _ p q).trans ?_
  show _ = Cert.Spec.mulW _ _ (((cfg5.win 2).blk t).view.emb (ix2 p q))
  unfold Cert.Spec.mulW
  refine Finset.sum_congr rfl fun k _ => ?_
  congr 1
  · show V c (Pipeline.arrRef spec5 0) (((cfg5.win 0).blk t).view.emb (ix2 p k)) = _
    congr 1; funext a; apply Fin.ext
    match a with
    | ⟨0, _⟩ => show win5_0.index t (0 : Fin 2) * 1024 + 1 * p.val = win5_2.index t (0 : Fin 2) * 1024 + 1 * p.val; omega
    | ⟨1, _⟩ => show win5_0.index t (1 : Fin 2) * 256 + 1 * k.val = k.val; omega
  · show V c (Pipeline.arrRef spec5 1) (((cfg5.win 1).blk t).view.emb (ix2 k q)) = _
    congr 1; funext a; apply Fin.ext
    match a with
    | ⟨0, _⟩ => show win5_1.index t (0 : Fin 2) * 256 + 1 * k.val = k.val; omega
    | ⟨1, _⟩ => show win5_1.index t (1 : Fin 2) * 256 + 1 * q.val = win5_2.index t (1 : Fin 2) * 256 + 1 * q.val; omega

theorem mem_blk5 (t : Fin cfg5.N) (i : S4096x256.Idx) :
    i ∈ ((cfg5.win 2).blk t).view.set ↔ ∀ a : Fin 2, win5_2.index t a * S1024x256.size a ≤ (i a).val ∧ (i a).val < win5_2.index t a * S1024x256.size a + S1024x256.size a := by
  show i ∈ ((View.whole main_v26).slice (win5_2.rect t)).set ↔ _
  rw [View.set_slice_whole, Rect.mem_set_unit]
  exact Iff.rfl

/-- Row r lies in the block of point r / 1024. -/
theorem cover5 (i : S4096x256.Idx) : ∃ t : Fin cfg5.N, (cfg5.win 2).flush t = true ∧ i ∈ ((cfg5.win 2).blk t).view.set := by
  have hi0 : (i 0).val < 4096 := (i 0).isLt
  have hi1 : (i 1).val < 256 := (i 1).isLt
  refine ⟨⟨(i 0).val / 1024, by rw [show cfg5.N = 4 from N_5]; omega⟩, flush5_2 _, ?_⟩
  rw [mem_blk5]
  obtain ⟨e0, e1, e2, e3, e4, e5⟩ := idx_facts5 ⟨(i 0).val / 1024, by rw [show cfg5.N = 4 from N_5]; omega⟩
  intro a
  match a with
  | ⟨0, _⟩ => show win5_2.index _ (0 : Fin 2) * 1024 ≤ (i 0).val ∧ (i 0).val < win5_2.index _ (0 : Fin 2) * 1024 + 1024; rw [e5]; dsimp only; omega
  | ⟨1, _⟩ => show win5_2.index _ (1 : Fin 2) * 256 ≤ (i 1).val ∧ (i 1).val < win5_2.index _ (1 : Fin 2) * 256 + 256; rw [e4]; omega

/-- THE OUTPUT ARRAY after the region: the product of the two arrays it found. -/
theorem final5 (c : Dev nD) :
    (dat5 V c).arrAt 2 cfg5.N = Cert.Spec.mulW (V c (Pipeline.arrRef spec5 0)) (V c (Pipeline.arrRef spec5 1)) :=
  (dat5 V c).arrAt_eq_of_cover 2 _ (fun t _ => flushed5_eq V c t) (cover5)

end Cert.KernelIdeal.Gen

end
-- ==== Proof.ValProp2.lean ====
import proofs.«136557_j13331578487504_1_alg».proof.Proof.PropI2
import proofs.«136557_j13331578487504_1_alg».proof.Proof.PayIdx
import proofs.«136557_j13331578487504_1_alg».proof.Proof.PieceI
import proofs.«136557_j13331578487504_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Propagation step 2: the two output arrays, P·Y and the running total plus the normalized rows of P·Y

The grid is 4×4, the contracted axis innermost: point t = 4·i + k works on row block i and block k of the contracted
axis. At k = 3 the accumulator holds the sum over the four block pairs of their products, which is the whole sum over
the contracted axis; it is written back as row block i of the first output. A block holds whole rows, so the norm of a
row of the block is the norm of that row of the array, and the second output's row block i is the running total's plus
the rows of the first divided by the larger of their norm and ε. -/

/-- The printed index maps over the grid. -/
theorem idx_facts2 : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0
    ∧ win2_4.index t (0 : Fin 2) = t.val / 4 ∧ win2_4.index t (1 : Fin 2) = 0 :=
  (by decide +kernel : ∀ t : Fin grid2.N, _)

/-- The product of a 1024×1024 block with a 1024×256 block, at entry (p, q). -/
def blockProd2 (a : Vec Ideal S1024x1024 .bf16) (y : Vec Ideal S1024x256 .f32) (p : Fin 1024) (q : Fin 256) : EReal :=
  ∑ k : Fin 1024, a (ix2 p k) * y (ix2 k q)
/-- The product of the two input blocks of the point at position `n`. -/
def bp2 (c : Dev nD) (n : ℕ) (hn : n < cfg2.N) (p : Fin 1024) (q : Fin 256) : EReal :=
  blockProd2 (iblk2 V c 0 ⟨n, hn⟩) (iblk2 V c 1 ⟨n, hn⟩) p q
/-- The epilogue's value at entry (p, q) of a block: the running total plus the entry over the larger of its row's norm and ε. -/
def epiVal2 (accin z : Vec Ideal S1024x256 .f32) (p : Fin 1024) (q : Fin 256) : EReal :=
  accin (ix2 p q) + Ideal.div (z (ix2 p q)) (max (Ideal.sqrt (∑ k : Fin 256, z (ix2 p k) * z (ix2 p k))) Cert.Spec.eps)
/-- Block `j` of the contracted axis' share of entry (r, q) of P·Y. -/
def tileSum2 (P : Cert.Spec.M4096x4096) (Y : Cert.Spec.M4096x256) (r : Fin 4096) (q : Fin 256) (j : ℕ) (hj : j < 4) : EReal :=
  ∑ k : Fin 1024, P (ix2 r ⟨j * 1024 + k.val, by have := k.isLt; omega⟩) * Y (ix2 ⟨j * 1024 + k.val, by have := k.isLt; omega⟩ q)

/-- An entry of P·Y is the sum of its four blocks' shares. -/
theorem mulP_tiles2 (P : Cert.Spec.M4096x4096) (Y : Cert.Spec.M4096x256) (r : Fin 4096) (q : Fin 256) :
    Cert.Spec.mulP P Y (ix2 r q) = tileSum2 P Y r q 0 (by omega) + tileSum2 P Y r q 1 (by omega)
      + tileSum2 P Y r q 2 (by omega) + tileSum2 P Y r q 3 (by omega) := by
  unfold Cert.Spec.mulP tileSum2
  rw [Cert.PayIdx.tile4, Fin.sum_univ_four]
  rfl

/-! ## The accumulator, point by point -/

/-- At k = 0 the accumulator is the first block pair's product. -/
theorem scr2_first (c : Dev nD) (n : ℕ) (hn : n < cfg2.N) (h0 : n % 4 = 0) (p : Fin 1024) (q : Fin 256) :
    (outsAt2 V c n hn).2.2 (ix2 p q) = bp2 V c n hn p q := by
  have h1 : ¬ n % 4 = 3 := by omega
  rw [outsAt2_A V c ⟨n, hn⟩ h0 h1]
  dsimp only
  rw [Cert.PieceI.sout2_A_eq]
  refine (Cert.PayIdx.acc2 _ _ _ p q).trans ?_
  rw [Cert.PayIdx.zero2, zero_add]; rfl

/-- At k > 0 the point's block pair's product is added to it. -/
theorem scr2_step (c : Dev nD) (n : ℕ) (hn : n + 1 < cfg2.N) (h0 : ¬ (n + 1) % 4 = 0) (p : Fin 1024) (q : Fin 256) :
    (outsAt2 V c (n + 1) hn).2.2 (ix2 p q) = (outsAt2 V c n (Nat.lt_of_succ_lt hn)).2.2 (ix2 p q) + bp2 V c (n + 1) hn p q := by
  by_cases h1 : (n + 1) % 4 = 3
  · rw [outsAt2_C V c ⟨n + 1, hn⟩ h0 h1]
    dsimp only
    rw [Cert.PieceI.sout2_C_eq]
    exact Cert.PayIdx.acc2 _ _ _ p q
  · rw [outsAt2_B V c ⟨n + 1, hn⟩ h0 h1]
    dsimp only
    rw [Cert.PieceI.sout2_B_eq]
    exact Cert.PayIdx.acc2 _ _ _ p q

/-- At k = 3 the first result block is the accumulator … -/
theorem out2_last3 (c : Dev nD) (n : ℕ) (hn : n + 1 < cfg2.N) (h1 : (n + 1) % 4 = 3) (p : Fin 1024) (q : Fin 256) :
    (outsAt2 V c (n + 1) hn).1 (ix2 p q) = (outsAt2 V c (n + 1) hn).2.2 (ix2 p q) := by
  have h0 : ¬ (n + 1) % 4 = 0 := by omega
  rw [outsAt2_C V c ⟨n + 1, hn⟩ h0 h1]
  dsimp only
  rw [Cert.PieceI.out2_C3_eq, Cert.PieceI.sout2_C_eq]

/-- … and the second the epilogue of the accumulator and the running total's block. -/
theorem out2_last4 (c : Dev nD) (n : ℕ) (hn : n + 1 < cfg2.N) (h1 : (n + 1) % 4 = 3) (p : Fin 1024) (q : Fin 256) :
    (outsAt2 V c (n + 1) hn).2.1 (ix2 p q)
      = epiVal2 (iblk2 V c 2 ⟨n + 1, hn⟩) (outsAt2 V c (n + 1) hn).2.2 p q := by
  have h0 : ¬ (n + 1) % 4 = 0 := by omega
  rw [outsAt2_C V c ⟨n + 1, hn⟩ h0 h1]
  dsimp only
  rw [Cert.PieceI.out2_C4_eq, Cert.PieceI.sout2_C_eq]
  exact Cert.PayIdx.epi2 _ _ p q

/-! ## From blocks to the arrays -/

/-- The product of the block pair at position `u + j` of a row block's four is block `j`'s share of P·Y. -/
theorem bp2_eq (c : Dev nD) (u j : ℕ) (hj : j < 4) (hn : u + j < cfg2.N) (hu : u % 4 = 0) (p : Fin 1024) (q : Fin 256)
    (r : Fin 4096) (hr : r.val = u / 4 * 1024 + p.val) :
    bp2 V c (u + j) hn p q
      = tileSum2 (V c (Pipeline.arrRef spec2 0)) (V c (Pipeline.arrRef spec2 1)) r q j hj := by
  obtain ⟨a0, a1, a2, a3, -⟩ := idx_facts2 ⟨u + j, hn⟩
  dsimp only at a0 a1 a2 a3
  have hp : p.val < 1024 := p.isLt
  have hq : q.val < 256 := q.isLt
  unfold bp2 blockProd2 tileSum2
  refine Finset.sum_congr rfl fun k _ => ?_
  have hk : k.val < 1024 := k.isLt
  congr 1
  · show V c (Pipeline.arrRef spec2 0) (((cfg2.win 0).blk ⟨u + j, hn⟩).view.emb (ix2 p k)) = V c (Pipeline.arrRef spec2 0) _
    congr 1; funext a; apply Fin.ext
    match a with
    | ⟨0, _⟩ => show win2_0.index ⟨u + j, hn⟩ (0 : Fin 2) * 1024 + 1 * p.val = r.val; omega
    | ⟨1, _⟩ => show win2_0.index ⟨u + j, hn⟩ (1 : Fin 2) * 1024 + 1 * k.val = j * 1024 + k.val; omega
  · show V c (Pipeline.arrRef spec2 1) (((cfg2.win 1).blk ⟨u + j, hn⟩).view.emb (ix2 k q)) = V c (Pipeline.arrRef spec2 1) _
    congr 1; funext a; apply Fin.ext
    match a with
    | ⟨0, _⟩ => show win2_1.index ⟨u + j, hn⟩ (0 : Fin 2) * 1024 + 1 * k.val = j * 1024 + k.val; omega
    | ⟨1, _⟩ => show win2_1.index ⟨u + j, hn⟩ (1 : Fin 2) * 256 + 1 * q.val = q.val; omega

/-- So at k = 3 the accumulator's entry (p, q) is entry (1024·i + p, q) of P·Y. -/
theorem scr2_val (c : Dev nD) (u : ℕ) (ht : u + 3 < cfg2.N) (hu : u % 4 = 0) (p : Fin 1024) (q : Fin 256)
    (r : Fin 4096) (hr : r.val = u / 4 * 1024 + p.val) :
    (outsAt2 V c (u + 3) ht).2.2 (ix2 p q)
      = Cert.Spec.mulP (V c (Pipeline.arrRef spec2 0)) (V c (Pipeline.arrRef spec2 1)) (ix2 r q) := by
  rw [scr2_step V c (u + 2) ht (by omega), scr2_step V c (u + 1) (by omega) (by omega),
    scr2_step V c u (by omega) (by omega), scr2_first V c u (by omega) hu, mulP_tiles2]
  exact congrArg₂ (· + ·) (congrArg₂ (· + ·) (congrArg₂ (· + ·)
    (bp2_eq V c u 0 (by omega) (by omega) hu p q r hr) (bp2_eq V c u 1 (by omega) (by omega) hu p q r hr))
    (bp2_eq V c u 2 (by omega) (by omega) hu p q r hr)) (bp2_eq V c u 3 (by omega) ht hu p q r hr)

/-- What a point with k = 3 writes back to the first output is its row block of P·Y. -/
theorem flushed2_3_eq (c : Dev nD) (t : Fin cfg2.N) (hf : (cfg2.win 3).flush t = true) :
    (dat2 V c).flushed 3 t = ((cfg2.win 3).blk t).view.read (Elt Ideal)
      (Cert.Spec.mulP (V c (Pipeline.arrRef spec2 0)) (V c (Pipeline.arrRef spec2 1))) := by
  have h3 : t.val % 4 = 3 := (flush2_3 t).mp hf
  have hN : cfg2.N = 16 := N_2
  obtain ⟨tv, ht⟩ := t
  obtain ⟨u, rfl⟩ : ∃ u, tv = u + 3 := ⟨tv - 3, by dsimp only at h3; omega⟩
  dsimp only at h3
  show (cfg2.win 3).cut (grid2.coords ⟨u + 3, ht⟩) ((dat2 V c).after 3 ⟨u + 3, ht⟩) = _
  rw [after2_3]
  funext j
  obtain ⟨p, q, rfl⟩ : ∃ (p : Fin 1024) (q : Fin 256), j = ix2 p q := ⟨j 0, j 1, eq_ix2 j⟩
  show (outsAt2 V c (u + 3) ht).1 (ix2 p q) = Cert.Spec.mulP _ _ (((cfg2.win 3).blk ⟨u + 3, ht⟩).view.emb (ix2 p q))
  obtain ⟨-, -, -, -, -, -, e6, e7, -⟩ := idx_facts2 ⟨u + 3, ht⟩
  dsimp only at e6 e7
  have hp : p.val < 1024 := p.isLt
  have he : ((cfg2.win 3).blk ⟨u + 3, ht⟩).view.emb (ix2 p q) = ix2 (⟨u / 4 * 1024 + p.val, by omega⟩ : Fin 4096) q :=
    funext fun a => Fin.ext (by
      match a with
      | ⟨0, _⟩ => show win2_3.index ⟨u + 3, ht⟩ (0 : Fin 2) * 1024 + 1 * p.val = u / 4 * 1024 + p.val; omega
      | ⟨1, _⟩ => show win2_3.index ⟨u + 3, ht⟩ (1 : Fin 2) * 256 + 1 * q.val = q.val; omega)
  rw [he, out2_last3 V c (u + 2) ht h3]
  exact scr2_val V c u ht (by omega) p q _ rfl

/-- What it writes back to the second output is its row block of the running total plus the normalized rows of P·Y. -/
theorem flushed2_4_eq (c : Dev nD) (t : Fin cfg2.N) (hf : (cfg2.win 4).flush t = true) :
    (dat2 V c).flushed 4 t = ((cfg2.win 4).blk t).view.read (Elt Ideal)
      (Cert.Spec.layerAcc (V c (Pipeline.arrRef spec2 2))
        (Cert.Spec.mulP (V c (Pipeline.arrRef spec2 0)) (V c (Pipeline.arrRef spec2 1)))) := by
  have h3 : t.val % 4 = 3 := (flush2_4 t).mp hf
  have hN : cfg2.N = 16 := N_2
  obtain ⟨tv, ht⟩ := t
  obtain ⟨u, rfl⟩ : ∃ u, tv = u + 3 := ⟨tv - 3, by dsimp only at h3; omega⟩
  dsimp only at h3
  show (cfg2.win 4).cut (grid2.coords ⟨u + 3, ht⟩) ((dat2 V c).after 4 ⟨u + 3, ht⟩) = _
  rw [after2_4]
  funext j
  obtain ⟨p, q, rfl⟩ : ∃ (p : Fin 1024) (q : Fin 256), j = ix2 p q := ⟨j 0, j 1, eq_ix2 j⟩
  show (outsAt2 V c (u + 3) ht).2.1 (ix2 p q) = Cert.Spec.layerAcc _ _ (((cfg2.win 4).blk ⟨u + 3, ht⟩).view.emb (ix2 p q))
  obtain ⟨-, -, -, -, e4, e5, -, -, e8, e9⟩ := idx_facts2 ⟨u + 3, ht⟩
  dsimp only at e4 e5 e8 e9
  have hp : p.val < 1024 := p.isLt
  have he : ((cfg2.win 4).blk ⟨u + 3, ht⟩).view.emb (ix2 p q) = ix2 (⟨u / 4 * 1024 + p.val, by omega⟩ : Fin 4096) q :=
    funext fun a => Fin.ext (by
      match a with
      | ⟨0, _⟩ => show win2_4.index ⟨u + 3, ht⟩ (0 : Fin 2) * 1024 + 1 * p.val = u / 4 * 1024 + p.val; omega
      | ⟨1, _⟩ => show win2_4.index ⟨u + 3, ht⟩ (1 : Fin 2) * 256 + 1 * q.val = q.val; omega)
  have hz : ∀ k : Fin 256, (outsAt2 V c (u + 3) ht).2.2 (ix2 p k)
      = Cert.Spec.mulP (V c (Pipeline.arrRef spec2 0)) (V c (Pipeline.arrRef spec2 1)) (ix2 (⟨u / 4 * 1024 + p.val, by omega⟩ : Fin 4096) k) :=
    fun k => scr2_val V c u ht (by omega) p k _ rfl
  rw [he, out2_last4 V c (u + 2) ht h3]
  unfold epiVal2 Cert.Spec.layerAcc Cert.Spec.normalized Cert.Spec.rowNorm
  refine congrArg₂ (· + ·) ?_ (congrArg₂ Ideal.div (hz q) (congrArg (max · Cert.Spec.eps) (congrArg Ideal.sqrt
    (Finset.sum_congr rfl fun k _ => congrArg₂ (· * ·) (hz k) (hz k)))))
  show V c (Pipeline.arrRef spec2 2) (((cfg2.win 2).blk ⟨u + 3, ht⟩).view.emb (ix2 p q)) = V c (Pipeline.arrRef spec2 2) _
  refine congrArg (V c (Pipeline.arrRef spec2 2)) (funext fun a => Fin.ext ?_)
  match a with
  | ⟨0, _⟩ => show win2_2.index ⟨u + 3, ht⟩ (0 : Fin 2) * 1024 + 1 * p.val = u / 4 * 1024 + p.val; omega
  | ⟨1, _⟩ => show win2_2.index ⟨u + 3, ht⟩ (1 : Fin 2) * 256 + 1 * q.val = q.val; omega

theorem mem_blk2_3 (t : Fin cfg2.N) (i : S4096x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v17_0).slice (win2_3.rect t)).set ↔ _
  rw [View.set_slice_whole, Rect.mem_set_unit]
  exact Iff.rfl

theorem mem_blk2_4 (t : Fin cfg2.N) (i : S4096x256.Idx) :
    i ∈ ((cfg2.win 4).blk t).view.set ↔ ∀ a : Fin 2, win2_4.index t a * S1024x256.size a ≤ (i a).val ∧ (i a).val < win2_4.index t a * S1024x256.size a + S1024x256.size a := by
  show i ∈ ((View.whole main_v17_1).slice (win2_4.rect t)).set ↔ _
  rw [View.set_slice_whole, Rect.mem_set_unit]
  exact Iff.rfl

/-- Row r lies in the block of the point (r / 1024, 3). -/
theorem cover2_3 (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  have hN : cfg2.N = 16 := N_2
  let t : Fin cfg2.N := ⟨(i 0).val / 1024 * 4 + 3, by omega⟩
  refine ⟨t, (flush2_3 t).mpr (by show ((i 0).val / 1024 * 4 + 3) % 4 = 3; omega), ?_⟩
  rw [mem_blk2_3]
  obtain ⟨-, -, -, -, -, -, e6, e7, -⟩ := idx_facts2 t
  have e6' : win2_3.index t (0 : Fin 2) = ((i 0).val / 1024 * 4 + 3) / 4 := e6
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 256 ≤ (i 1).val ∧ (i 1).val < win2_3.index t (1 : Fin 2) * 256 + 256; omega

theorem cover2_4 (i : S4096x256.Idx) : ∃ t : Fin cfg2.N, (cfg2.win 4).flush t = true ∧ i ∈ ((cfg2.win 4).blk t).view.set := by
  have hi0 : (i 0).val < 4096 := (i 0).isLt
  have hi1 : (i 1).val < 256 := (i 1).isLt
  have hN : cfg2.N = 16 := N_2
  let t : Fin cfg2.N := ⟨(i 0).val / 1024 * 4 + 3, by omega⟩
  refine ⟨t, (flush2_4 t).mpr (by show ((i 0).val / 1024 * 4 + 3) % 4 = 3; omega), ?_⟩
  rw [mem_blk2_4]
  obtain ⟨-, -, -, -, -, -, -, -, e8, e9⟩ := idx_facts2 t
  have e8' : win2_4.index t (0 : Fin 2) = ((i 0).val / 1024 * 4 + 3) / 4 := e8
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 256 ≤ (i 1).val ∧ (i 1).val < win2_4.index t (1 : Fin 2) * 256 + 256; omega

/-- THE FIRST OUTPUT ARRAY after the region: P·Y. -/
theorem final2_3 (c : Dev nD) :
    (dat2 V c).arrAt 3 cfg2.N = Cert.Spec.mulP (V c (Pipeline.arrRef spec2 0)) (V c (Pipeline.arrRef spec2 1)) :=
  (dat2 V c).arrAt_eq_of_cover 3 _ (fun t hf => flushed2_3_eq V c t hf) (cover2_3)

/-- THE SECOND OUTPUT ARRAY after the region: the running total plus the normalized rows of P·Y. -/
theorem final2_4 (c : Dev nD) :
    (dat2 V c).arrAt 4 cfg2.N = Cert.Spec.layerAcc (V c (Pipeline.arrRef spec2 2))
      (Cert.Spec.mulP (V c (Pipeline.arrRef spec2 0)) (V c (Pipeline.arrRef spec2 1))) :=
  (dat2 V c).arrAt_eq_of_cover 4 _ (fun t hf => flushed2_4_eq V c t hf) (cover2_4)

end Cert.KernelIdeal.Gen

end
-- ==== Proof.ValProp4.lean ====
import proofs.«136557_j13331578487504_1_alg».proof.Proof.PropI4
import proofs.«136557_j13331578487504_1_alg».proof.Proof.PayIdx
import proofs.«136557_j13331578487504_1_alg».proof.Proof.PieceI
import proofs.«136557_j13331578487504_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Propagation step 4: the two output arrays, P·Y and the running total plus the normalized rows of P·Y

The grid is 4×4, the contracted axis innermost: point t = 4·i + k works on row block i and block k of the contracted
axis. At k = 3 the accumulator holds the sum over the four block pairs of their products, which is the whole sum over
the contracted axis; it is written back as row block i of the first output. A block holds whole rows, so the norm of a
row of the block is the norm of that row of the array, and the second output's row block i is the running total's plus
the rows of the first divided by the larger of their norm and ε. -/

/-- The printed index maps over the grid. -/
theorem idx_facts4 : ∀ t : Fin cfg4.N, win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = t.val / 4 ∧ win4_2.index t (1 : Fin 2) = 0
    ∧ win4_3.index t (0 : Fin 2) = t.val / 4 ∧ win4_3.index t (1 : Fin 2) = 0
    ∧ win4_4.index t (0 : Fin 2) = t.val / 4 ∧ win4_4.index t (1 : Fin 2) = 0 :=
  (by decide +kernel : ∀ t : Fin grid4.N, _)

/-- The product of a 1024×1024 block with a 1024×256 block, at entry (p, q). -/
def blockProd4 (a : Vec Ideal S1024x1024 .bf16) (y : Vec Ideal S1024x256 .f32) (p : Fin 1024) (q : Fin 256) : EReal :=
  ∑ k : Fin 1024, a (ix2 p k) * y (ix2 k q)
/-- The product of the two input blocks of the point at position `n`. -/
def bp4 (c : Dev nD) (n : ℕ) (hn : n < cfg4.N) (p : Fin 1024) (q : Fin 256) : EReal :=
  blockProd4 (iblk4 V c 0 ⟨n, hn⟩) (iblk4 V c 1 ⟨n, hn⟩) p q
/-- The epilogue's value at entry (p, q) of a block: the running total plus the entry over the larger of its row's norm and ε. -/
def epiVal4 (accin z : Vec Ideal S1024x256 .f32) (p : Fin 1024) (q : Fin 256) : EReal :=
  accin (ix2 p q) + Ideal.div (z (ix2 p q)) (max (Ideal.sqrt (∑ k : Fin 256, z (ix2 p k) * z (ix2 p k))) Cert.Spec.eps)
/-- Block `j` of the contracted axis' share of entry (r, q) of P·Y. -/
def tileSum4 (P : Cert.Spec.M4096x4096) (Y : Cert.Spec.M4096x256) (r : Fin 4096) (q : Fin 256) (j : ℕ) (hj : j < 4) : EReal :=
  ∑ k : Fin 1024, P (ix2 r ⟨j * 1024 + k.val, by have := k.isLt; omega⟩) * Y (ix2 ⟨j * 1024 + k.val, by have := k.isLt; omega⟩ q)

/-- An entry of P·Y is the sum of its four blocks' shares. -/
theorem mulP_tiles4 (P : Cert.Spec.M4096x4096) (Y : Cert.Spec.M4096x256) (r : Fin 4096) (q : Fin 256) :
    Cert.Spec.mulP P Y (ix2 r q) = tileSum4 P Y r q 0 (by omega) + tileSum4 P Y r q 1 (by omega)
      + tileSum4 P Y r q 2 (by omega) + tileSum4 P Y r q 3 (by omega) := by
  unfold Cert.Spec.mulP tileSum4
  rw [Cert.PayIdx.tile4, Fin.sum_univ_four]
  rfl

/-! ## The accumulator, point by point -/

/-- At k = 0 the accumulator is the first block pair's product. -/
theorem scr4_first (c : Dev nD) (n : ℕ) (hn : n < cfg4.N) (h0 : n % 4 = 0) (p : Fin 1024) (q : Fin 256) :
    (outsAt4 V c n hn).2.2 (ix2 p q) = bp4 V c n hn p q := by
  have h1 : ¬ n % 4 = 3 := by omega
  rw [outsAt4_A V c ⟨n, hn⟩ h0 h1]
  dsimp only
  rw [Cert.PieceI.sout4_A_eq]
  refine (Cert.PayIdx.acc4 _ _ _ p q).trans ?_
  rw [Cert.PayIdx.zero4, zero_add]; rfl

/-- At k > 0 the point's block pair's product is added to it. -/
theorem scr4_step (c : Dev nD) (n : ℕ) (hn : n + 1 < cfg4.N) (h0 : ¬ (n + 1) % 4 = 0) (p : Fin 1024) (q : Fin 256) :
    (outsAt4 V c (n + 1) hn).2.2 (ix2 p q) = (outsAt4 V c n (Nat.lt_of_succ_lt hn)).2.2 (ix2 p q) + bp4 V c (n + 1) hn p q := by
  by_cases h1 : (n + 1) % 4 = 3
  · rw [outsAt4_C V c ⟨n + 1, hn⟩ h0 h1]
    dsimp only
    rw [Cert.PieceI.sout4_C_eq]
    exact Cert.PayIdx.acc4 _ _ _ p q
  · rw [outsAt4_B V c ⟨n + 1, hn⟩ h0 h1]
    dsimp only
    rw [Cert.PieceI.sout4_B_eq]
    exact Cert.PayIdx.acc4 _ _ _ p q

/-- At k = 3 the first result block is the accumulator … -/
theorem out4_last3 (c : Dev nD) (n : ℕ) (hn : n + 1 < cfg4.N) (h1 : (n + 1) % 4 = 3) (p : Fin 1024) (q : Fin 256) :
    (outsAt4 V c (n + 1) hn).1 (ix2 p q) = (outsAt4 V c (n + 1) hn).2.2 (ix2 p q) := by
  have h0 : ¬ (n + 1) % 4 = 0 := by omega
  rw [outsAt4_C V c ⟨n + 1, hn⟩ h0 h1]
  dsimp only
  rw [Cert.PieceI.out4_C3_eq, Cert.PieceI.sout4_C_eq]

/-- … and the second the epilogue of the accumulator and the running total's block. -/
theorem out4_last4 (c : Dev nD) (n : ℕ) (hn : n + 1 < cfg4.N) (h1 : (n + 1) % 4 = 3) (p : Fin 1024) (q : Fin 256) :
    (outsAt4 V c (n + 1) hn).2.1 (ix2 p q)
      = epiVal4 (iblk4 V c 2 ⟨n + 1, hn⟩) (outsAt4 V c (n + 1) hn).2.2 p q := by
  have h0 : ¬ (n + 1) % 4 = 0 := by omega
  rw [outsAt4_C V c ⟨n + 1, hn⟩ h0 h1]
  dsimp only
  rw [Cert.PieceI.out4_C4_eq, Cert.PieceI.sout4_C_eq]
  exact Cert.PayIdx.epi4 _ _ p q

/-! ## From blocks to the arrays -/

/-- The product of the block pair at position `u + j` of a row block's four is block `j`'s share of P·Y. -/
theorem bp4_eq (c : Dev nD) (u j : ℕ) (hj : j < 4) (hn : u + j < cfg4.N) (hu : u % 4 = 0) (p : Fin 1024) (q : Fin 256)
    (r : Fin 4096) (hr : r.val = u / 4 * 1024 + p.val) :
    bp4 V c (u + j) hn p q
      = tileSum4 (V c (Pipeline.arrRef spec4 0)) (V c (Pipeline.arrRef spec4 1)) r q j hj := by
  obtain ⟨a0, a1, a2, a3, -⟩ := idx_facts4 ⟨u + j, hn⟩
  dsimp only at a0 a1 a2 a3
  have hp : p.val < 1024 := p.isLt
  have hq : q.val < 256 := q.isLt
  unfold bp4 blockProd4 tileSum4
  refine Finset.sum_congr rfl fun k _ => ?_
  have hk : k.val < 1024 := k.isLt
  congr 1
  · show V c (Pipeline.arrRef spec4 0) (((cfg4.win 0).blk ⟨u + j, hn⟩).view.emb (ix2 p k)) = V c (Pipeline.arrRef spec4 0) _
    congr 1; funext a; apply Fin.ext
    match a with
    | ⟨0, _⟩ => show win4_0.index ⟨u + j, hn⟩ (0 : Fin 2) * 1024 + 1 * p.val = r.val; omega
    | ⟨1, _⟩ => show win4_0.index ⟨u + j, hn⟩ (1 : Fin 2) * 1024 + 1 * k.val = j * 1024 + k.val; omega
  · show V c (Pipeline.arrRef spec4 1) (((cfg4.win 1).blk ⟨u + j, hn⟩).view.emb (ix2 k q)) = V c (Pipeline.arrRef spec4 1) _
    congr 1; funext a; apply Fin.ext
    match a with
    | ⟨0, _⟩ => show win4_1.index ⟨u + j, hn⟩ (0 : Fin 2) * 1024 + 1 * k.val = j * 1024 + k.val; omega
    | ⟨1, _⟩ => show win4_1.index ⟨u + j, hn⟩ (1 : Fin 2) * 256 + 1 * q.val = q.val; omega

/-- So at k = 3 the accumulator's entry (p, q) is entry (1024·i + p, q) of P·Y. -/
theorem scr4_val (c : Dev nD) (u : ℕ) (ht : u + 3 < cfg4.N) (hu : u % 4 = 0) (p : Fin 1024) (q : Fin 256)
    (r : Fin 4096) (hr : r.val = u / 4 * 1024 + p.val) :
    (outsAt4 V c (u + 3) ht).2.2 (ix2 p q)
      = Cert.Spec.mulP (V c (Pipeline.arrRef spec4 0)) (V c (Pipeline.arrRef spec4 1)) (ix2 r q) := by
  rw [scr4_step V c (u + 2) ht (by omega), scr4_step V c (u + 1) (by omega) (by omega),
    scr4_step V c u (by omega) (by omega), scr4_first V c u (by omega) hu, mulP_tiles4]
  exact congrArg₂ (· + ·) (congrArg₂ (· + ·) (congrArg₂ (· + ·)
    (bp4_eq V c u 0 (by omega) (by omega) hu p q r hr) (bp4_eq V c u 1 (by omega) (by omega) hu p q r hr))
    (bp4_eq V c u 2 (by omega) (by omega) hu p q r hr)) (bp4_eq V c u 3 (by omega) ht hu p q r hr)

/-- What a point with k = 3 writes back to the first output is its row block of P·Y. -/
theorem flushed4_3_eq (c : Dev nD) (t : Fin cfg4.N) (hf : (cfg4.win 3).flush t = true) :
    (dat4 V c).flushed 3 t = ((cfg4.win 3).blk t).view.read (Elt Ideal)
      (Cert.Spec.mulP (V c (Pipeline.arrRef spec4 0)) (V c (Pipeline.arrRef spec4 1))) := by
  have h3 : t.val % 4 = 3 := (flush4_3 t).mp hf
  have hN : cfg4.N = 16 := N_4
  obtain ⟨tv, ht⟩ := t
  obtain ⟨u, rfl⟩ : ∃ u, tv = u + 3 := ⟨tv - 3, by dsimp only at h3; omega⟩
  dsimp only at h3
  show (cfg4.win 3).cut (grid4.coords ⟨u + 3, ht⟩) ((dat4 V c).after 3 ⟨u + 3, ht⟩) = _
  rw [after4_3]
  funext j
  obtain ⟨p, q, rfl⟩ : ∃ (p : Fin 1024) (q : Fin 256), j = ix2 p q := ⟨j 0, j 1, eq_ix2 j⟩
  show (outsAt4 V c (u + 3) ht).1 (ix2 p q) = Cert.Spec.mulP _ _ (((cfg4.win 3).blk ⟨u + 3, ht⟩).view.emb (ix2 p q))
  obtain ⟨-, -, -, -, -, -, e6, e7, -⟩ := idx_facts4 ⟨u + 3, ht⟩
  dsimp only at e6 e7
  have hp : p.val < 1024 := p.isLt
  have he : ((cfg4.win 3).blk ⟨u + 3, ht⟩).view.emb (ix2 p q) = ix2 (⟨u / 4 * 1024 + p.val, by omega⟩ : Fin 4096) q :=
    funext fun a => Fin.ext (by
      match a with
      | ⟨0, _⟩ => show win4_3.index ⟨u + 3, ht⟩ (0 : Fin 2) * 1024 + 1 * p.val = u / 4 * 1024 + p.val; omega
      | ⟨1, _⟩ => show win4_3.index ⟨u + 3, ht⟩ (1 : Fin 2) * 256 + 1 * q.val = q.val; omega)
  rw [he, out4_last3 V c (u + 2) ht h3]
  exact scr4_val V c u ht (by omega) p q _ rfl

/-- What it writes back to the second output is its row block of the running total plus the normalized rows of P·Y. -/
theorem flushed4_4_eq (c : Dev nD) (t : Fin cfg4.N) (hf : (cfg4.win 4).flush t = true) :
    (dat4 V c).flushed 4 t = ((cfg4.win 4).blk t).view.read (Elt Ideal)
      (Cert.Spec.layerAcc (V c (Pipeline.arrRef spec4 2))
        (Cert.Spec.mulP (V c (Pipeline.arrRef spec4 0)) (V c (Pipeline.arrRef spec4 1)))) := by
  have h3 : t.val % 4 = 3 := (flush4_4 t).mp hf
  have hN : cfg4.N = 16 := N_4
  obtain ⟨tv, ht⟩ := t
  obtain ⟨u, rfl⟩ : ∃ u, tv = u + 3 := ⟨tv - 3, by dsimp only at h3; omega⟩
  dsimp only at h3
  show (cfg4.win 4).cut (grid4.coords ⟨u + 3, ht⟩) ((dat4 V c).after 4 ⟨u + 3, ht⟩) = _
  rw [after4_4]
  funext j
  obtain ⟨p, q, rfl⟩ : ∃ (p : Fin 1024) (q : Fin 256), j = ix2 p q := ⟨j 0, j 1, eq_ix2 j⟩
  show (outsAt4 V c (u + 3) ht).2.1 (ix2 p q) = Cert.Spec.layerAcc _ _ (((cfg4.win 4).blk ⟨u + 3, ht⟩).view.emb (ix2 p q))
  obtain ⟨-, -, -, -, e4, e5, -, -, e8, e9⟩ := idx_facts4 ⟨u + 3, ht⟩
  dsimp only at e4 e5 e8 e9
  have hp : p.val < 1024 := p.isLt
  have he : ((cfg4.win 4).blk ⟨u + 3, ht⟩).view.emb (ix2 p q) = ix2 (⟨u / 4 * 1024 + p.val, by omega⟩ : Fin 4096) q :=
    funext fun a => Fin.ext (by
      match a with
      | ⟨0, _⟩ => show win4_4.index ⟨u + 3, ht⟩ (0 : Fin 2) * 1024 + 1 * p.val = u / 4 * 1024 + p.val; omega
      | ⟨1, _⟩ => show win4_4.index ⟨u + 3, ht⟩ (1 : Fin 2) * 256 + 1 * q.val = q.val; omega)
  have hz : ∀ k : Fin 256, (outsAt4 V c (u + 3) ht).2.2 (ix2 p k)
      = Cert.Spec.mulP (V c (Pipeline.arrRef spec4 0)) (V c (Pipeline.arrRef spec4 1)) (ix2 (⟨u / 4 * 1024 + p.val, by omega⟩ : Fin 4096) k) :=
    fun k => scr4_val V c u ht (by omega) p k _ rfl
  rw [he, out4_last4 V c (u + 2) ht h3]
  unfold epiVal4 Cert.Spec.layerAcc Cert.Spec.normalized Cert.Spec.rowNorm
  refine congrArg₂ (· + ·) ?_ (congrArg₂ Ideal.div (hz q) (congrArg (max · Cert.Spec.eps) (congrArg Ideal.sqrt
    (Finset.sum_congr rfl fun k _ => congrArg₂ (· * ·) (hz k) (hz k)))))
  show V c (Pipeline.arrRef spec4 2) (((cfg4.win 2).blk ⟨u + 3, ht⟩).view.emb (ix2 p q)) = V c (Pipeline.arrRef spec4 2) _
  refine congrArg (V c (Pipeline.arrRef spec4 2)) (funext fun a => Fin.ext ?_)
  match a with
  | ⟨0, _⟩ => show win4_2.index ⟨u + 3, ht⟩ (0 : Fin 2) * 1024 + 1 * p.val = u / 4 * 1024 + p.val; omega
  | ⟨1, _⟩ => show win4_2.index ⟨u + 3, ht⟩ (1 : Fin 2) * 256 + 1 * q.val = q.val; omega

theorem mem_blk4_3 (t : Fin cfg4.N) (i : S4096x256.Idx) :
    i ∈ ((cfg4.win 3).blk t).view.set ↔ ∀ a : Fin 2, win4_3.index t a * S1024x256.size a ≤ (i a).val ∧ (i a).val < win4_3.index t a * S1024x256.size a + S1024x256.size a := by
  show i ∈ ((View.whole main_v22_0).slice (win4_3.rect t)).set ↔ _
  rw [View.set_slice_whole, Rect.mem_set_unit]
  exact Iff.rfl

theorem mem_blk4_4 (t : Fin cfg4.N) (i : S4096x256.Idx) :
    i ∈ ((cfg4.win 4).blk t).view.set ↔ ∀ a : Fin 2, win4_4.index t a * S1024x256.size a ≤ (i a).val ∧ (i a).val < win4_4.index t a * S1024x256.size a + S1024x256.size a := by
  show i ∈ ((View.whole main_v22_1).slice (win4_4.rect t)).set ↔ _
  rw [View.set_slice_whole, Rect.mem_set_unit]
  exact Iff.rfl

/-- Row r lies in the block of the point (r / 1024, 3). -/
theorem cover4_3 (i : S4096x256.Idx) : ∃ t : Fin cfg4.N, (cfg4.win 3).flush t = true ∧ i ∈ ((cfg4.win 3).blk t).view.set := by
  have hi0 : (i 0).val < 4096 := (i 0).isLt
  have hi1 : (i 1).val < 256 := (i 1).isLt
  have hN : cfg4.N = 16 := N_4
  let t : Fin cfg4.N := ⟨(i 0).val / 1024 * 4 + 3, by omega⟩
  refine ⟨t, (flush4_3 t).mpr (by show ((i 0).val / 1024 * 4 + 3) % 4 = 3; omega), ?_⟩
  rw [mem_blk4_3]
  obtain ⟨-, -, -, -, -, -, e6, e7, -⟩ := idx_facts4 t
  have e6' : win4_3.index t (0 : Fin 2) = ((i 0).val / 1024 * 4 + 3) / 4 := e6
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 256 ≤ (i 1).val ∧ (i 1).val < win4_3.index t (1 : Fin 2) * 256 + 256; omega

theorem cover4_4 (i : S4096x256.Idx) : ∃ t : Fin cfg4.N, (cfg4.win 4).flush t = true ∧ i ∈ ((cfg4.win 4).blk t).view.set := by
  have hi0 : (i 0).val < 4096 := (i 0).isLt
  have hi1 : (i 1).val < 256 := (i 1).isLt
  have hN : cfg4.N = 16 := N_4
  let t : Fin cfg4.N := ⟨(i 0).val / 1024 * 4 + 3, by omega⟩
  refine ⟨t, (flush4_4 t).mpr (by show ((i 0).val / 1024 * 4 + 3) % 4 = 3; omega), ?_⟩
  rw [mem_blk4_4]
  obtain ⟨-, -, -, -, -, -, -, -, e8, e9⟩ := idx_facts4 t
  have e8' : win4_4.index t (0 : Fin 2) = ((i 0).val / 1024 * 4 + 3) / 4 := e8
  intro a
  match a with
  | ⟨0, _⟩ => show win4_4.index t (0 : Fin 2) * 1024 ≤ (i 0).val ∧ (i 0).val < win4_4.index t (0 : Fin 2) * 1024 + 1024; omega
  | ⟨1, _⟩ => show win4_4.index t (1 : Fin 2) * 256 ≤ (i 1).val ∧ (i 1).val < win4_4.index t (1 : Fin 2) * 256 + 256; omega

/-- THE FIRST OUTPUT ARRAY after the region: P·Y. -/
theorem final4_3 (c : Dev nD) :
    (dat4 V c).arrAt 3 cfg4.N = Cert.Spec.mulP (V c (Pipeline.arrRef spec4 0)) (V c (Pipeline.arrRef spec4 1)) :=
  (dat4 V c).arrAt_eq_of_cover 3 _ (fun t hf => flushed4_3_eq V c t hf) (cover4_3)

/-- THE SECOND OUTPUT ARRAY after the region: the running total plus the normalized rows of P·Y. -/
theorem final4_4 (c : Dev nD) :
    (dat4 V c).arrAt 4 cfg4.N = Cert.Spec.layerAcc (V c (Pipeline.arrRef spec4 2))
      (Cert.Spec.mulP (V c (Pipeline.arrRef spec4 0)) (V c (Pipeline.arrRef spec4 1))) :=
  (dat4 V c).arrAt_eq_of_cover 4 _ (fun t hf => flushed4_4_eq V c t hf) (cover4_4)

end Cert.KernelIdeal.Gen

end
-- ==== Proof.ValProp6.lean ====
import proofs.«136557_j13331578487504_1_alg».proof.Proof.PropI6
import proofs.«136557_j13331578487504_1_alg».proof.Proof.PayIdx
import proofs.«136557_j13331578487504_1_alg».proof.Proof.PieceI
import proofs.«136557_j13331578487504_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Propagation step 6: the two output arrays, P·Y and the running total plus the normalized rows of P·Y

The grid is 4×4, the contracted axis innermost: point t = 4·i + k works on row block i and block k of the contracted
axis. At k = 3 the accumulator holds the sum over the four block pairs of their products, which is the whole sum over
the contracted axis; it is written back as row block i of the first output. A block holds whole rows, so the norm of a
row of the block is the norm of that row of the array, and the second output's row block i is the running total's plus
the rows of the first divided by the larger of their norm and ε. -/

/-- The printed index maps over the grid. -/
theorem idx_facts6 : ∀ t : Fin cfg6.N, win6_0.index t (0 : Fin 2) = t.val / 4 ∧ win6_0.index t (1 : Fin 2) = t.val % 4
    ∧ win6_1.index t (0 : Fin 2) = t.val % 4 ∧ win6_1.index t (1 : Fin 2) = 0
    ∧ win6_2.index t (0 : Fin 2) = t.val / 4 ∧ win6_2.index t (1 : Fin 2) = 0
    ∧ win6_3.index t (0 : Fin 2) = t.val / 4 ∧ win6_3.index t (1 : Fin 2) = 0
    ∧ win6_4.index t (0 : Fin 2) = t.val / 4 ∧ win6_4.index t (1 : Fin 2) = 0 :=
  (by decide +kernel : ∀ t : Fin grid6.N, _)

/-- The product of a 1024×1024 block with a 1024×256 block, at entry (p, q). -/
def blockProd6 (a : Vec Ideal S1024x1024 .bf16) (y : Vec Ideal S1024x256 .f32) (p : Fin 1024) (q : Fin 256) : EReal :=
  ∑ k : Fin 1024, a (ix2 p k) * y (ix2 k q)
/-- The product of the two input blocks of the point at position `n`. -/
def bp6 (c : Dev nD) (n : ℕ) (hn : n < cfg6.N) (p : Fin 1024) (q : Fin 256) : EReal :=
  blockProd6 (iblk6 V c 0 ⟨n, hn⟩) (iblk6 V c 1 ⟨n, hn⟩) p q
/-- The epilogue's value at entry (p, q) of a block: the running total plus the entry over the larger of its row's norm and ε. -/
def epiVal6 (accin z : Vec Ideal S1024x256 .f32) (p : Fin 1024) (q : Fin 256) : EReal :=
  accin (ix2 p q) + Ideal.div (z (ix2 p q)) (max (Ideal.sqrt (∑ k : Fin 256, z (ix2 p k) * z (ix2 p k))) Cert.Spec.eps)
/-- Block `j` of the contracted axis' share of entry (r, q) of P·Y. -/
def tileSum6 (P : Cert.Spec.M4096x4096) (Y : Cert.Spec.M4096x256) (r : Fin 4096) (q : Fin 256) (j : ℕ) (hj : j < 4) : EReal :=
  ∑ k : Fin 1024, P (ix2 r ⟨j * 1024 + k.val, by have := k.isLt; omega⟩) * Y (ix2 ⟨j * 1024 + k.val, by have := k.isLt; omega⟩ q)

/-- An entry of P·Y is the sum of its four blocks' shares. -/
theorem mulP_tiles6 (P : Cert.Spec.M4096x4096) (Y : Cert.Spec.M4096x256) (r : Fin 4096) (q : Fin 256) :
    Cert.Spec.mulP P Y (ix2 r q) = tileSum6 P Y r q 0 (by omega) + tileSum6 P Y r q 1 (by omega)
      + tileSum6 P Y r q 2 (by omega) + tileSum6 P Y r q 3 (by omega) := by
  unfold Cert.Spec.mulP tileSum6
  rw [Cert.PayIdx.tile4, Fin.sum_univ_four]
  rfl

/-! ## The accumulator, point by point -/

/-- At k = 0 the accumulator is the first block pair's product. -/
theorem scr6_first (c : Dev nD) (n : ℕ) (hn : n < cfg6.N) (h0 : n % 4 = 0) (p : Fin 1024) (q : Fin 256) :
    (outsAt6 V c n hn).2.2 (ix2 p q) = bp6 V c n hn p q := by
  have h1 : ¬ n % 4 = 3 := by omega
  rw [outsAt6_A V c ⟨n, hn⟩ h0 h1]
  dsimp only
  rw [Cert.PieceI.sout6_A_eq]
  refine (Cert.PayIdx.acc6 _ _ _ p q).trans ?_
  rw [Cert.PayIdx.zero6, zero_add]; rfl

/-- At k > 0 the point's block pair's product is added to it. -/
theorem scr6_step (c : Dev nD) (n : ℕ) (hn : n + 1 < cfg6.N) (h0 : ¬ (n + 1) % 4 = 0) (p : Fin 1024) (q : Fin 256) :
    (outsAt6 V c (n + 1) hn).2.2 (ix2 p q) = (outsAt6 V c n (Nat.lt_of_succ_lt hn)).2.2 (ix2 p q) + bp6 V c (n + 1) hn p q := by
  by_cases h1 : (n + 1) % 4 = 3
  · rw [outsAt6_C V c ⟨n + 1, hn⟩ h0 h1]
    dsimp only
    rw [Cert.PieceI.sout6_C_eq]
    exact Cert.PayIdx.acc6 _ _ _ p q
  · rw [outsAt6_B V c ⟨n + 1, hn⟩ h0 h1]
    dsimp only
    rw [Cert.PieceI.sout6_B_eq]
    exact Cert.PayIdx.acc6 _ _ _ p q

/-- At k = 3 the first result block is the accumulator … -/
theorem out6_last3 (c : Dev nD) (n : ℕ) (hn : n + 1 < cfg6.N) (h1 : (n + 1) % 4 = 3) (p : Fin 1024) (q : Fin 256) :
    (outsAt6 V c (n + 1) hn).1 (ix2 p q) = (outsAt6 V c (n + 1) hn).2.2 (ix2 p q) := by
  have h0 : ¬ (n + 1) % 4 = 0 := by omega
  rw [outsAt6_C V c ⟨n + 1, hn⟩ h0 h1]
  dsimp only
  rw [Cert.PieceI.out6_C3_eq, Cert.PieceI.sout6_C_eq]

/-- … and the second the epilogue of the accumulator and the running total's block. -/
theorem out6_last4 (c : Dev nD) (n : ℕ) (hn : n + 1 < cfg6.N) (h1 : (n + 1) % 4 = 3) (p : Fin 1024) (q : Fin 256) :
    (outsAt6 V c (n + 1) hn).2.1 (ix2 p q)
      = epiVal6 (iblk6 V c 2 ⟨n + 1, hn⟩) (outsAt6 V c (n + 1) hn).2.2 p q := by
  have h0 : ¬ (n + 1) % 4 = 0 := by omega
  rw [outsAt6_C V c ⟨n + 1, hn⟩ h0 h1]
  dsimp only
  rw [Cert.PieceI.out6_C4_eq, Cert.PieceI.sout6_C_eq]
  exact Cert.PayIdx.epi6 _ _ p q

/-! ## From blocks to the arrays -/

/-- The product of the block pair at position `u + j` of a row block's four is block `j`'s share of P·Y. -/
theorem bp6_eq (c : Dev nD) (u j : ℕ) (hj : j < 4) (hn : u + j < cfg6.N) (hu : u % 4 = 0) (p : Fin 1024) (q : Fin 256)
    (r : Fin 4096) (hr : r.val = u / 4 * 1024 + p.val) :
    bp6 V c (u + j) hn p q
      = tileSum6 (V c (Pipeline.arrRef spec6 0)) (V c (Pipeline.arrRef spec6 1)) r q j hj := by
  obtain ⟨a0, a1, a2, a3, -⟩ := idx_facts6 ⟨u + j, hn⟩
  dsimp only at a0 a1 a2 a3
  have hp : p.val < 1024 := p.isLt
  have hq : q.val < 256 := q.isLt
  unfold bp6 blockProd6 tileSum6
  refine Finset.sum_congr rfl fun k _ => ?_
  have hk : k.val < 1024 := k.isLt
  congr 1
  · show V c (Pipeline.arrRef spec6 0) (((cfg6.win 0).blk ⟨u + j, hn⟩).view.emb (ix2 p k)) = V c (Pipeline.arrRef spec6 0) _
    congr 1; funext a; apply Fin.ext
    match a with
    | ⟨0, _⟩ => show win6_0.index ⟨u + j, hn⟩ (0 : Fin 2) * 1024 + 1 * p.val = r.val; omega
    | ⟨1, _⟩ => show win6_0.index ⟨u + j, hn⟩ (1 : Fin 2) * 1024 + 1 * k.val = j * 1024 + k.val; omega
  · show V c (Pipeline.arrRef spec6 1) (((cfg6.win 1).blk ⟨u + j, hn⟩).view.emb (ix2 k q)) = V c (Pipeline.arrRef spec6 1) _
    congr 1; funext a; apply Fin.ext
    match a with
    | ⟨0, _⟩ => show win6_1.index ⟨u + j, hn⟩ (0 : Fin 2) * 1024 + 1 * k.val = j * 1024 + k.val; omega
    | ⟨1, _⟩ => show win6_1.index ⟨u + j, hn⟩ (1 : Fin 2) * 256 + 1 * q.val = q.val; omega

/-- So at k = 3 the accumulator's entry (p, q) is entry (1024·i + p, q) of P·Y. -/
theorem scr6_val (c : Dev nD) (u : ℕ) (ht : u + 3 < cfg6.N) (hu : u % 4 = 0) (p : Fin 1024) (q : Fin 256)
    (r : Fin 4096) (hr : r.val = u / 4 * 1024 + p.val) :
    (outsAt6 V c (u + 3) ht).2.2 (ix2 p q)
      = Cert.Spec.mulP (V c (Pipeline.arrRef spec6 0)) (V c (Pipeline.arrRef spec6 1)) (ix2 r q) := by
  rw [scr6_step V c (u + 2) ht (by omega), scr6_step V c (u + 1) (by omega) (by omega),
    scr6_step V c u (by omega) (by omega), scr6_first V c u (by omega) hu, mulP_tiles6]
  exact congrArg₂ (· + ·) (congrArg₂ (· + ·) (congrArg₂ (· + ·)
    (bp6_eq V c u 0 (by omega) (by omega) hu p q r hr) (bp6_eq V c u 1 (by omega) (by omega) hu p q r hr))
    (bp6_eq V c u 2 (by omega) (by omega) hu p q r hr)) (bp6_eq V c u 3 (by omega) ht hu p q r hr)

/-- What a point with k = 3 writes back to the first output is its row block of P·Y. -/
theorem flushed6_3_eq (c : Dev nD) (t : Fin cfg6.N) (hf : (cfg6.win 3).flush t = true) :
    (dat6 V c).flushed 3 t = ((cfg6.win 3).blk t).view.read (Elt Ideal)
      (Cert.Spec.mulP (V c (Pipeline.arrRef spec6 0)) (V c (Pipeline.arrRef spec6 1))) := by
  have h3 : t.val % 4 = 3 := (flush6_3 t).mp hf
  have hN : cfg6.N = 16 := N_6
  obtain ⟨tv, ht⟩ := t
  obtain ⟨u, rfl⟩ : ∃ u, tv = u + 3 := ⟨tv - 3, by dsimp only at h3; omega⟩
  dsimp only at h3
  show (cfg6.win 3).cut (grid6.coords ⟨u + 3, ht⟩) ((dat6 V c).after 3 ⟨u + 3, ht⟩) = _
  rw [after6_3]
  funext j
  obtain ⟨p, q, rfl⟩ : ∃ (p : Fin 1024) (q : Fin 256), j = ix2 p q := ⟨j 0, j 1, eq_ix2 j⟩
  show (outsAt6 V c (u + 3) ht).1 (ix2 p q) = Cert.Spec.mulP _ _ (((cfg6.win 3).blk ⟨u + 3, ht⟩).view.emb (ix2 p q))
  obtain ⟨-, -, -, -, -, -, e6, e7, -⟩ := idx_facts6 ⟨u + 3, ht⟩
  dsimp only at e6 e7
  have hp : p.val < 1024 := p.isLt
  have he : ((cfg6.win 3).blk ⟨u + 3, ht⟩).view.emb (ix2 p q) = ix2 (⟨u / 4 * 1024 + p.val, by omega⟩ : Fin 4096) q :=
    funext fun a => Fin.ext (by
      match a with
      | ⟨0, _⟩ => show win6_3.index ⟨u + 3, ht⟩ (0 : Fin 2) * 1024 + 1 * p.val = u / 4 * 1024 + p.val; omega
      | ⟨1, _⟩ => show win6_3.index ⟨u + 3, ht⟩ (1 : Fin 2) * 256 + 1 * q.val = q.val; omega)
  rw [he, out6_last3 V c (u + 2) ht h3]
  exact scr6_val V c u ht (by omega) p q _ rfl

/-- What it writes back to the second output is its row block of the running total plus the normalized rows of P·Y. -/
theorem flushed6_4_eq (c : Dev nD) (t : Fin cfg6.N) (hf : (cfg6.win 4).flush t = true) :
    (dat6 V c).flushed 4 t = ((cfg6.win 4).blk t).view.read (Elt Ideal)
      (Cert.Spec.layerAcc (V c (Pipeline.arrRef spec6 2))
        (Cert.Spec.mulP (V c (Pipeline.arrRef spec6 0)) (V c (Pipeline.arrRef spec6 1)))) := by
  have h3 : t.val % 4 = 3 := (flush6_4 t).mp hf
  have hN : cfg6.N = 16 := N_6
  obtain ⟨tv, ht⟩ := t
  obtain ⟨u, rfl⟩ : ∃ u, tv = u + 3 := ⟨tv - 3, by dsimp only at h3; omega⟩
  dsimp only at h3
  show (cfg6.win 4).cut (grid6.coords ⟨u + 3, ht⟩) ((dat6 V c).after 4 ⟨u + 3, ht⟩) = _
  rw [after6_4]
  funext j
  obtain ⟨p, q, rfl⟩ : ∃ (p : Fin 1024) (q : Fin 256), j = ix2 p q := ⟨j 0, j 1, eq_ix2 j⟩
  show (outsAt6 V c (u + 3) ht).2.1 (ix2 p q) = Cert.Spec.layerAcc _ _ (((cfg6.win 4).blk ⟨u + 3, ht⟩).view.emb (ix2 p q))
  obtain ⟨-, -, -, -, e4, e5, -, -, e8, e9⟩ := idx_facts6 ⟨u + 3, ht⟩
  dsimp only at e4 e5 e8 e9
  have hp : p.val < 1024 := p.isLt
  have he : ((cfg6.win 4).blk ⟨u + 3, ht⟩).view.emb (ix2 p q) = ix2 (⟨u / 4 * 1024 + p.val, by omega⟩ : Fin 4096) q :=
    funext fun a => Fin.ext (by
      match a with
      | ⟨0, _⟩ => show win6_4.index ⟨u + 3, ht⟩ (0 : Fin 2) * 1024 + 1 * p.val = u / 4 * 1024 + p.val; omega
      | ⟨1, _⟩ => show win6_4.index ⟨u + 3, ht⟩ (1 : Fin 2) * 256 + 1 * q.val = q.val; omega)
  have hz : ∀ k : Fin 256, (outsAt6 V c (u + 3) ht).2.2 (ix2 p k)
      = Cert.Spec.mulP (V c (Pipeline.arrRef spec6 0)) (V c (Pipeline.arrRef spec6 1)) (ix2 (⟨u / 4 * 1024 + p.val, by omega⟩ : Fin 4096) k) :=
    fun k => scr6_val V c u ht (by omega) p k _ rfl
  rw [he, out6_last4 V c (u + 2) ht h3]
  unfold epiVal6 Cert.Spec.layerAcc Cert.Spec.normalized Cert.Spec.rowNorm
  refine congrArg₂ (· + ·) ?_ (congrArg₂ Ideal.div (hz q) (congrArg (max · Cert.Spec.eps) (congrArg Ideal.sqrt
    (Finset.sum_congr rfl fun k _ => congrArg₂ (· * ·) (hz k) (hz k)))))
  show V c (Pipeline.arrRef spec6 2) (((cfg6.win 2).blk ⟨u + 3, ht⟩).view.emb (ix2 p q)) = V c (Pipeline.arrRef spec6 2) _
  refine congrArg (V c (Pipeline.arrRef spec6 2)) (funext fun a => Fin.ext ?_)
  match a with
  | ⟨0, _⟩ => show win6_2.index ⟨u + 3, ht⟩ (0 : Fin 2) * 1024 + 1 * p.val = u / 4 * 1024 + p.val; omega
  | ⟨1, _⟩ => show win6_2.index ⟨u + 3, ht⟩ (1 : Fin 2) * 256 + 1 * q.val = q.val; omega

theorem mem_blk6_3 (t : Fin cfg6.N) (i : S4096x256.Idx) :
    i ∈ ((cfg6.win 3).blk t).view.set ↔ ∀ a : Fin 2, win6_3.index t a * S1024x256.size a ≤ (i a).val ∧ (i a).val < win6_3.index t a * S1024x256.size a + S1024x256.size a := by
  show i ∈ ((View.whole main_v27_0).slice (win6_3.rect t)).set ↔ _
  rw [View.set_slice_whole, Rect.mem_set_unit]
  exact Iff.rfl

theorem mem_blk6_4 (t : Fin cfg6.N) (i : S4096x256.Idx) :
    i ∈ ((cfg6.win 4).blk t).view.set ↔ ∀ a : Fin 2, win6_4.index t a * S1024x256.size a ≤ (i a).val ∧ (i a).val < win6_4.index t a * S1024x256.size a + S1024x256.size a := by
  show i ∈ ((View.whole main_v27_1).slice (win6_4.rect t)).set ↔ _
  rw [View.set_slice_whole, Rect.mem_set_unit]
  exact Iff.rfl

/-- Row r lies in the block of the point (r / 1024, 3). -/
theorem cover6_3 (i : S4096x256.Idx) : ∃ t : Fin cfg6.N, (cfg6.win 3).flush t = true ∧ i ∈ ((cfg6.win 3).blk t).view.set := by
  have hi0 : (i 0).val < 4096 := (i 0).isLt
  have hi1 : (i 1).val < 256 := (i 1).isLt
  have hN : cfg6.N = 16 := N_6
  let t : Fin cfg6.N := ⟨(i 0).val / 1024 * 4 + 3, by omega⟩
  refine ⟨t, (flush6_3 t).mpr (by show ((i 0).val / 1024 * 4 + 3) % 4 = 3; omega), ?_⟩
  rw [mem_blk6_3]
  obtain ⟨-, -, -, -, -, -, e6, e7, -⟩ := idx_facts6 t
  have e6' : win6_3.index t (0 : Fin 2) = ((i 0).val / 1024 * 4 + 3) / 4 := e6
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 256 ≤ (i 1).val ∧ (i 1).val < win6_3.index t (1 : Fin 2) * 256 + 256; omega

theorem cover6_4 (i : S4096x256.Idx) : ∃ t : Fin cfg6.N, (cfg6.win 4).flush t = true ∧ i ∈ ((cfg6.win 4).blk t).view.set := by
  have hi0 : (i 0).val < 4096 := (i 0).isLt
  have hi1 : (i 1).val < 256 := (i 1).isLt
  have hN : cfg6.N = 16 := N_6
  let t : Fin cfg6.N := ⟨(i 0).val / 1024 * 4 + 3, by omega⟩
  refine ⟨t, (flush6_4 t).mpr (by show ((i 0).val / 1024 * 4 + 3) % 4 = 3; omega), ?_⟩
  rw [mem_blk6_4]
  obtain ⟨-, -, -, -, -, -, -, -, e8, e9⟩ := idx_facts6 t
  have e8' : win6_4.index t (0 : Fin 2) = ((i 0).val / 1024 * 4 + 3) / 4 := e8
  intro a
  match a with
  | ⟨0, _⟩ => show win6_4.index t (0 : Fin 2) * 1024 ≤ (i 0).val ∧ (i 0).val < win6_4.index t (0 : Fin 2) * 1024 + 1024; omega
  | ⟨1, _⟩ => show win6_4.index t (1 : Fin 2) * 256 ≤ (i 1).val ∧ (i 1).val < win6_4.index t (1 : Fin 2) * 256 + 256; omega

/-- THE FIRST OUTPUT ARRAY after the region: P·Y. -/
theorem final6_3 (c : Dev nD) :
    (dat6 V c).arrAt 3 cfg6.N = Cert.Spec.mulP (V c (Pipeline.arrRef spec6 0)) (V c (Pipeline.arrRef spec6 1)) :=
  (dat6 V c).arrAt_eq_of_cover 3 _ (fun t hf => flushed6_3_eq V c t hf) (cover6_3)

/-- THE SECOND OUTPUT ARRAY after the region: the running total plus the normalized rows of P·Y. -/
theorem final6_4 (c : Dev nD) :
    (dat6 V c).arrAt 4 cfg6.N = Cert.Spec.layerAcc (V c (Pipeline.arrRef spec6 2))
      (Cert.Spec.mulP (V c (Pipeline.arrRef spec6 0)) (V c (Pipeline.arrRef spec6 1))) :=
  (dat6 V c).arrAt_eq_of_cover 4 _ (fun t hf => flushed6_4_eq V c t hf) (cover6_4)

end Cert.KernelIdeal.Gen

end
-- ==== Proof.RefSide.lean ====
/-
  The reference program, read as mathematics.

  Its first operations compute a session embedding S (4096×256): the item table with a zero row in front, gathered at the
  session's item numbers, summed over the 50 positions and divided by the session's length. It forms the propagation
  matrix P = D·A once, and cuts the 3×256×256 weight stack into three 256×256 matrices, each transposed. Then, three times,
  x ↦ z = P·(x·Wᵢ), and the rows of z divided by max(‖row‖₂, ε) are added to a running total that starts at S; the
  result is the total divided by 4.

  Every matrix product of the reference contracts one axis and is, entry by entry, the plain sum over the contracted
  coordinate; its norm function is the square root of the sum, from a zero initial value, of a row's squares, laid out as
  a column and copied along the rows. So the reference's result is the specification's network applied to P, the three
  transposed weight matrices and S — the same sums in the same order on both sides, so nothing about finiteness is used.
  The embedding and the weight matrices are kept as the reference spells them: the gather, the concatenation and the
  slices are never opened.
-/
import proofs.«136557_j13331578487504_1_alg».proof.Defs
import proofs.«136557_j13331578487504_1_alg».proof.Proof.Gen.ReferenceIdeal
import proofs.«136557_j13331578487504_1_alg».proof.Proof.Gen.ReferenceIdeal.Run
import proofs.«136557_j13331578487504_1_alg».proof.Proof.Gen.ReferenceIdeal.Read
import proofs.«136557_j13331578487504_1_alg».proof.Proof.Gen.Pre_finite_inputs
import proofs.«136557_j13331578487504_1_alg».proof.Proof.Spec
import Idealize.ShloMosaic.Lib.StackMember

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

/-! ## What the reference feeds the network: the session embedding and the three transposed weight slices -/

/-- The session embedding, as the reference's first operations spell it: the item table with a zero row put in
    front, its rows gathered at the session's item numbers (a negative number counted from the end), summed over the
    session's 50 positions from a zero initial value, each row divided by the session's length. -/
def sR (a0 : (⟨S50000x256, .f32⟩ : BufTy).Contents (Elt Ideal)) (a3 : (⟨S4096x50, .i32⟩ : BufTy).Contents (Elt Ideal))
    (a4 : (⟨S4096x1, .f32⟩ : BufTy).Contents (Elt Ideal)) : Spec.M4096x256 :=
  Host.divf (F := Ideal) (Host.reduceAdd (F := Ideal) (Host.gather gather_S50001x256_S4096x50x1_S4096x50x256_2_0_n_n_0_2_1256 (concatenate S50001x256 0 [⟨S1x256, (broadcastInDim S1x256 ![] bcast_S_S1x256 (constant (F := Ideal) S_ .f32 0x00000000#32))⟩, ⟨S50000x256, a0⟩] concatenates_S1x256_S50000x256_S50001x256_d0) (broadcastInDim S4096x50x1 ![0, 1] bcast_S4096x50_S4096x50x1_0_1 (select (cmpi .slt a3 (broadcastInDim S4096x50 ![] bcast_S_S4096x50 (constantI S_ 32 0#32))) (addi a3 (broadcastInDim S4096x50 ![] bcast_S_S4096x50 (constantI S_ 32 50001#32))) a3))) (constant (F := Ideal) S_ .f32 0x00000000#32) reducesTo_S4096x50x256_S4096x256_d1 h_S_) (broadcastInDim S4096x256 ![0, 1] bcast_S4096x1_S4096x256_0_1 a4)

/-- The first weight matrix, transposed: slice 0 of the 3×256×256 stack, its unit axis dropped, rows and columns swapped. -/
def wR0 (a5 : (⟨S3x256x256, .f32⟩ : BufTy).Contents (Elt Ideal)) : Spec.M256x256 :=
  transpose S256x256 [1, 0] (shapeCast _ (extractStridedSlice S1x256x256 ![0, 0, 0] a5 slices_S3x256x256_S1x256x256_0_0_0) shapeCasts_S1x256x256_S256x256) transposes_S256x256_S256x256_1_0
/-- The second weight matrix, transposed (slice 1). -/
def wR1 (a5 : (⟨S3x256x256, .f32⟩ : BufTy).Contents (Elt Ideal)) : Spec.M256x256 :=
  transpose S256x256 [1, 0] (shapeCast _ (extractStridedSlice S1x256x256 ![1, 0, 0] a5 slices_S3x256x256_S1x256x256_1_0_0) shapeCasts_S1x256x256_S256x256) transposes_S256x256_S256x256_1_0
/-- The third weight matrix, transposed (slice 2). -/
def wR2 (a5 : (⟨S3x256x256, .f32⟩ : BufTy).Contents (Elt Ideal)) : Spec.M256x256 :=
  transpose S256x256 [1, 0] (shapeCast _ (extractStridedSlice S1x256x256 ![2, 0, 0] a5 slices_S3x256x256_S1x256x256_2_0_0) shapeCasts_S1x256x256_S256x256) transposes_S256x256_S256x256_1_0

/-- These are the values of the reference's buffers %11, %15, %26 and %37. -/
theorem sR_eq (a0 : (⟨S50000x256, .f32⟩ : BufTy).Contents (Elt Ideal)) (a3 : (⟨S4096x50, .i32⟩ : BufTy).Contents (Elt Ideal))
    (a4 : (⟨S4096x1, .f32⟩ : BufTy).Contents (Elt Ideal)) : Read.val_main_v11 (F := Ideal) a0 a3 a4 = sR a0 a3 a4 := rfl
theorem wR0_eq (a5 : (⟨S3x256x256, .f32⟩ : BufTy).Contents (Elt Ideal)) : Read.val_main_v15 (F := Ideal) a5 = wR0 a5 := rfl
theorem wR1_eq (a5 : (⟨S3x256x256, .f32⟩ : BufTy).Contents (Elt Ideal)) : Read.val_main_v26 (F := Ideal) a5 = wR1 a5 := rfl
theorem wR2_eq (a5 : (⟨S3x256x256, .f32⟩ : BufTy).Contents (Elt Ideal)) : Read.val_main_v37 (F := Ideal) a5 = wR2 a5 := rfl

/-! ## The three matrix products -/

/-- The propagation matrix: the reference's product of its two 4096×4096 arguments is D·A, entry by entry the sum over
    the contracted coordinate. -/
theorem dotDA_eq (D A : FVec Ideal S4096x4096 .f32) :
    Host.dotGeneral dot_S4096x4096_S4096x4096_S4096x4096_1_0_0_1_n_n none D A = Spec.mulDA D A := by
  funext i
  obtain ⟨r, c, rfl⟩ : ∃ (r : Fin 4096) (c : Fin 4096), i = ix2 r c := ⟨i 0, i 1, eq_ix2 i⟩
  exact StackMember.dotGeneral_plain_apply (m := 4096) (n := 4096) (k := 4096) none D A r c

/-- A 4096×256 matrix times a 256×256 weight matrix. -/
theorem dotW_eq (X : FVec Ideal S4096x256 .f32) (W : FVec Ideal S256x256 .f32) :
    Host.dotGeneral dot_S4096x256_S256x256_S4096x256_1_0_0_1_n_n none X W = Spec.mulW X W := by
  funext i
  obtain ⟨r, c, rfl⟩ : ∃ (r : Fin 4096) (c : Fin 256), i = ix2 r c := ⟨i 0, i 1, eq_ix2 i⟩
  exact StackMember.dotGeneral_plain_apply (m := 4096) (n := 256) (k := 256) none X W r c

/-- The propagation matrix times a 4096×256 matrix. -/
theorem dotP_eq (P : FVec Ideal S4096x4096 .f32) (Y : FVec Ideal S4096x256 .f32) :
    Host.dotGeneral dot_S4096x4096_S4096x256_S4096x256_1_0_0_1_n_n none P Y = Spec.mulP P Y := by
  funext i
  obtain ⟨r, c, rfl⟩ : ∃ (r : Fin 4096) (c : Fin 256), i = ix2 r c := ⟨i 0, i 1, eq_ix2 i⟩
  exact StackMember.dotGeneral_plain_apply (m := 4096) (n := 256) (k := 4096) none P Y r c

/-! ## Broadcasts read at an index -/

/-- A 4096×1 column copied along the rows: entry (r, c) is the column's entry (r, 0). -/
theorem bcastCols_apply (y : FVec Ideal S4096x1 .f32) (i : S4096x256.Idx) :
    broadcastInDim S4096x256 ![0, 1] bcast_S4096x1_S4096x256_0_1 y i = y (ix2 (i 0) (0 : Fin 1)) :=
  broadcastInDim_apply _ bcast_S4096x1_S4096x256_0_1 y i (ix2 (i 0) (0 : Fin 1)) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

/-- A vector of 4096 entries laid out as a 4096×1 column. -/
theorem column_apply (y : FVec Ideal S4096 .f32) (j : S4096x1.Idx) :
    broadcastInDim S4096x1 ![0] bcast_S4096_S4096x1_0 y j = y (ix1 (j 0)) :=
  broadcastInDim_apply _ bcast_S4096_S4096x1_0 y j (ix1 (j 0)) (fun a => match a with
    | ⟨0, _⟩ => by show (j 0).val = if (4096 : Nat) = 1 then 0 else (j 0).val; rw [if_neg (by decide)])

/-- A scalar copied into a 4096×1 column. -/
theorem splatCol_apply (y : FVec Ideal S_ .f32) (j : S4096x1.Idx) :
    broadcastInDim S4096x1 ![] bcast_S_S4096x1 y j = y ix0 :=
  broadcastInDim_apply _ bcast_S_S4096x1 y j ix0 (fun a => a.elim0)

/-- A scalar copied into a 4096×256 matrix. -/
theorem splat_apply (y : FVec Ideal S_ .f32) (i : S4096x256.Idx) :
    broadcastInDim S4096x256 ![] bcast_S_S4096x256 y i = y ix0 :=
  broadcastInDim_apply _ bcast_S_S4096x256 y i ix0 (fun a => a.elim0)

/-! ## The row norms -/

/-- The reference's sum, from a zero initial value, of the squares along a row. -/
theorem sumsq_apply (Z : FVec Ideal S4096x256 .f32) (j : S4096.Idx) :
    Host.reduceAdd (F := Ideal) (mulf Z Z) (constant S_ .f32 0x00000000#32) reducesTo_S4096x256_S4096_d1 h_S_ j
      = ∑ k : Fin 256, Z (ix2 (j 0) k) * Z (ix2 (j 0) k) := by
  simp only [Host.reduceAdd, Ideal.hostReduceAdd_def]
  rw [Ideal.hostReduceAdd_single reducesTo_S4096x256_S4096_d1 (by decide)]
  show Ideal.ofBits .f32 0x00000000#32 + _ = _
  rw [Ideal.ofBits_zero_f32, zero_add]
  refine Finset.sum_congr rfl fun k _ => ?_
  exact congrArg (fun x => Z x * Z x) (funext fun a => Fin.ext (by match a with | ⟨0, _⟩ => rfl | ⟨1, _⟩ => rfl))

/-- The reference's norm function followed by the clamp, copied along the rows: at (r, c) the larger of row r's
    Euclidean norm and ε. -/
theorem clampedNorm_apply (Z : FVec Ideal S4096x256 .f32) (i : S4096x256.Idx) :
    broadcastInDim S4096x256 ![0, 1] bcast_S4096x1_S4096x256_0_1
      (maximumf (F := Ideal)
        (Host.sqrt (broadcastInDim S4096x1 ![0] bcast_S4096_S4096x1_0
          (Host.reduceAdd (mulf Z Z) (constant S_ .f32 0x00000000#32) reducesTo_S4096x256_S4096_d1 h_S_)))
        (broadcastInDim S4096x1 ![] bcast_S_S4096x1 (constant S_ .f32 0x2B8CBCCC#32))) i
      = max (Spec.rowNorm Z (i 0)) Spec.eps := by
  rw [bcastCols_apply, maximumf_apply, splatCol_apply]
  show max (Ideal.sqrt (broadcastInDim S4096x1 ![0] bcast_S4096_S4096x1_0
      (Host.reduceAdd (F := Ideal) (mulf Z Z) (constant S_ .f32 0x00000000#32) reducesTo_S4096x256_S4096_d1 h_S_) (ix2 (i 0) (0 : Fin 1)))) _ = _
  rw [column_apply, sumsq_apply]
  rfl

/-- Dividing by that matrix normalises each row. -/
theorem normalized_eq (Z : FVec Ideal S4096x256 .f32) :
    Host.divf (F := Ideal) Z (broadcastInDim S4096x256 ![0, 1] bcast_S4096x1_S4096x256_0_1
      (maximumf (F := Ideal)
        (Host.sqrt (broadcastInDim S4096x1 ![0] bcast_S4096_S4096x1_0
          (Host.reduceAdd (mulf Z Z) (constant S_ .f32 0x00000000#32) reducesTo_S4096x256_S4096_d1 h_S_)))
        (broadcastInDim S4096x1 ![] bcast_S_S4096x1 (constant S_ .f32 0x2B8CBCCC#32))))
      = Spec.normalized Z := by
  funext i
  exact congrArg (Ideal.div (Z i)) (clampedNorm_apply Z i)

/-- Adding a layer's normalised value to the running total. -/
theorem layerAcc_eq (acc Z : FVec Ideal S4096x256 .f32) :
    addf (F := Ideal) acc (Spec.normalized Z) = Spec.layerAcc acc Z := rfl

/-- The last operation: every entry divided by the word of 4. -/
theorem quarter_eq (X : FVec Ideal S4096x256 .f32) :
    Host.divf (F := Ideal) X (broadcastInDim S4096x256 ![] bcast_S_S4096x256 (constant S_ .f32 0x40800000#32))
      = fun i => Ideal.div (X i) Spec.four := by
  funext i
  exact congrArg (Ideal.div (X i)) (splat_apply _ i)

/-! ## The reference, layer by layer -/

section Layers
variable (a0 : (⟨S50000x256, .f32⟩ : BufTy).Contents (Elt Ideal)) (a1 a2 : (⟨S4096x4096, .f32⟩ : BufTy).Contents (Elt Ideal))
  (a3 : (⟨S4096x50, .i32⟩ : BufTy).Contents (Elt Ideal)) (a4 : (⟨S4096x1, .f32⟩ : BufTy).Contents (Elt Ideal))
  (a5 : (⟨S3x256x256, .f32⟩ : BufTy).Contents (Elt Ideal))

/-- Buffer %12 is the propagation matrix D·A. -/
theorem propagation_eq : Read.val_main_v12 (F := Ideal) a1 a2 = Spec.mulDA a1 a2 := dotDA_eq a1 a2

/-- Layer 1's propagated value (%17): P·(S·W₀). -/
theorem z1_eq : Read.val_main_v17 (F := Ideal) a0 a1 a2 a3 a4 a5
    = Spec.layerZ (Spec.mulDA a1 a2) (wR0 a5) (sR a0 a3 a4) := by
  unfold Read.val_main_v17 Read.val_main_v16
  rw [propagation_eq, sR_eq, wR0_eq, dotW_eq, dotP_eq]
  rfl

/-- The running total after layer 1 (%23): S plus layer 1's value with its rows normalised. -/
theorem acc1_eq : Read.val_main_v23 (F := Ideal) a0 a1 a2 a3 a4 a5
    = Spec.layerAcc (sR a0 a3 a4) (Spec.layerZ (Spec.mulDA a1 a2) (wR0 a5) (sR a0 a3 a4)) := by
  unfold Read.val_main_v23 Read.val_main_v22 Read.val_main_v21 Read.val_main_v20 Read.val_main_v19 Read.val_main_cst_2
    Read.val_main_v18 Read.val_main_call0_v2 Read.val_main_call0_v1 Read.val_main_call0_cst Read.val_main_call0_v0
  rw [z1_eq, sR_eq, normalized_eq]
  rfl

/-- Layer 2's propagated value (%28): P·(z₁·W₁). -/
theorem z2_eq : Read.val_main_v28 (F := Ideal) a0 a1 a2 a3 a4 a5
    = Spec.layerZ (Spec.mulDA a1 a2) (wR1 a5) (Spec.layerZ (Spec.mulDA a1 a2) (wR0 a5) (sR a0 a3 a4)) := by
  unfold Read.val_main_v28 Read.val_main_v27
  rw [propagation_eq, z1_eq, wR1_eq, dotW_eq, dotP_eq]
  rfl

/-- The running total after layer 2 (%34). -/
theorem acc2_eq : Read.val_main_v34 (F := Ideal) a0 a1 a2 a3 a4 a5
    = Spec.layerAcc (Spec.layerAcc (sR a0 a3 a4) (Spec.layerZ (Spec.mulDA a1 a2) (wR0 a5) (sR a0 a3 a4)))
        (Spec.layerZ (Spec.mulDA a1 a2) (wR1 a5) (Spec.layerZ (Spec.mulDA a1 a2) (wR0 a5) (sR a0 a3 a4))) := by
  unfold Read.val_main_v34 Read.val_main_v33 Read.val_main_v32 Read.val_main_v31 Read.val_main_v30 Read.val_main_cst_3
    Read.val_main_v29 Read.val_main_call1_v2 Read.val_main_call1_v1 Read.val_main_call1_cst Read.val_main_call1_v0
  rw [acc1_eq, z2_eq, normalized_eq]
  rfl

/-- Layer 3's propagated value (%39): P·(z₂·W₂). -/
theorem z3_eq : Read.val_main_v39 (F := Ideal) a0 a1 a2 a3 a4 a5
    = Spec.layerZ (Spec.mulDA a1 a2) (wR2 a5)
        (Spec.layerZ (Spec.mulDA a1 a2) (wR1 a5) (Spec.layerZ (Spec.mulDA a1 a2) (wR0 a5) (sR a0 a3 a4))) := by
  unfold Read.val_main_v39 Read.val_main_v38
  rw [propagation_eq, z2_eq, wR2_eq, dotW_eq, dotP_eq]
  rfl

/-- The running total after layer 3 (%45). -/
theorem acc3_eq : Read.val_main_v45 (F := Ideal) a0 a1 a2 a3 a4 a5
    = Spec.layerAcc (Spec.layerAcc (Spec.layerAcc (sR a0 a3 a4) (Spec.layerZ (Spec.mulDA a1 a2) (wR0 a5) (sR a0 a3 a4)))
        (Spec.layerZ (Spec.mulDA a1 a2) (wR1 a5) (Spec.layerZ (Spec.mulDA a1 a2) (wR0 a5) (sR a0 a3 a4))))
        (Spec.layerZ (Spec.mulDA a1 a2) (wR2 a5)
          (Spec.layerZ (Spec.mulDA a1 a2) (wR1 a5) (Spec.layerZ (Spec.mulDA a1 a2) (wR0 a5) (sR a0 a3 a4)))) := by
  unfold Read.val_main_v45 Read.val_main_v44 Read.val_main_v43 Read.val_main_v42 Read.val_main_v41 Read.val_main_cst_4
    Read.val_main_v40 Read.val_main_call2_v2 Read.val_main_call2_v1 Read.val_main_call2_cst Read.val_main_call2_v0
  rw [acc2_eq, z3_eq, normalized_eq]
  rfl

/-- The reference's last value (%47) is the network of the specification: the total after three layers divided by 4. -/
theorem net_eq : Read.val_main_v47 (F := Ideal) a0 a1 a2 a3 a4 a5
    = Spec.net (Spec.mulDA a1 a2) (wR0 a5) (wR1 a5) (wR2 a5) (sR a0 a3 a4) := by
  unfold Read.val_main_v47 Read.val_main_v46 Read.val_main_cst_5
  rw [acc3_eq, quarter_eq]
  rfl

end Layers

/-! ## The reference's run -/

/-- The result term of the reference's run is the network, applied to the propagation matrix D·A of the two 4096×4096
    arguments, the three transposed weight slices and the session embedding. No finiteness is used: both sides are the same
    sums in the same order. -/
theorem ref_result (m : (ℓ : Loc nD τ sig) → Buf (Elt Ideal) ℓ) (c : Dev nD) :
    Cert.ReferenceIdeal.Value.res_main_v47 (F := Ideal) m c
      = Spec.net (Spec.mulDA (m ((c.tc : Thread nD τ).loc main_arg1)) (m ((c.tc : Thread nD τ).loc main_arg2)))
          (wR0 (m ((c.tc : Thread nD τ).loc main_arg5))) (wR1 (m ((c.tc : Thread nD τ).loc main_arg5)))
          (wR2 (m ((c.tc : Thread nD τ).loc main_arg5)))
          (sR (m ((c.tc : Thread nD τ).loc main_arg0)) (m ((c.tc : Thread nD τ).loc main_arg3)) (m ((c.tc : Thread nD τ).loc main_arg4))) :=
  (Read.val_main_v47_eq m c).trans (net_eq _ _ _ _ _ _)

/-- The reference runs to the end, faults nowhere and leaves its six arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result named: the network of the launch contents of the arguments. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v47)
          = Spec.net (Spec.mulDA (m ((c.tc : Thread nD τ).loc main_arg1)) (m ((c.tc : Thread nD τ).loc main_arg2)))
              (wR0 (m ((c.tc : Thread nD τ).loc main_arg5))) (wR1 (m ((c.tc : Thread nD τ).loc main_arg5)))
              (wR2 (m ((c.tc : Thread nD τ).loc main_arg5)))
              (sR (m ((c.tc : Thread nD τ).loc main_arg0)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.ReferenceIdeal.defs _ _).mono (fun _ h c => ⟨(h c).1.trans (ref_result m c), (h c).2⟩)
    (Cert.ReferenceIdeal.Value.run (F := Ideal) m ρ)

end Cert.RefSide

end
-- ==== Proof.HostI.lean ====
/-
  The kernel program's operations outside its seven kernels, read as mathematics.

  Before the first kernel the program computes the session embedding by exactly the reference's operations (zero row in
  front of the item table, gather at the item numbers, sum over the 50 positions, division by the length), so that buffer
  holds the reference's embedding of the launch contents. Before each dense layer it cuts that layer's 256×256 weight
  matrix out of the 3×256×256 stack and transposes it, as the reference does. After the last kernel it divides the running
  total by 4. None of these operations writes the two factors of the propagation matrix.
-/
import proofs.«136557_j13331578487504_1_alg».proof.Proof.RunI
import proofs.«136557_j13331578487504_1_alg».proof.Proof.RefSide
import proofs.«136557_j13331578487504_1_alg».proof.Proof.Spec

set_option maxRecDepth 16384

noncomputable section

namespace Cert.HostI

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

set_option maxHeartbeats 4000000 in
/-- Before the first kernel the program computes the session embedding by the reference's own operations: buffer %11
    holds the reference's embedding of the launch contents of the item table, the item numbers and the lengths. -/
theorem sess : X1 m ρ c (Proc.devRef .tc main_v11)
    = Cert.RefSide.sR (m ((c : Thread nD τ).loc main_arg0)) (m ((c : Thread nD τ).loc main_arg3)) (m ((c : Thread nD τ).loc main_arg4)) := by
  show StableHlo.after hostOps0 (X0 m ρ c) (Proc.devRef .tc main_v11) = _
  after_results_simp
  rfl

/-- Neither factor of the propagation matrix is touched by those operations. -/
theorem args1 : X1 m ρ c (Proc.devRef .tc main_arg1) = m ((c : Thread nD τ).loc main_arg1) :=
  (StableHlo.after_of_writes_sub hostOps0 _ hostOps0_writes (by decide)).trans rfl
theorem args2 : X1 m ρ c (Proc.devRef .tc main_arg2) = m ((c : Thread nD τ).loc main_arg2) :=
  (StableHlo.after_of_writes_sub hostOps0 _ hostOps0_writes (by decide)).trans rfl

/-- Before each dense layer the program cuts that layer's weight matrix out of the stack and transposes it, as the reference
    does: slice 0 before the first, -/
theorem w0 : X3 m ρ c (Proc.devRef .tc main_v15) = Cert.RefSide.wR0 (X2 m ρ c (Proc.devRef .tc main_arg5)) := by
  show StableHlo.after hostOps1 (X2 m ρ c) (Proc.devRef .tc main_v15) = _
  after_results
  rfl
/-- slice 1 before the second, -/
theorem w1 : X6 m ρ c (Proc.devRef .tc main_v20) = Cert.RefSide.wR1 (X5 m ρ c (Proc.devRef .tc main_arg5)) := by
  show StableHlo.after hostOps3 (X5 m ρ c) (Proc.devRef .tc main_v20) = _
  after_results
  rfl
/-- slice 2 before the third. -/
theorem w2 : X9 m ρ c (Proc.devRef .tc main_v25) = Cert.RefSide.wR2 (X8 m ρ c (Proc.devRef .tc main_arg5)) := by
  show StableHlo.after hostOps5 (X8 m ρ c) (Proc.devRef .tc main_v25) = _
  after_results
  rfl

/-- After the last kernel the running total is divided, entry by entry, by the word of 4. -/
theorem last : X12 m ρ c (Proc.devRef .tc main_v29)
    = fun i => Ideal.div (X11 m ρ c (Proc.devRef .tc main_v27_1) i) Cert.Spec.four := by
  show StableHlo.after hostOps7 (X11 m ρ c) (Proc.devRef .tc main_v29) = _
  after_results
  exact Cert.RefSide.quarter_eq _

end Cert.HostI

end
-- ==== Proof.ValueI.lean ====
import proofs.«136557_j13331578487504_1_alg».proof.Proof.RunI
import proofs.«136557_j13331578487504_1_alg».proof.Proof.ChainI
import proofs.«136557_j13331578487504_1_alg».proof.Proof.ValMatmul0
import proofs.«136557_j13331578487504_1_alg».proof.Proof.ValDense1
import proofs.«136557_j13331578487504_1_alg».proof.Proof.ValDense3
import proofs.«136557_j13331578487504_1_alg».proof.Proof.ValDense5
import proofs.«136557_j13331578487504_1_alg».proof.Proof.ValProp2
import proofs.«136557_j13331578487504_1_alg».proof.Proof.ValProp4
import proofs.«136557_j13331578487504_1_alg».proof.Proof.ValProp6
import proofs.«136557_j13331578487504_1_alg».proof.Proof.HostI
import proofs.«136557_j13331578487504_1_alg».proof.Proof.RefSide
import proofs.«136557_j13331578487504_1_alg».proof.Proof.Spec

set_option maxRecDepth 16384

noncomputable section

namespace Cert.KernelIdeal.Gen

open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg)

/-! # The kernel's result, stage by stage, is the network of Spec.lean

Each region's output array is the corresponding whole-array function of the arrays it was entered with; each of those
is what an earlier stage left, unchanged in between. -/

/-- The session embedding, the three weight matrices and the propagation matrix, as the run meets them. -/
abbrev sK (c : Dev nD) : M4096x256 := Cert.RefSide.sR (m ((c : Thread nD τ).loc main_arg0)) (m ((c : Thread nD τ).loc main_arg3)) (m ((c : Thread nD τ).loc main_arg4))
abbrev wK0 (c : Dev nD) : M256x256 := Cert.RefSide.wR0 (m ((c : Thread nD τ).loc main_arg5))
abbrev wK1 (c : Dev nD) : M256x256 := Cert.RefSide.wR1 (m ((c : Thread nD τ).loc main_arg5))
abbrev wK2 (c : Dev nD) : M256x256 := Cert.RefSide.wR2 (m ((c : Thread nD τ).loc main_arg5))
abbrev pK (c : Dev nD) : M4096x4096 := mulDA (m ((c : Thread nD τ).loc main_arg1)) (m ((c : Thread nD τ).loc main_arg2))

theorem X0_at (c : Dev nD) (r : Ref sig .tc) : X0 m ρ c (Proc.devRef .tc r) = m ((c : Thread nD τ).loc r) := rfl

theorem P_eq (c : Dev nD) : X2 m ρ c (Proc.devRef .tc main_v12) = pK m c := by
  have ha : X2 m ρ c (Proc.devRef .tc main_v12) = (dat0 (Y1 m ρ) c).arrAt 2 cfg0.N := X2_arr m ρ c 2
  rw [ha, final0 (Y1 m ρ) c]
  show mulDA (X1 m ρ c (Proc.devRef .tc main_arg1)) (X1 m ρ c (Proc.devRef .tc main_arg2)) = _
  rw [X1_main_arg1_from0, X1_main_arg2_from0, X0_at, X0_at]

theorem S_eq (c : Dev nD) : X1 m ρ c (Proc.devRef .tc main_v11) = sK m c := Cert.HostI.sess m ρ c

theorem W0_eq (c : Dev nD) : X3 m ρ c (Proc.devRef .tc main_v15) = wK0 m c := by
  rw [Cert.HostI.w0, X2_main_arg5_from0, X0_at]
theorem W1_eq (c : Dev nD) : X6 m ρ c (Proc.devRef .tc main_v20) = wK1 m c := by
  rw [Cert.HostI.w1, X5_main_arg5_from0, X0_at]
theorem W2_eq (c : Dev nD) : X9 m ρ c (Proc.devRef .tc main_v25) = wK2 m c := by
  rw [Cert.HostI.w2, X8_main_arg5_from0, X0_at]

/-- Layer 1: the dense product. -/
theorem y1_eq (c : Dev nD) : X4 m ρ c (Proc.devRef .tc main_v16) = mulW (sK m c) (wK0 m c) := by
  have ha : X4 m ρ c (Proc.devRef .tc main_v16) = (dat1 (Y3 m ρ) c).arrAt 2 cfg1.N := X4_arr m ρ c 2
  rw [ha, final1 (Y3 m ρ) c]
  show mulW (X3 m ρ c (Proc.devRef .tc main_v11)) (X3 m ρ c (Proc.devRef .tc main_v15)) = _
  rw [X3_main_v11_from1, S_eq, W0_eq]

/-- Layer 1: the propagated value. -/
theorem z1_eq (c : Dev nD) : X5 m ρ c (Proc.devRef .tc main_v17_0) = layerZ (pK m c) (wK0 m c) (sK m c) := by
  have ha : X5 m ρ c (Proc.devRef .tc main_v17_0) = (dat2 (Y4 m ρ) c).arrAt 3 cfg2.N := X5_arr m ρ c 3
  rw [ha, final2_3 (Y4 m ρ) c]
  show mulP (X4 m ρ c (Proc.devRef .tc main_v12)) (X4 m ρ c (Proc.devRef .tc main_v16)) = _
  rw [X4_main_v12_from2, P_eq, y1_eq]; rfl

/-- Layer 1: the running total. -/
theorem a1_eq (c : Dev nD) : X5 m ρ c (Proc.devRef .tc main_v17_1) = layerAcc (sK m c) (layerZ (pK m c) (wK0 m c) (sK m c)) := by
  have ha : X5 m ρ c (Proc.devRef .tc main_v17_1) = (dat2 (Y4 m ρ) c).arrAt 4 cfg2.N := X5_arr m ρ c 4
  rw [ha, final2_4 (Y4 m ρ) c]
  show layerAcc (X4 m ρ c (Proc.devRef .tc main_v11)) (mulP (X4 m ρ c (Proc.devRef .tc main_v12)) (X4 m ρ c (Proc.devRef .tc main_v16))) = _
  rw [X4_main_v11_from1, S_eq, X4_main_v12_from2, P_eq, y1_eq]; rfl

/-- Layer 2: the dense product. -/
theorem y2_eq (c : Dev nD) : X7 m ρ c (Proc.devRef .tc main_v21) = mulW (layerZ (pK m c) (wK0 m c) (sK m c)) (wK1 m c) := by
  have ha : X7 m ρ c (Proc.devRef .tc main_v21) = (dat3 (Y6 m ρ) c).arrAt 2 cfg3.N := X7_arr m ρ c 2
  rw [ha, final3 (Y6 m ρ) c]
  show mulW (X6 m ρ c (Proc.devRef .tc main_v17_0)) (X6 m ρ c (Proc.devRef .tc main_v20)) = _
  rw [X6_main_v17_0_from5, z1_eq, W1_eq]

/-- Layer 2: the propagated value. -/
theorem z2_eq (c : Dev nD) : X8 m ρ c (Proc.devRef .tc main_v22_0) = layerZ (pK m c) (wK1 m c) (layerZ (pK m c) (wK0 m c) (sK m c)) := by
  have ha : X8 m ρ c (Proc.devRef .tc main_v22_0) = (dat4 (Y7 m ρ) c).arrAt 3 cfg4.N := X8_arr m ρ c 3
  rw [ha, final4_3 (Y7 m ρ) c]
  show mulP (X7 m ρ c (Proc.devRef .tc main_v12)) (X7 m ρ c (Proc.devRef .tc main_v21)) = _
  rw [X7_main_v12_from2, P_eq, y2_eq]; rfl

/-- Layer 2: the running total. -/
theorem a2_eq (c : Dev nD) : X8 m ρ c (Proc.devRef .tc main_v22_1) = layerAcc (layerAcc (sK m c) (layerZ (pK m c) (wK0 m c) (sK m c))) (layerZ (pK m c) (wK1 m c) (layerZ (pK m c) (wK0 m c) (sK m c))) := by
  have ha : X8 m ρ c (Proc.devRef .tc main_v22_1) = (dat4 (Y7 m ρ) c).arrAt 4 cfg4.N := X8_arr m ρ c 4
  rw [ha, final4_4 (Y7 m ρ) c]
  show layerAcc (X7 m ρ c (Proc.devRef .tc main_v17_1)) (mulP (X7 m ρ c (Proc.devRef .tc main_v12)) (X7 m ρ c (Proc.devRef .tc main_v21))) = _
  rw [X7_main_v17_1_from5, a1_eq, X7_main_v12_from2, P_eq, y2_eq]; rfl

/-- Layer 3: the dense product. -/
theorem y3_eq (c : Dev nD) : X10 m ρ c (Proc.devRef .tc main_v26) = mulW (layerZ (pK m c) (wK1 m c) (layerZ (pK m c) (wK0 m c) (sK m c))) (wK2 m c) := by
  have ha : X10 m ρ c (Proc.devRef .tc main_v26) = (dat5 (Y9 m ρ) c).arrAt 2 cfg5.N := X10_arr m ρ c 2
  rw [ha, final5 (Y9 m ρ) c]
  show mulW (X9 m ρ c (Proc.devRef .tc main_v22_0)) (X9 m ρ c (Proc.devRef .tc main_v25)) = _
  rw [X9_main_v22_0_from8, z2_eq, W2_eq]

/-- Layer 3: the propagated value. -/
theorem z3_eq (c : Dev nD) : X11 m ρ c (Proc.devRef .tc main_v27_0) = layerZ (pK m c) (wK2 m c) (layerZ (pK m c) (wK1 m c) (layerZ (pK m c) (wK0 m c) (sK m c))) := by
  have ha : X11 m ρ c (Proc.devRef .tc main_v27_0) = (dat6 (Y10 m ρ) c).arrAt 3 cfg6.N := X11_arr m ρ c 3
  rw [ha, final6_3 (Y10 m ρ) c]
  show mulP (X10 m ρ c (Proc.devRef .tc main_v12)) (X10 m ρ c (Proc.devRef .tc main_v26)) = _
  rw [X10_main_v12_from2, P_eq, y3_eq]; rfl

/-- Layer 3: the running total. -/
theorem a3_eq (c : Dev nD) : X11 m ρ c (Proc.devRef .tc main_v27_1) = layerAcc (layerAcc (layerAcc (sK m c) (layerZ (pK m c) (wK0 m c) (sK m c))) (layerZ (pK m c) (wK1 m c) (layerZ (pK m c) (wK0 m c) (sK m c)))) (layerZ (pK m c) (wK2 m c) (layerZ (pK m c) (wK1 m c) (layerZ (pK m c) (wK0 m c) (sK m c)))) := by
  have ha : X11 m ρ c (Proc.devRef .tc main_v27_1) = (dat6 (Y10 m ρ) c).arrAt 4 cfg6.N := X11_arr m ρ c 4
  rw [ha, final6_4 (Y10 m ρ) c]
  show layerAcc (X10 m ρ c (Proc.devRef .tc main_v22_1)) (mulP (X10 m ρ c (Proc.devRef .tc main_v12)) (X10 m ρ c (Proc.devRef .tc main_v26))) = _
  rw [X10_main_v22_1_from8, a2_eq, X10_main_v12_from2, P_eq, y3_eq]; rfl

/-- THE KERNEL'S RESULT: the network of the specification, of the argument arrays. -/
theorem kernel_result (c : Dev nD) :
    X12 m ρ c (Proc.devRef .tc main_v29) = net (pK m c) (wK0 m c) (wK1 m c) (wK2 m c) (sK m c) := by
  rw [Cert.HostI.last, a3_eq]; rfl

end Cert.KernelIdeal.Gen

end
-- ==== Proof.lean ====
/-
  The proof of `Cert.Claim`: the session-graph propagation kernel against its reference.

  Both programs compute, on the extended reals, the network of Proof/Spec.lean: a session embedding S (a gather of
  embedding rows summed and divided by the session length — the same host operations in both programs, never opened),
  P = D·A, and three layers x ↦ z = P·(x·Wᵀ), acc ↦ acc + z / max(‖z‖₂, ε) row by row, the result acc / 4.
  The kernel tiles each product: D·A and P·y are accumulated over four blocks of the contracted axis in a scratch
  accumulator, which is the same sum as the whole contraction (addition of extended reals is commutative and
  associative: no finiteness is needed); x·Wᵀ is computed one block of 1024 rows at a time.

  The three frames: the reference's is its run with the result dropped; each kernel program's is the run of its seven
  regions (Proof/RunK.lean at the word level, Proof/RunI.lean at the ideal level), every argument array read back
  through the stages, none of which writes it. The idealization rewrote nothing, so `preserves` is trivial.
-/
import proofs.«136557_j13331578487504_1_alg».proof.Defs
import proofs.«136557_j13331578487504_1_alg».proof.Proof.Gen.Kernel
import proofs.«136557_j13331578487504_1_alg».proof.Proof.Gen.KernelIdeal
import proofs.«136557_j13331578487504_1_alg».proof.Proof.Gen.ReferenceIdeal
import proofs.«136557_j13331578487504_1_alg».proof.Proof.Gen.Pre_finite_inputs
import proofs.«136557_j13331578487504_1_alg».proof.Proof.RunK
import proofs.«136557_j13331578487504_1_alg».proof.Proof.RunI
import proofs.«136557_j13331578487504_1_alg».proof.Proof.ValueI
import proofs.«136557_j13331578487504_1_alg».proof.Proof.RefSide
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ

open Cert.KernelIdeal Cert.KernelIdeal.Gen in
/-- From memories agreeing on the arguments both programs end with the network's value of those arguments. -/
theorem algebraic : Cert.algebraic_KernelIdeal_ReferenceIdeal := by
  intro m ρ m' ρ' _ hagree
  refine ⟨fun c => Cert.Spec.net (pK m c) (wK0 m c) (wK1 m c) (wK2 m c) (sK m c), ?_, ?_⟩
  · exact (θ_run Cert.KernelIdeal.defs _ _).mono (fun r h c =>
      ⟨(h c _ (mem_uc main_v29 (by decide))).trans (kernel_result m ρ c),
       (h c _ (mem_uc main_arg0 (by decide))).trans (X12_main_arg0 m ρ c),
       (h c _ (mem_uc main_arg1 (by decide))).trans (X12_main_arg1 m ρ c),
       (h c _ (mem_uc main_arg2 (by decide))).trans (X12_main_arg2 m ρ c),
       (h c _ (mem_uc main_arg3 (by decide))).trans (X12_main_arg3 m ρ c),
       (h c _ (mem_uc main_arg4 (by decide))).trans (X12_main_arg4 m ρ c),
       (h c _ (mem_uc main_arg5 (by decide))).trans (X12_main_arg5 m ρ c)⟩) (run_all m ρ)
  · refine (θ_run Cert.ReferenceIdeal.defs _ _).mono (fun r h c => ⟨?_, (h c).2⟩) (Cert.RefSide.ref_run m' ρ')
    rw [(h c).1, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, Cert.RefSide.frame_ri, trivial, algebraic⟩

end Cert.Proof

end
